-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S1x1024 : Shape := ⟨2, ![1, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩

abbrev nBuf : Space → Nat
  | .hbm => 27
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1x3072, .f32⟩
  | .hbm, ⟨7, _⟩ => ⟨S8192x3072, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S4x2048x16x64, .bf16⟩
  | .hbm, ⟨12, _⟩ => ⟨S4x16x2048x64, .bf16⟩
  | .hbm, ⟨13, _⟩ => ⟨S64x2048x64, .bf16⟩
  | .hbm, ⟨14, _⟩ => ⟨S4x2048x16x64, .bf16⟩
  | .hbm, ⟨15, _⟩ => ⟨S4x16x2048x64, .bf16⟩
  | .hbm, ⟨16, _⟩ => ⟨S64x2048x64, .bf16⟩
  | .hbm, ⟨17, _⟩ => ⟨S4x2048x16x64, .bf16⟩
  | .hbm, ⟨18, _⟩ => ⟨S4x16x2048x64, .bf16⟩
  | .hbm, ⟨19, _⟩ => ⟨S64x2048x64, .bf16⟩
  | .hbm, ⟨20, _⟩ => ⟨S64x2048x64, .bf16⟩
  | .hbm, ⟨21, _⟩ => ⟨S4x16x2048x64, .bf16⟩
  | .hbm, ⟨22, _⟩ => ⟨S4x2048x16x64, .bf16⟩
  | .hbm, ⟨23, _⟩ => ⟨S8192x1024, .bf16⟩
  | .hbm, ⟨24, _⟩ => ⟨S1x1024, .f32⟩
  | .hbm, ⟨25, _⟩ => ⟨S8192x1024, .f32⟩
  | .hbm, ⟨26, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x512x64, .bf16⟩
  | .local _ .vmem, ⟨9, _⟩ => ⟨S1x512x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x512x64, .bf16⟩
  | .local _ .vmem, ⟨15, _⟩ => ⟨S1x512x64, .bf16⟩
  | .local _ .vmem, ⟨16, _⟩ => ⟨S512x1, .f32⟩
  | .local _ .vmem, ⟨17, _⟩ => ⟨S512x1, .f32⟩
  | .local _ .vmem, ⟨18, _⟩ => ⟨S512x64, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![64, 4, 4], ![false, false, false]⟩

def k1_cond2 (i : grid1.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_1 : BitVec 32 := 0#32
  let v5 : BitVec 1 := Scalar.cmpi .ne v4 c0_i32_1
  v5

def k1_mult1 (i : grid1.Coords) : BitVec 32 :=
  let arg2 : BitVec 32 := BitVec.ofNat 32 (i 2).val
  let c512_i32 : BitVec 32 := 512#32
  let v9 : BitVec 32 := Scalar.muli arg2 c512_i32
  v9
def k1_off1 (i : grid1.Coords) : Fin 3 → Nat :=
  let c0_5 : Index := 0#32
  let arg2 : BitVec 32 := BitVec.ofNat 32 (i 2).val
  let c512_i32 : BitVec 32 := 512#32
  let v9 : BitVec 32 := Scalar.muli arg2 c512_i32
  let v10 : BitVec 32 := v9
  let v13 : Index := Scalar.indexCast v10
  let c0_6 : Index := 0#32
  ![0, v13.toNat, 0]
def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x1024_S8192x1024 : S4x2048x1024.ShapeCasts S8192x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S1024_S1x1024 : S1024.ShapeCasts S1x1024
  shapeCasts_S8192x1024_S4x2048x1024 : S8192x1024.ShapeCasts S4x2048x1024
  dot_S512x1024_S1024x1024_S512x1024_1_1_0_0_n_n_wf : DotDims.WF S512x1024 S1024x1024 S512x1024 [1] [1] [0] [0] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .f32 = 32 ∨ (Rect.block (s := S3072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x3072.size a
  hwx0_3 : ∀ i : grid0.Coords, EltTy.bits .bf16 = 32 ∨ (Rect.block (s := S8192x3072) S512x1024.size (cc0_transform_3 i) (hinb0_3 i)).WholeWords (EltTy.packing .bf16)
  hrank1 : 0 < grid1.rank
  k1_mult1_dvd : ∀ i : grid1.Coords, ∀ (k1_h2 : k1_cond2 i = 1#1), 512 ∣ (k1_mult1 i).toNat
  k1_off1_inb : ∀ i : grid1.Coords, ∀ (k1_h2 : k1_cond2 i = 1#1), ∀ a, (k1_off1 i) a + S1x512x64.size a ≤ S1x2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x2048x64.size a
  hwx1_0 : ∀ i : grid1.Coords, EltTy.bits .bf16 = 32 ∨ (Rect.block (s := S64x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S64x2048x64.size a
  hwx1_3 : ∀ i : grid1.Coords, EltTy.bits .bf16 = 32 ∨ (Rect.block (s := S64x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v18) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .i1⟩
  | .hbm, ⟨20, _⟩ => ⟨S2048x2048, .i1⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .i1⟩
  | .hbm, ⟨28, _⟩ => ⟨S2048x2048, .i1⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x16x2048x2048, .i1⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048, .f32⟩
  | .hbm, ⟨40, _⟩ => ⟨S_, .f32⟩
  | .hbm, ⟨41, _⟩ => ⟨S4x16x2048, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x2048, .f32⟩
  | .hbm, ⟨47, _⟩ => ⟨S_, .f32⟩
  | .hbm, ⟨48, _⟩ => ⟨S4x16x2048, .f32⟩
  | .hbm, ⟨49, _⟩ => ⟨S4x16x2048x1, .f32⟩
  | .hbm, ⟨50, _⟩ => ⟨S4x16x2048x2048, .f32⟩
  | .hbm, ⟨51, _⟩ => ⟨S4x16x2048x2048, .f32⟩
  | .hbm, ⟨52, _⟩ => ⟨S4x16x2048x64, .f32⟩
  | .hbm, ⟨53, _⟩ => ⟨S4x2048x16x64, .f32⟩
  | .hbm, ⟨54, _⟩ => ⟨S4x2048x1024, .f32⟩
  | .hbm, ⟨55, _⟩ => ⟨S4x2048x1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v15 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KRegion0.lean ====
import proofs.«125597_j3710851744401_2_alg».proof.Proof.Gen.Kernel.Launch
import proofs.«125597_j3710851744401_2_alg».proof.Proof.Gen.Kernel.Skeleton
import proofs.«125597_j3710851744401_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the linear layer `cc0__linear_kernel`, its body half

The body is of the plainest class: it loads the three input windows' blocks whole (an activation block, a weight
block, a bias row), computes one pure value of them (the skeleton's payload `k0_pay1`: the product of the activation
block with the transposed weight block, plus the broadcast bias row), and stores that value over the whole output
block. (It also loads the output block once before the store; the value read is not used.) So what the body leaves
in the output window's staging buffer is a closed function `out0_3` of the three input blocks at the point, and the
input buffers are left as found. Everything is stated at a parameter `V`, the TensorCore's buffer contents when the
region is entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (an unfetched point has the block index of the point before, whose block the buffer still holds), for any
    proof data whose array is `V`'s and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not (an unfetched point has the block index of the point before, whose block the buffer still holds), for any
    proof data whose array is `V`'s and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    not (an unfetched point has the block index of the point before, whose block the buffer still holds), for any
    proof data whose array is `V`'s and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-! ## What the body leaves in the output window's buffer -/

/-- Window 3's staging buffer after the body, from the input windows' blocks: its one store, of the payload of the
    three loaded blocks, laid over the buffer. -/
def out0_3 (x0 : Vec F S512x1024 .f32) (x1 : Vec F S1024x1024 .f32) (x2 : Vec F S1x1024 .f32) : Vec F S512x1024 .bf16 :=
  View.canon [⟨rx0, k0_pay1 (View.ld x0 rx0) (View.ld x1 rw0) (View.ld x2 rb0)⟩]

/-- The one store is of the whole block, so it covers the buffer. -/
theorem cover0_3 (p0 : Vec F S512x1024 .bf16) (y : S512x1024.Idx) :
    ∃ pc ∈ ([⟨rx0, p0⟩] : List (View.Piece (Elt F) S512x1024 .bf16)), y ∈ pc.1.set :=
  View.cover_of_tiled [⟨rx0, p0⟩] S512x1024.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg0 : Memref sig .tc .vmem S512x1024 .f32) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the class's (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
import proofs.«125597_j3710851744401_2_alg».proof.Proof.Gen.Kernel.Launch
import proofs.«125597_j3710851744401_2_alg».proof.Proof.Gen.Kernel.Skeleton
import proofs.«125597_j3710851744401_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 (causal flash attention): what the five runs of its body share

The body has three conditionals on the grid point `(bh, qi, ki)`: `ki = 0` (reset the running maximum, the running
denominator and the accumulator), `ki ≤ qi` (one online-softmax step over key/value rows `[512·ki, 512·ki + 512)`),
`ki = 3` (divide the accumulator by the denominator and store the output block). Point number
`t = 16·bh + 4·qi + ki`, so `ki = t % 4` and `qi = (t / 4) % 4`. -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions -/

/-- `ki = 0`, as the kernel computes it. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- `ki ≤ qi` (signed), as the kernel computes it. -/
abbrev cond1_1 (i : grid1.Coords) : Prop := k1_cond2 i = 1#1
/-- It holds where `t % 4 ≤ (t / 4) % 4`: no periodic form in `t`, stated as it is. -/
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)

/-- `ki = 3`, as the kernel computes it. -/
abbrev cond1_2 (i : grid1.Coords) : Prop := k1_cond3 i = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
/-- Where `ki ≠ 3` nothing is stored into the output block: the window is idle there, -/
theorem idleAt1_3 : ∀ t : Fin cfg1.N, ¬cond1_2 (grid1.coords t) → cfg1.idle 3 (grid1.coords t) = true := by decide +kernel
/-- and the pipeline does not write the block back. -/
theorem noFlush1_3 : ∀ t : Fin cfg1.N, ¬cond1_2 (grid1.coords t) → (cfg1.win 3).flush t = false := by decide +kernel
/-- Where `ki = 3` the output block is stored: the window is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)
/-- The running maximum `m`, the running denominator `l` and the accumulator `acc`: whole scoped buffers of the
    kernel's own, carried between grid points. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
abbrev VS1_0 : View sig .tc .vmem S512x1 .f32 := scM1_0.view
abbrev VS1_1 : View sig .tc .vmem S512x1 .f32 := scM1_1.view
abbrev VS1_2 : View sig .tc .vmem S512x64 .f32 := scM1_2.view
abbrev VO1_3 : View sig .tc .vmem S1x512x64 .bf16 := (Memref.whole cc1_stg3_0 : Memref sig .tc .vmem S1x512x64 .bf16).view

end Cert.Kernel.Hand

end
-- ==== Proof.KRegion1RunA.lean ====
import proofs.«125597_j3710851744401_2_alg».proof.Proof.KRegion1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- CASE A (`ki = 0`: reset, then one step; no output store). On whole memrefs — the three inputs at their contents,
    the output block at contents `xi3` handed back untouched, the three scratch buffers at anything — the body runs to the
    continuation holding the inputs as they were, the output block untouched and each scratch buffer with its pieces
    written (last first); the lists of pieces are given with the proof. -/
noncomputable def kernelRun1_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 : Vec F S1x512x64 .bf16) (x1 : Vec F S1x2048x64 .bf16) (x2 : Vec F S1x2048x64 .bf16) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨[], ?_, ?_, ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KRegion1RunB.lean ====
import proofs.«125597_j3710851744401_2_alg».proof.Proof.KRegion1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- CASE B (`ki ∈ {1, 2}`, `ki ≤ qi`: one step; no reset, no output store). The scratch buffers are handed in at the contents `xs·` the point before left and come back with their pieces written. -/
noncomputable def kernelRun1_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 : Vec F S1x512x64 .bf16) (x1 : Vec F S1x2048x64 .bf16) (x2 : Vec F S1x2048x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨[], ?_, ?_, ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KRegion1RunC.lean ====
import proofs.«125597_j3710851744401_2_alg».proof.Proof.KRegion1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- CASE C (`ki ∈ {1, 2}`, `ki > qi`: the key block lies wholly above the diagonal). None of the three conditionals is
    taken: the body touches no memory, and whatever is held is handed to the continuation as it was. -/
theorem kernelRun1_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (R : sProp 𝕄) (E : Set ℕ) (K : PUnit → sProp 𝕄) :
    iprop(R ∗ (R -∗ K ⟨⟩)) ⊢ wp frame (wpE (defs₀ (F := F)) Variants.none c none) E (cc1__kernel i arg3 harg3 arg4 harg4 arg5 harg5 arg6 harg6 arg7 harg7 arg8 harg8 arg9 harg9) K := by
  simp only [cc1__kernel_eq_skeleton]; unfold cc1__kernel_skel
  iintro ⟨HR, Hk⟩
  sl_exec (disch := first | exact hc0 | exact hc1 | exact hc2)
  sl_step
  iapply Hk
  iexact HR

end Cert.Kernel.Hand

end
-- ==== Proof.KRegion1RunD.lean ====
import proofs.«125597_j3710851744401_2_alg».proof.Proof.KRegion1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- CASE D (`ki = 3 = qi`: one step, then the output store). The scratch buffers are handed in at the contents `xs·` the point before left and come back with their pieces written; the output block, handed in at anything, comes back with its pieces written. -/
noncomputable def kernelRun1_D (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 : Vec F S1x512x64 .bf16) (x1 : Vec F S1x2048x64 .bf16) (x2 : Vec F S1x2048x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨?_, ?_, ?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KRegion1RunE.lean ====
import proofs.«125597_j3710851744401_2_alg».proof.Proof.KRegion1RunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- CASE E (`ki = 3`, `qi < 3`: the output store only). The scratch buffers are read and handed back as they were; the output block, handed in at anything, comes back with its pieces written. -/
noncomputable def kernelRun1_E (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 : Vec F S1x512x64 .bf16) (x1 : Vec F S1x2048x64 .bf16) (x2 : Vec F S1x2048x64 .bf16) (xs0 : Vec F S512x1 .f32) (xs1 : Vec F S512x1 .f32) (xs2 : Vec F S512x64 .f32) :
    { L3 : List (View.Piece (Elt F) S1x512x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    · iexists _; isplitr; · ipureintro; exact harg9.read_unread _
      iexact HS2

end Cert.Kernel.Hand

end
-- ==== Proof.KRegion1.lean ====
import proofs.«125597_j3710851744401_2_alg».proof.Proof.KRegion1RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A whole-buffer access

Every store of this kernel writes a whole buffer, and every load of a scratch buffer or of the query block reads a
whole buffer, through the unit-stride rectangle at offset zero of the buffer's own sizes; such a rectangle places each
index at itself, so a store leaves the buffer reading as the stored payload and a load reads the contents as they are. -/

theorem emb_unit_zero {s : Shape} (off : Fin s.rank → ℕ) (inb : ∀ a, off a + s.size a ≤ s.size a) (h0 : ∀ a, off a = 0) (x : s.Idx) :
    (Rect.unit off s.size inb).emb x = x := by
  funext a; apply Fin.ext; show off a + 1 * (x a : Nat) = x a; rw [h0 a]; omega

theorem idx_unit_zero {s : Shape} (off : Fin s.rank → ℕ) (inb : ∀ a, off a + s.size a ≤ s.size a) (h0 : ∀ a, off a = 0) (x : s.Idx) :
    (Rect.unit off s.size inb).idx x = x := by
  funext a; apply Fin.ext; show off a + 1 * (x a : Nat) = x a; rw [h0 a]; omega

theorem read_writes_wholeUnit {sig' : RefSig} {κ : Kind} {sp : Space} {s : Shape} {e : EltTy} {Val : EltTy → Type}
    (v : View sig' κ sp s e) (f : v.ty.Contents Val) (off : Fin s.rank → ℕ) (inb : ∀ a, off a + s.size a ≤ s.size a)
    (h0 : ∀ a, off a = 0) (w : s.Idx → Val e) (L : List (View.Piece Val s e)) :
    v.read Val (v.writes Val f (⟨Rect.unit off s.size inb, w⟩ :: L)) = w :=
  funext fun y => by
    have h := View.read_writes_cons_emb v f (Rect.unit off s.size inb) w L y
    rwa [emb_unit_zero off inb h0] at h

theorem ld_wholeUnit {s : Shape} {e : EltTy} {Val : EltTy → Type} (X : s.Idx → Val e) (off : Fin s.rank → ℕ)
    (inb : ∀ a, off a + s.size a ≤ s.size a) (h0 : ∀ a, off a = 0) :
    View.ld X (Rect.unit off s.size inb) = X :=
  funext fun x => congrArg X (idx_unit_zero off inb h0 x)

theorem ld_S512x1 {e : EltTy} {Val : EltTy → Type} (X : S512x1.Idx → Val e) :
    View.ld X (Rect.unit (s := S512x1) ![0, 0] ![512, 1] inb_S512x1_S512x1_0_0) = X :=
  ld_wholeUnit (s := S512x1) X _ _ (by decide)
theorem ld_S512x64 {e : EltTy} {Val : EltTy → Type} (X : S512x64.Idx → Val e) :
    View.ld X (Rect.unit (s := S512x64) ![0, 0] ![512, 64] inb_S512x64_S512x64_0_0) = X :=
  ld_wholeUnit (s := S512x64) X _ _ (by decide)
theorem ld_S1x512x64 {e : EltTy} {Val : EltTy → Type} (X : S1x512x64.Idx → Val e) :
    View.ld X (Rect.unit (s := S1x512x64) ![0, 0, 0] ![1, 512, 64] inb_S1x512x64_S1x512x64_0_0_0) = X :=
  ld_wholeUnit (s := S1x512x64) X _ _ (by decide)

/-! ## One online-softmax step, as pure functions of the blocks and the previous scratch contents

`x0` is the query block, `x1` / `x2` the head's resident keys / values, `m`, `l`, `acc` the running maximum, the running
denominator and the accumulator the step finds. -/

/-- The key (value) rows `[512·ki, 512·ki + 512)` of the head's resident buffer, as the step loads them. -/
def kvB (i : grid1.Coords) (h : cond1_1 i) (x : Vec F S1x2048x64 .bf16) : Vec F S1x512x64 .bf16 :=
  View.ld x (Rect.unit (s := S1x2048x64) (k1_off1 i) S1x512x64.size (k1_off1_inb i h))

/-- The new running maximum. -/
def stepM (i : grid1.Coords) (h : cond1_1 i) (x0 : Vec F S1x512x64 .bf16) (x1 : Vec F S1x2048x64 .bf16) (m : Vec F S512x1 .f32) : Vec F S512x1 .f32 :=
  k1_pay6 (k1_pay10 (BitVec.ofNat 32 (i 1).val) (BitVec.ofNat 32 (i 2).val) x0 (kvB i h x1) m)
/-- The new running denominator. -/
def stepL (i : grid1.Coords) (h : cond1_1 i) (x0 : Vec F S1x512x64 .bf16) (x1 : Vec F S1x2048x64 .bf16) (m l : Vec F S512x1 .f32) : Vec F S512x1 .f32 :=
  k1_pay4 (k1_pay13 (BitVec.ofNat 32 (i 1).val) (BitVec.ofNat 32 (i 2).val) x0 (kvB i h x1) m l)
/-- The new accumulator. -/
def stepAcc (i : grid1.Coords) (h : cond1_1 i) (x0 : Vec F S1x512x64 .bf16) (x1 x2 : Vec F S1x2048x64 .bf16) (m : Vec F S512x1 .f32) (acc : Vec F S512x64 .f32) : Vec F S512x64 .f32 :=
  k1_pay5 (k1_pay8 (kvB i h x2)) (k1_pay11 (BitVec.ofNat 32 (i 1).val) (BitVec.ofNat 32 (i 2).val) x0 (kvB i h x1) m)
    (k1_pay12 (BitVec.ofNat 32 (i 1).val) (BitVec.ofNat 32 (i 2).val) x0 (kvB i h x1) m) acc

section RunForms
variable (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
  (x0 : Vec F S1x512x64 .bf16) (x1 : Vec F S1x2048x64 .bf16) (x2 : Vec F S1x2048x64 .bf16)
  (xs0 : Vec F S512x1 .f32) (xs1 : Vec F S512x1 .f32) (xs2 : Vec F S512x64 .f32)

/-! ### What each case's stores leave, in closed form: the step functions at the contents the case found -/

theorem runA_m (hc0 : cond1_0 i) (hc1 : cond1_1 i) (hc2 : ¬cond1_2 i) (f : arg7.view.ty.Contents (Elt F)) :
    arg7.view.read (Elt F) (arg7.view.writes (Elt F) f (kernelRun1_A c i arg3 harg3 arg4 harg4 arg5 harg5 arg6 harg6 arg7 harg7 arg8 harg8 arg9 harg9 hc0 hc1 hc2 x0 x1 x2).2.1)
      = stepM i hc1 x0 x1 k1_pay1 := by
  unfold kernelRun1_A; dsimp only

  rw [read_writes_wholeUnit _ _ _ _ (by decide)]
  unfold kernelRun1_A.sl.r_1 kernelRun1_A.sl.v34 kernelRun1_A.sl.HS0_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runA_l (hc0 : cond1_0 i) (hc1 : cond1_1 i) (hc2 : ¬cond1_2 i) (f : arg8.view.ty.Contents (Elt F)) :
    arg8.view.read (Elt F) (arg8.view.writes (Elt F) f (kernelRun1_A c i arg3 harg3 arg4 harg4 arg5 harg5 arg6 harg6 arg7 harg7 arg8 harg8 arg9 harg9 hc0 hc1 hc2 x0 x1 x2).2.2.1)
      = stepL i hc1 x0 x1 k1_pay1 k1_pay2 := by
  unfold kernelRun1_A; dsimp only

  rw [read_writes_wholeUnit _ _ _ _ (by decide)]
  unfold kernelRun1_A.sl.r_4 kernelRun1_A.sl.v34 kernelRun1_A.sl.v43 kernelRun1_A.sl.HS0_1 kernelRun1_A.sl.HS1_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runA_acc (hc0 : cond1_0 i) (hc1 : cond1_1 i) (hc2 : ¬cond1_2 i) (f : arg9.view.ty.Contents (Elt F)) :
    arg9.view.read (Elt F) (arg9.view.writes (Elt F) f (kernelRun1_A c i arg3 harg3 arg4 harg4 arg5 harg5 arg6 harg6 arg7 harg7 arg8 harg8 arg9 harg9 hc0 hc1 hc2 x0 x1 x2).2.2.2.1)
      = stepAcc i hc1 x0 x1 x2 k1_pay1 k1_pay3 := by
  unfold kernelRun1_A; dsimp only

  rw [read_writes_wholeUnit _ _ _ _ (by decide)]
  unfold kernelRun1_A.sl.r kernelRun1_A.sl.r_2 kernelRun1_A.sl.r_3 kernelRun1_A.sl.v34 kernelRun1_A.sl.v51 kernelRun1_A.sl.HS0_1 kernelRun1_A.sl.HS2_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runB_m (hc0 : ¬cond1_0 i) (hc1 : cond1_1 i) (hc2 : ¬cond1_2 i) (f : arg7.view.ty.Contents (Elt F)) :
    arg7.view.read (Elt F) (arg7.view.writes (Elt F) f (kernelRun1_B c i arg3 harg3 arg4 harg4 arg5 harg5 arg6 harg6 arg7 harg7 arg8 harg8 arg9 harg9 hc0 hc1 hc2 x0 x1 x2 xs0 xs1 xs2).2.1)
      = stepM i hc1 x0 x1 xs0 := by
  unfold kernelRun1_B; dsimp only

  rw [read_writes_wholeUnit _ _ _ _ (by decide)]
  unfold kernelRun1_B.sl.r_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runB_l (hc0 : ¬cond1_0 i) (hc1 : cond1_1 i) (hc2 : ¬cond1_2 i) (f : arg8.view.ty.Contents (Elt F)) :
    arg8.view.read (Elt F) (arg8.view.writes (Elt F) f (kernelRun1_B c i arg3 harg3 arg4 harg4 arg5 harg5 arg6 harg6 arg7 harg7 arg8 harg8 arg9 harg9 hc0 hc1 hc2 x0 x1 x2 xs0 xs1 xs2).2.2.1)
      = stepL i hc1 x0 x1 xs0 xs1 := by
  unfold kernelRun1_B; dsimp only

  rw [read_writes_wholeUnit _ _ _ _ (by decide)]
  unfold kernelRun1_B.sl.r_4
  simp only [View.readCov_cons_toLoadRect, View.readAt_eq_ld, harg3.read_unread, harg4.read_unread, harg5.read_unread, harg7.read_unread, harg8.read_unread, harg9.read_unread, ld_S512x1, ld_S512x64, ld_S1x512x64]
  rfl

theorem runB_acc (hc0 : ¬cond1_0 i) (hc1 : cond1_1 i) (hc2 : ¬cond1_2 i) (f : arg9.view.ty.Contents (Elt F)) :
    arg9.view.read (Elt F) (arg9.view.writes (Elt F) f (kernelRun1_B c i arg3 harg3 arg4 harg4 arg5 harg5 arg6 harg6 arg7 harg7 arg8 harg8 arg9 harg9 hc0 hc1 hc2 x0 x1 x2 xs0 xs1 xs2).2.2.2.1)
      = stepAcc i hc1 x0 x1 x2 xs0 xs2 := by
  unfold kernelRun1_B; dsimp only

  rw [read_writes_wholeUnit _ _ _ _ (by decide)]
  unfold kernelRun1_B.sl.r kernelRun1_B.sl.r_2 kernelRun1_B.sl.r_3
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_m (hc0 : ¬cond1_0 i) (hc1 : cond1_1 i) (hc2 : cond1_2 i) (f : arg7.view.ty.Contents (Elt F)) :
    arg7.view.read (Elt F) (arg7.view.writes (Elt F) f (kernelRun1_D c i arg3 harg3 arg4 harg4 arg5 harg5 arg6 harg6 arg7 harg7 arg8 harg8 arg9 harg9 hc0 hc1 hc2 x0 x1 x2 xs0 xs1 xs2).2.1)
      = stepM i hc1 x0 x1 xs0 := by
  unfold kernelRun1_D; dsimp only

  rw [read_writes_wholeUnit _ _ _ _ (by decide)]
  unfold kernelRun1_D.sl.r_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_l (hc0 : ¬cond1_0 i) (hc1 : cond1_1 i) (hc2 : cond1_2 i) (f : arg8.view.ty.Contents (Elt F)) :
    arg8.view.read (Elt F) (arg8.view.writes (Elt F) f (kernelRun1_D c i arg3 harg3 arg4 harg4 arg5 harg5 arg6 harg6 arg7 harg7 arg8 harg8 arg9 harg9 hc0 hc1 hc2 x0 x1 x2 xs0 xs1 xs2).2.2.1)
      = stepL i hc1 x0 x1 xs0 xs1 := by
  unfold kernelRun1_D; dsimp only
  unfold kernelRun1_D.sl.HS1_1
  rw [read_writes_wholeUnit _ _ _ _ (by decide)]
  unfold kernelRun1_D.sl.r_4
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_acc (hc0 : ¬cond1_0 i) (hc1 : cond1_1 i) (hc2 : cond1_2 i) (f : arg9.view.ty.Contents (Elt F)) :
    arg9.view.read (Elt F) (arg9.view.writes (Elt F) f (kernelRun1_D c i arg3 harg3 arg4 harg4 arg5 harg5 arg6 harg6 arg7 harg7 arg8 harg8 arg9 harg9 hc0 hc1 hc2 x0 x1 x2 xs0 xs1 xs2).2.2.2.1)
      = stepAcc i hc1 x0 x1 x2 xs0 xs2 := by
  unfold kernelRun1_D; dsimp only
  unfold kernelRun1_D.sl.HS2_1
  rw [read_writes_wholeUnit _ _ _ _ (by decide)]
  unfold kernelRun1_D.sl.r kernelRun1_D.sl.r_2 kernelRun1_D.sl.r_3
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_out (hc0 : ¬cond1_0 i) (hc1 : cond1_1 i) (hc2 : cond1_2 i) (f : arg6.view.ty.Contents (Elt F)) :
    arg6.view.read (Elt F) (arg6.view.writes (Elt F) f (kernelRun1_D c i arg3 harg3 arg4 harg4 arg5 harg5 arg6 harg6 arg7 harg7 arg8 harg8 arg9 harg9 hc0 hc1 hc2 x0 x1 x2 xs0 xs1 xs2).1)
      = k1_pay7 (stepAcc i hc1 x0 x1 x2 xs0 xs2) (stepL i hc1 x0 x1 xs0 xs1) := by
  unfold kernelRun1_D; dsimp only

  rw [read_writes_wholeUnit _ _ _ _ (by decide)]
  unfold kernelRun1_D.sl.v9 kernelRun1_D.sl.v10 kernelRun1_D.sl.HS1_1 kernelRun1_D.sl.HS2_1 kernelRun1_D.sl.r kernelRun1_D.sl.r_2 kernelRun1_D.sl.r_3 kernelRun1_D.sl.r_4
  simp only [View.readCov_cons_toLoadRect, View.readAt_eq_ld, harg3.read_unread, harg4.read_unread, harg5.read_unread, harg7.read_unread, harg8.read_unread, harg9.read_unread, ld_S512x1, ld_S512x64, ld_S1x512x64]
  rfl

theorem runE_out (hc0 : ¬cond1_0 i) (hc1 : ¬cond1_1 i) (hc2 : cond1_2 i) (f : arg6.view.ty.Contents (Elt F)) :
    arg6.view.read (Elt F) (arg6.view.writes (Elt F) f (kernelRun1_E c i arg3 harg3 arg4 harg4 arg5 harg5 arg6 harg6 arg7 harg7 arg8 harg8 arg9 harg9 hc0 hc1 hc2 x0 x1 x2 xs0 xs1 xs2).1)
      = k1_pay7 xs2 xs1 := by
  unfold kernelRun1_E; dsimp only
  rw [read_writes_wholeUnit _ _ _ _ (by decide)]
  simp only [View.readCov_cons_toLoadRect, View.readAt_eq_ld, harg3.read_unread, harg4.read_unread, harg5.read_unread, harg7.read_unread, harg8.read_unread, harg9.read_unread, ld_S512x1, ld_S512x64, ld_S1x512x64]

end RunForms

/-! ## The scratch contents point by point -/

/-- The reset contents: the running maximum at the mask fill, the denominator and the accumulator at zero. -/
def init1 : Vec F S512x1 .f32 × Vec F S512x1 .f32 × Vec F S512x64 .f32 := (k1_pay1, k1_pay2, k1_pay3)

/-- One step at point `t` (where `ki ≤ qi`) from scratch contents `p = (m, l, acc)`, on the point's blocks. -/
def step1 (c : Dev nD) (t : Fin cfg1.N) (h : cond1_1 (grid1.coords t)) (p : Vec F S512x1 .f32 × Vec F S512x1 .f32 × Vec F S512x64 .f32) : Vec F S512x1 .f32 × Vec F S512x1 .f32 × Vec F S512x64 .f32 :=
  (stepM (grid1.coords t) h (iblk1 V c 0 t) (iblk1 V c 1 t) p.1,
   stepL (grid1.coords t) h (iblk1 V c 0 t) (iblk1 V c 1 t) p.1 p.2.1,
   stepAcc (grid1.coords t) h (iblk1 V c 0 t) (iblk1 V c 1 t) (iblk1 V c 2 t) p.1 p.2.2)

/-- THE ACCUMULATION: the scratch contents `(m, l, acc)` after the first `n` grid points. Point `n` has `ki = n % 4` and
    `qi = (n / 4) % 4`: at `ki = 0` it steps from the reset contents, at `0 < ki ≤ qi` from what the points before left,
    and at `ki > qi` (the key block wholly above the diagonal) it leaves the scratch as it was. -/
def scr1 (c : Dev nD) : ℕ → Vec F S512x1 .f32 × Vec F S512x1 .f32 × Vec F S512x64 .f32
  | 0 => init1
  | n + 1 =>
    if hn : n < cfg1.N then
      if h0 : n % 4 = 0 then step1 V c ⟨n, hn⟩ ((hcond1_1 ⟨n, hn⟩).mpr (by rw [h0]; exact Nat.zero_le _)) init1
      else if h1 : n % 4 ≤ (n / 4) % 4 then step1 V c ⟨n, hn⟩ ((hcond1_1 ⟨n, hn⟩).mpr h1) (scr1 c n)
      else scr1 c n
    else scr1 c n

theorem scr1_reset (c : Dev nD) (t : Fin cfg1.N) (h0 : t.val % 4 = 0) (h : cond1_1 (grid1.coords t)) :
    scr1 V c (t.val + 1) = step1 V c t h init1 := by
  obtain ⟨n, hn⟩ := t
  show scr1 V c (n + 1) = _
  rw [scr1, dif_pos hn, dif_pos h0]
theorem scr1_step (c : Dev nD) (t : Fin cfg1.N) (h0 : ¬t.val % 4 = 0) (h1 : t.val % 4 ≤ (t.val / 4) % 4) (h : cond1_1 (grid1.coords t)) :
    scr1 V c (t.val + 1) = step1 V c t h (scr1 V c t.val) := by
  obtain ⟨n, hn⟩ := t
  show scr1 V c (n + 1) = _
  rw [scr1, dif_pos hn, dif_neg h0, dif_pos h1]
theorem scr1_skip (c : Dev nD) (t : Fin cfg1.N) (h0 : ¬t.val % 4 = 0) (h1 : ¬t.val % 4 ≤ (t.val / 4) % 4) :
    scr1 V c (t.val + 1) = scr1 V c t.val := by
  obtain ⟨n, hn⟩ := t
  show scr1 V c (n + 1) = _
  rw [scr1, dif_pos hn, dif_neg h0, dif_neg h1]

/-- What the point `t` with `ki = 3` stores into the output block: the accumulator over the denominator, both as the
    point's step (if it takes one) leaves them. -/
def out1_3 (c : Dev nD) (t : Fin cfg1.N) : Vec F S1x512x64 .bf16 :=
  k1_pay7 (scr1 V c (t.val + 1)).2.2 (scr1 V c (t.val + 1)).2.1

/-! ## The region invariant -/

/-- The core's scoped buffers that are neither a staging buffer of this region nor its scratch, each whole at some
    contents: the other two regions' staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's scoped rest is the three scratch buffers owned at some contents and the others. -/
theorem scoped_split (c : Dev nD) :
    (Pipeline.scopedRest spec1 c : sProp 𝕄) ⊢ iprop((∃ d, owns (c : Thread nD τ) scM1_0 fullShare d) ∗ (∃ d, owns (c : Thread nD τ) scM1_1 fullShare d) ∗ (∃ d, owns (c : Thread nD τ) scM1_2 fullShare d) ∗ rest1 c) := by
  rw [scopedRest1_eq]; unfold rest1; simp only [scM1_0, scM1_1, scM1_2, owns_whole]
  iintro ⟨R0, R1, R2, R3, R4, R5, R6, R7, S0, S1, S2, R8, R9, R10, R11, R12, R13⟩
  isplitl [S0]; · iexact S0
  isplitl [S1]; · iexact S1
  isplitl [S2]; · iexact S2
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

theorem scoped_join (c : Dev nD) :
    iprop((∃ d, owns (c : Thread nD τ) scM1_0 fullShare d) ∗ (∃ d, owns (c : Thread nD τ) scM1_1 fullShare d) ∗ (∃ d, owns (c : Thread nD τ) scM1_2 fullShare d) ∗ rest1 c) ⊢ (Pipeline.scopedRest spec1 c : sProp 𝕄) := by
  rw [scopedRest1_eq]; unfold rest1; simp only [scM1_0, scM1_1, scM1_2, owns_whole]
  iintro ⟨S0, S1, S2, R0, R1, R2, R3, R4, R5, R6, R7, R8, R9, R10, R11, R12, R13⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [S0]; · iexact S0
  isplitl [S1]; · iexact S1
  isplitl [S2]; · iexact S2
  isplitl [R8]; · iexact R8
  isplitl [R9]; · iexact R9
  isplitl [R10]; · iexact R10
  isplitl [R11]; · iexact R11
  isplitl [R12]; · iexact R12
  iexact R13

/-- The invariant before point `n`: before the first point what the launch hands the region (the generator register at
    some state and the scoped rest: every scratch buffer at anything, and the other scoped buffers); afterwards the generator register at some state,
    the three scratch buffers owned whole at what the points before left (`scr1`), and the other scoped buffers. -/
def Phi1 (c : Dev nD) : ℕ → sProp 𝕄
  | 0 => iprop((∃ r, prngReg c r) ∗ (∃ d, owns (c : Thread nD τ) scM1_0 fullShare d) ∗ (∃ d, owns (c : Thread nD τ) scM1_1 fullShare d) ∗ (∃ d, owns (c : Thread nD τ) scM1_2 fullShare d) ∗ rest1 c)
  | n + 1 => iprop((∃ r, prngReg c r) ∗ owns (c : Thread nD τ) scM1_0 fullShare (scr1 V c (n + 1)).1 ∗ owns (c : Thread nD τ) scM1_1 fullShare (scr1 V c (n + 1)).2.1 ∗ owns (c : Thread nD τ) scM1_2 fullShare (scr1 V c (n + 1)).2.2 ∗ rest1 c)

theorem Phi1_zero (c : Dev nD) (n : ℕ) (hz : n = 0) : Phi1 V c n = iprop((∃ r, prngReg c r) ∗ (∃ d, owns (c : Thread nD τ) scM1_0 fullShare d) ∗ (∃ d, owns (c : Thread nD τ) scM1_1 fullShare d) ∗ (∃ d, owns (c : Thread nD τ) scM1_2 fullShare d) ∗ rest1 c) := by
  subst hz; rfl
theorem Phi1_succ (c : Dev nD) (n : ℕ) :
    Phi1 V c (n + 1) = iprop((∃ r, prngReg c r) ∗ owns (c : Thread nD τ) scM1_0 fullShare (scr1 V c (n + 1)).1 ∗ owns (c : Thread nD τ) scM1_1 fullShare (scr1 V c (n + 1)).2.1 ∗ owns (c : Thread nD τ) scM1_2 fullShare (scr1 V c (n + 1)).2.2 ∗ rest1 c) := rfl
theorem Phi1_pos (c : Dev nD) (n : ℕ) (hz : n ≠ 0) :
    Phi1 V c n = iprop((∃ r, prngReg c r) ∗ owns (c : Thread nD τ) scM1_0 fullShare (scr1 V c n).1 ∗ owns (c : Thread nD τ) scM1_1 fullShare (scr1 V c n).2.1 ∗ owns (c : Thread nD τ) scM1_2 fullShare (scr1 V c n).2.2 ∗ rest1 c) := by
  cases n with
  | zero => exact absurd rfl hz
  | succ n => rfl

/-! ## The pipeline's proof data -/

/-- The proof data of region 1 on core `c`: the arrays as the region finds them (`V`); after the body at point `t` each
    input's buffer at its block and the output's at `out1_3`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- The output block after a point: `out1_3` (consulted where `ki = 3`, the points that store and write it back). -/
theorem after1_3 (c : Dev nD) (t : Fin cfg1.N) : (dat1 V c).after 3 t = out1_3 V c t := by dsimp only [dat1]

theorem hin1 (c : Dev nD) : (iprop((∃ r, prngReg c r) ∗ Pipeline.scopedRest spec1 c) : sProp 𝕄) ⊢ (dat1 V c).Φ 0 := by
  rw [show (dat1 V c).Φ 0 = Phi1 V c 0 from rfl, Phi1_zero V c 0 rfl]
  iintro ⟨Hg, Hsc⟩
  isplitl [Hg]; · iexact Hg
  iapply (scoped_split c)
  iexact Hsc

theorem Phi1_out (c : Dev nD) (n : ℕ) (hz : n ≠ 0) :
    Phi1 V c n ⊢ (iprop((∃ r, prngReg c r) ∗ Pipeline.scopedRest spec1 c) : sProp 𝕄) := by
  rw [Phi1_pos V c n hz]
  iintro ⟨Hg, HS0, HS1, HS2, HR⟩
  isplitl [Hg]; · iexact Hg
  iapply (scoped_join c)
  isplitl [HS0]; · iexists _; iexact HS0
  isplitl [HS1]; · iexists _; iexact HS1
  isplitl [HS2]; · iexists _; iexact HS2
  iexact HR

theorem hout1 (c : Dev nD) : (dat1 V c).Φ (Fin.last cfg1.N) ⊢ (iprop((∃ r, prngReg c r) ∗ Pipeline.scopedRest spec1 c) : sProp 𝕄) := by
  rw [show (dat1 V c).Φ (Fin.last cfg1.N) = Phi1 V c (Fin.last cfg1.N).val from rfl]
  exact Phi1_out V c _ (by rw [Fin.val_last]; have : cfg1.N = 1024 := N_1; omega)

/-! ## What the body finds in the inputs' staging buffers -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- Case C's run with nothing held apart: the continuation's post suffices. -/
theorem kernelRun1_C' (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__kernel i arg3 harg3 arg4 harg4 arg5 harg5 arg6 harg6 arg7 harg7 arg8 harg8 arg9 harg9) K := by
  have h : K ⟨⟩ ⊢ (iprop(K ⟨⟩ ∗ (K ⟨⟩ -∗ K ⟨⟩)) : sProp 𝕄) := by
    iintro H
    isplitl [H]; · iexact H
    iintro H; iexact H
  exact h.trans (kernelRun1_C c i arg3 harg3 arg4 harg4 arg5 harg5 arg6 harg6 arg7 harg7 arg8 harg8 arg9 harg9 hc0 hc1 hc2 (K ⟨⟩) E K)

set_option maxHeartbeats 8000000 in
/-- The body at any point: the inputs' memrefs hold their blocks (`before1_W`); `ki = t % 4` and `qi = (t / 4) % 4` say
    which of the five cases the point is in; that case's run applies — the invariant hands the body the scratch at what
    the points before left (at anything where the case resets it) and takes it back at this point's contents (`scr1`, by
    the runs' closed forms); the output block is handed back untouched where `ki ≠ 3` and at `out1_3` where `ki = 3`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) from rfl, Phi1_succ]
  rw [show (dat1 V c).Φ t.castSucc = Phi1 V c t.val from rfl]
  have hN : t.val < 1024 := lt_of_lt_of_eq t.isLt (show cfg1.N = 1024 from N_1)
  rw [show (dat1 V c).leavesExact 0 t = owns (c : Thread nD τ) (ms1_0 t) fullShare ((dat1 V c).after 0 t) from by
    unfold Dat.leavesExact; rw [liveAt1_0 (grid1.coords t)], after1_0]
  rw [show (dat1 V c).leavesExact 1 t = owns (c : Thread nD τ) (ms1_1 t) fullShare ((dat1 V c).after 1 t) from by
    unfold Dat.leavesExact; rw [liveAt1_1 (grid1.coords t)], after1_1]
  rw [show (dat1 V c).leavesExact 2 t = owns (c : Thread nD τ) (ms1_2 t) fullShare ((dat1 V c).after 2 t) from by
    unfold Dat.leavesExact; rw [liveAt1_2 (grid1.coords t)], after1_2]
  by_cases h2 : t.val % 4 = 3
  · rw [show (dat1 V c).leavesExact 3 t = owns (c : Thread nD τ) (ms1_3 t) fullShare ((dat1 V c).after 3 t) from by
      unfold Dat.leavesExact; rw [liveAt1_3 t ((hcond1_2 t).mpr h2)], after1_3]
    unfold out1_3
    have h0 : ¬t.val % 4 = 0 := by omega
    have hz : t.val ≠ 0 := by omega
    rw [Phi1_pos V c _ hz]
    by_cases h1 : t.val % 4 ≤ (t.val / 4) % 4
    · -- ki = 3 = qi: one step, then the output store
      rw [scr1_step V c t h0 h1 ((hcond1_1 t).mpr h1)]; unfold step1; dsimp only
      iintro ⟨⟨Hg, HS0, HS1, HS2, HR⟩, Ho, ⟨%d0, H0⟩, ⟨%d1, H1⟩, ⟨%d2, H2⟩, ⟨%d3, H3⟩⟩
      iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hg HS0 HS1 HS2 HR]
      · isplitl [Hg]; · iexact Hg
        isplitl [HS0]
        · unfold owns; iexists _; isplitr
          swap; · iexact HS0
          ipureintro; exact runD_m ..
        isplitl [HS1]
        · unfold owns; iexists _; isplitr
          swap; · iexact HS1
          ipureintro; exact runD_l ..
        isplitl [HS2]
        · unfold owns; iexists _; isplitr
          swap; · iexact HS2
          ipureintro; exact runD_acc ..
        iexact HR
      isplitl [Ho]; · iexact Ho
      isplitl [H0]; · iexact H0
      isplitl [H1]; · iexact H1
      isplitl [H2]; · iexact H2
      unfold owns; iexists _; isplitr
      swap; · iexact H3
      ipureintro; exact runD_out ..
    · -- ki = 3, qi < 3: the output store only
      rw [scr1_skip V c t h0 h1]
      iintro ⟨⟨Hg, HS0, HS1, HS2, HR⟩, Ho, ⟨%d0, H0⟩, ⟨%d1, H1⟩, ⟨%d2, H2⟩, ⟨%d3, H3⟩⟩
      iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Hg HS0 HS1 HS2 HR]
      · isplitl [Hg]; · iexact Hg
        isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      unfold owns; iexists _; isplitr
      swap; · iexact H3
      ipureintro; exact runE_out ..
  · rw [Dat.leavesExact_idle (dat1 V c) 3 t (idleAt1_3 t (fun h => h2 ((hcond1_2 t).mp h))) (noFlush1_3 t (fun h => h2 ((hcond1_2 t).mp h)))]
    by_cases h0 : t.val % 4 = 0
    · -- ki = 0: reset, then one step
      have h1 : t.val % 4 ≤ (t.val / 4) % 4 := by omega
      rw [scr1_reset V c t h0 ((hcond1_1 t).mpr h1)]; unfold step1 init1; dsimp only
      by_cases hz : t.val = 0
      · rw [Phi1_zero V c _ hz]
        iintro ⟨⟨Hg, HS0, HS1, HS2, HR⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hg HS0 HS1 HS2 HR]
        · isplitl [Hg]; · iexact Hg
          isplitl [HS0]
          · unfold owns; iexists _; isplitr
            swap; · iexact HS0
            ipureintro; exact runA_m ..
          isplitl [HS1]
          · unfold owns; iexists _; isplitr
            swap; · iexact HS1
            ipureintro; exact runA_l ..
          isplitl [HS2]
          · unfold owns; iexists _; isplitr
            swap; · iexact HS2
            ipureintro; exact runA_acc ..
          iexact HR
        isplitl [Ho]; · iexact Ho
        isplitl [H0]; · iexact H0
        isplitl [H1]; · iexact H1
        isplitl [H2]; · iexact H2
        iexists _; iexact H3
      · rw [Phi1_pos V c _ hz]
        iintro ⟨⟨Hg, HS0, HS1, HS2, HR⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hg HS0 HS1 HS2 HR]
        · isplitl [Hg]; · iexact Hg
          isplitl [HS0]
          · unfold owns; iexists _; isplitr
            swap; · iexact HS0
            ipureintro; exact runA_m ..
          isplitl [HS1]
          · unfold owns; iexists _; isplitr
            swap; · iexact HS1
            ipureintro; exact runA_l ..
          isplitl [HS2]
          · unfold owns; iexists _; isplitr
            swap; · iexact HS2
            ipureintro; exact runA_acc ..
          iexact HR
        isplitl [Ho]; · iexact Ho
        isplitl [H0]; · iexact H0
        isplitl [H1]; · iexact H1
        isplitl [H2]; · iexact H2
        iexists _; iexact H3
    · have hz : t.val ≠ 0 := fun e => h0 (by rw [e])
      rw [Phi1_pos V c _ hz]
      by_cases h1 : t.val % 4 ≤ (t.val / 4) % 4
      · -- 0 < ki ≤ qi, ki < 3: one step
        rw [scr1_step V c t h0 h1 ((hcond1_1 t).mpr h1)]; unfold step1; dsimp only
        iintro ⟨⟨Hg, HS0, HS1, HS2, HR⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hg HS0 HS1 HS2 HR]
        · isplitl [Hg]; · iexact Hg
          isplitl [HS0]
          · unfold owns; iexists _; isplitr
            swap; · iexact HS0
            ipureintro; exact runB_m ..
          isplitl [HS1]
          · unfold owns; iexists _; isplitr
            swap; · iexact HS1
            ipureintro; exact runB_l ..
          isplitl [HS2]
          · unfold owns; iexists _; isplitr
            swap; · iexact HS2
            ipureintro; exact runB_acc ..
          iexact HR
        isplitl [Ho]; · iexact Ho
        isplitl [H0]; · iexact H0
        isplitl [H1]; · iexact H1
        isplitl [H2]; · iexact H2
        iexists _; iexact H3
      · -- ki > qi: nothing
        rw [scr1_skip V c t h0 h1]
        iintro ⟨HP, Ho, ⟨%d0, H0⟩, ⟨%d1, H1⟩, ⟨%d2, H2⟩, ⟨%d3, H3⟩⟩
        iapply (kernelRun1_C' c (grid1.coords t) _ _ _ _ _ _ _ _ _ _ _ _ _ _ (fun h => h0 ((hcond1_0 t).mp h)) (fun h => h1 ((hcond1_1 t).mp h)) (fun h => h2 ((hcond1_2 t).mp h)) Set.univ _)
        isplitl [HP]; · iexact HP
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«125597_j3710851744401_2_alg».proof.Proof.Gen.Kernel.Launch
import proofs.«125597_j3710851744401_2_alg».proof.Proof.Gen.Kernel.Skeleton
import proofs.«125597_j3710851744401_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the linear layer `cc2__linear_kernel`, its body half

The body is of the plainest class: it loads the three input windows' blocks whole (an activation block, a weight
block, a bias row), computes one pure value of them (the skeleton's payload `k2_pay1`: the product of the activation
block with the transposed weight block, plus the broadcast bias row), and stores that value over the whole output
block. (It also loads the output block once before the store; the value read is not used.) So what the body leaves
in the output window's staging buffer is a closed function `out2_3` of the three input blocks at the point, and the
input buffers are left as found. Everything is stated at a parameter `V`, the TensorCore's buffer contents when the
region is entered. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (an unfetched point has the block index of the point before, whose block the buffer still holds), for any
    proof data whose array is `V`'s and whose body leaves the block in place. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (an unfetched point has the block index of the point before, whose block the buffer still holds), for any
    proof data whose array is `V`'s and whose body leaves the block in place. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (an unfetched point has the block index of the point before, whose block the buffer still holds), for any
    proof data whose array is `V`'s and whose body leaves the block in place. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-! ## What the body leaves in the output window's buffer -/

/-- Window 3's staging buffer after the body, from the input windows' blocks: its one store, of the payload of the
    three loaded blocks, laid over the buffer. -/
def out2_3 (x0 : Vec F S512x1024 .bf16) (x1 : Vec F S1024x1024 .f32) (x2 : Vec F S1x1024 .f32) : Vec F S512x1024 .f32 :=
  View.canon [⟨rx2, k2_pay1 (View.ld x0 rx2) (View.ld x1 rw2) (View.ld x2 rb2)⟩]

/-- The one store is of the whole block, so it covers the buffer. -/
theorem cover2_3 (p0 : Vec F S512x1024 .f32) (y : S512x1024.Idx) :
    ∃ pc ∈ ([⟨rx2, p0⟩] : List (View.Piece (Elt F) S512x1024 .f32)), y ∈ pc.1.set :=
  View.cover_of_tiled [⟨rx2, p0⟩] S512x1024.size (by rfl) y

/-! ## The body's triple -/

set_option maxHeartbeats 1000000 in
/-- The kernel body on whole staging memrefs, the inputs' at read contents `x0 x1 x2` and the output's at anything,
    runs to the continuation holding the inputs' as they were and the output's at `out2_3` of the inputs'. -/
theorem sound_kernel2 (c : Dev nD) (E : Set ℕ) (i : grid2.Coords)
    (arg0 : Memref sig .tc .vmem S512x1024 .bf16) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the whole program, from the launch to the return.

  @main is seven items in a row: a stretch of host operations, the first linear layer (a pallas_call over a 16 × 3
  grid), the stretch that cuts its result into query, key and value heads, the attention kernel (64 × 4 × 4 grid
  points, its three scratch buffers carried from point to point), the stretch that puts the heads back side by
  side, the second linear layer (16 grid points), and a last reshape.  The contents of every buffer between two
  items are written down once, as a fold from the launch memory: a host stretch applies its operations; a
  pallas_call leaves each of its windows' arrays at what the write-backs of its grid points leave there and every
  other buffer alone.  Each pallas_call is entered with all buffers at one stage of that fold and left with them at
  the next, so the seven items chain, and the program's run ends with every buffer at the last stage.  The frame
  claim is that run read at the five argument arrays: no host operation writes one, and a pallas_call either does
  not touch it or reads it through an input window, which hands it back as it found it.
-/
import proofs.«125597_j3710851744401_2_alg».proof.Proof.Gen.Kernel.Launch
import proofs.«125597_j3710851744401_2_alg».proof.Proof.Gen.Kernel.Skeleton
import proofs.«125597_j3710851744401_2_alg».proof.Proof.Gen.Kernel.Points
import proofs.«125597_j3710851744401_2_alg».proof.Proof.Gen.Kernel.Regions
import proofs.«125597_j3710851744401_2_alg».proof.Proof.KRegion0
import proofs.«125597_j3710851744401_2_alg».proof.Proof.KRegion1
import proofs.«125597_j3710851744401_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## What each item of @main leaves untouched -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
/-- An input window's array leaves region 0 as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window's array leaves region 2 as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! ## The argument arrays reach the end as launched -/

theorem W7_main_arg0 (c : Dev nD) : W7 m ρ c (Proc.devRef .tc main_arg0) = m ((c : Thread nD τ).loc main_arg0) :=
  (W7_keep m ρ c main_arg0 (by decide)).trans <| (W6_of_ne m ρ c main_arg0 (by decide)).trans <| (W5_keep m ρ c main_arg0 (by decide)).trans <|
    (W4_of_ne m ρ c main_arg0 (by decide)).trans <| (W3_keep m ρ c main_arg0 (by decide)).trans <| (W2_of_ne m ρ c main_arg0 (by decide)).trans <|
    (W1_keep m ρ c main_arg0 (by decide)).trans rfl
theorem W7_main_arg1 (c : Dev nD) : W7 m ρ c (Proc.devRef .tc main_arg1) = m ((c : Thread nD τ).loc main_arg1) :=
  (W7_keep m ρ c main_arg1 (by decide)).trans <| (W6_of_ne m ρ c main_arg1 (by decide)).trans <| (W5_keep m ρ c main_arg1 (by decide)).trans <|
    (W4_of_ne m ρ c main_arg1 (by decide)).trans <| (W3_keep m ρ c main_arg1 (by decide)).trans <| (W2_in m ρ c 1 rfl).trans <|
    (W1_keep m ρ c main_arg1 (by decide)).trans rfl
theorem W7_main_arg2 (c : Dev nD) : W7 m ρ c (Proc.devRef .tc main_arg2) = m ((c : Thread nD τ).loc main_arg2) :=
  (W7_keep m ρ c main_arg2 (by decide)).trans <| (W6_of_ne m ρ c main_arg2 (by decide)).trans <| (W5_keep m ρ c main_arg2 (by decide)).trans <|
    (W4_of_ne m ρ c main_arg2 (by decide)).trans <| (W3_keep m ρ c main_arg2 (by decide)).trans <| (W2_of_ne m ρ c main_arg2 (by decide)).trans <|
    (W1_keep m ρ c main_arg2 (by decide)).trans rfl
theorem W7_main_arg3 (c : Dev nD) : W7 m ρ c (Proc.devRef .tc main_arg3) = m ((c : Thread nD τ).loc main_arg3) :=
  (W7_keep m ρ c main_arg3 (by decide)).trans <| (W6_in m ρ c 1 rfl).trans <| (W5_keep m ρ c main_arg3 (by decide)).trans <|
    (W4_of_ne m ρ c main_arg3 (by decide)).trans <| (W3_keep m ρ c main_arg3 (by decide)).trans <| (W2_of_ne m ρ c main_arg3 (by decide)).trans <|
    (W1_keep m ρ c main_arg3 (by decide)).trans rfl
theorem W7_main_arg4 (c : Dev nD) : W7 m ρ c (Proc.devRef .tc main_arg4) = m ((c : Thread nD τ).loc main_arg4) :=
  (W7_keep m ρ c main_arg4 (by decide)).trans <| (W6_of_ne m ρ c main_arg4 (by decide)).trans <| (W5_keep m ρ c main_arg4 (by decide)).trans <|
    (W4_of_ne m ρ c main_arg4 (by decide)).trans <| (W3_keep m ρ c main_arg4 (by decide)).trans <| (W2_of_ne m ρ c main_arg4 (by decide)).trans <|
    (W1_keep m ρ c main_arg4 (by decide)).trans rfl

/-! ## The proof data of the three pipelines, and what rides beside the buffers -/

abbrev adm : (p : Fin 3) → (pcfgs (F := F) p).Adm := fun p => (cfgs p).toPCfg_adm
/-- Every pipeline's proof data at its region's entry contents (a literal match, so that the library's pinned configuration
    at a numeral reduces to the printed one). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev Lv0 : GSem nD τ sig → Finset Unit := fun _ => ∅
abbrev lv0 : GSem nD τ sig → Unit → ℕ := fun _ _ => 0
/-- Beside the buffers, through every segment: the generator register at some state, and nothing owed. -/
abbrev Beside (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W7 m ρ c)

/-! ## The regions as segments -/

set_option backward.isDefEq.respectTransparency.types false in
/-- Region 0 between two boundaries: entered with every unscoped buffer at `W1`, left with them at `W2`.
    Its windows' arrays are split out of the unscoped buffers and put back at what the write-backs leave; the generator
    register passes through the body's invariant; nothing is owed and the kernel has no semaphore of its own. -/
def reg0 : Pipeline.RegionSeg (pcfgs (F := F)) adm (pdats m ρ) () defs₀ 𝒱₀ Lv0 lv0 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lv0 lv0 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between two boundaries: entered with every unscoped buffer at `W3`, left with them at `W4`.
    Its windows' arrays are split out of the unscoped buffers and put back at what the write-backs leave; the generator
    register passes through the body's invariant; nothing is owed and the kernel has no semaphore of its own. -/
def reg1 : Pipeline.RegionSeg (pcfgs (F := F)) adm (pdats m ρ) () defs₀ 𝒱₀ Lv0 lv0 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ Lv0 lv0 1 fun _ _ => rfl
  pre c := iprop(StableHlo.held (c : Thread nD τ) (Pipeline.ucRefs τ sig) (W3 m ρ c) ∗ Beside c)
  post c := iprop(StableHlo.held (c : Thread nD τ) (Pipeline.ucRefs τ sig) (W4 m ρ c) ∗ Beside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    refine (hout1 (V3 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between two boundaries: entered with every unscoped buffer at `W5`, left with them at `W6`.
    Its windows' arrays are split out of the unscoped buffers and put back at what the write-backs leave; the generator
    register passes through the body's invariant; nothing is owed and the kernel has no semaphore of its own. -/
def reg2 : Pipeline.RegionSeg (pcfgs (F := F)) adm (pdats m ρ) () defs₀ 𝒱₀ Lv0 lv0 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ Lv0 lv0 2 fun _ _ => rfl
  pre c := iprop(StableHlo.held (c : Thread nD τ) (Pipeline.ucRefs τ sig) (W5 m ρ c) ∗ Beside c)
  post c := iprop(StableHlo.held (c : Thread nD τ) (Pipeline.ucRefs τ sig) (W6 m ρ c) ∗ Beside c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ Lv0 lv0) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in the final
    state every unscoped buffer of every core holds the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ Lv0 lv0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := Tₙ m ρ)
    (hch := ⟨fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach Lv0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

/-- The frame: every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.Kernel.Hand

end
-- ==== Proof.KIRegion0.lean ====
import proofs.«125597_j3710851744401_2_alg».proof.Proof.Gen.KernelIdeal.Launch
import proofs.«125597_j3710851744401_2_alg».proof.Proof.Gen.KernelIdeal.Skeleton
import proofs.«125597_j3710851744401_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the linear layer `cc0__linear_kernel`, its body half

The body is of the plainest class: it loads the three input windows' blocks whole (an activation block, a weight
block, a bias row), computes one pure value of them (the skeleton's payload `k0_pay1`: the product of the activation
block with the transposed weight block, plus the broadcast bias row), and stores that value over the whole output
block. (It also loads the output block once before the store; the value read is not used.) So what the body leaves
in the output window's staging buffer is a closed function `out0_3` of the three input blocks at the point, and the
input buffers are left as found. Everything is stated at a parameter `V`, the TensorCore's buffer contents when the
region is entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (an unfetched point has the block index of the point before, whose block the buffer still holds), for any
    proof data whose array is `V`'s and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not (an unfetched point has the block index of the point before, whose block the buffer still holds), for any
    proof data whose array is `V`'s and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    not (an unfetched point has the block index of the point before, whose block the buffer still holds), for any
    proof data whose array is `V`'s and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-! ## What the body leaves in the output window's buffer -/

/-- Window 3's staging buffer after the body, from the input windows' blocks: its one store, of the payload of the
    three loaded blocks, laid over the buffer. -/
def out0_3 (x0 : Vec F S512x1024 .f32) (x1 : Vec F S1024x1024 .f32) (x2 : Vec F S1x1024 .f32) : Vec F S512x1024 .bf16 :=
  View.canon [⟨rx0, k0_pay1 (View.ld x0 rx0) (View.ld x1 rw0) (View.ld x2 rb0)⟩]

/-- The one store is of the whole block, so it covers the buffer. -/
theorem cover0_3 (p0 : Vec F S512x1024 .bf16) (y : S512x1024.Idx) :
    ∃ pc ∈ ([⟨rx0, p0⟩] : List (View.Piece (Elt F) S512x1024 .bf16)), y ∈ pc.1.set :=
  View.cover_of_tiled [⟨rx0, p0⟩] S512x1024.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg0 : Memref sig .tc .vmem S512x1024 .f32) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the class's (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Runs.lean ====
import proofs.«125597_j3710851744401_2_alg».proof.Proof.Gen.KernelIdeal.Launch
import proofs.«125597_j3710851744401_2_alg».proof.Proof.Gen.KernelIdeal.Skeleton
import proofs.«125597_j3710851744401_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # Region 1 (causal flash attention): what the five runs of its body share

The body has three conditionals on the grid point `(bh, qi, ki)`: `ki = 0` (reset the running maximum, the running
denominator and the accumulator), `ki ≤ qi` (one online-softmax step over key/value rows `[512·ki, 512·ki + 512)`),
`ki = 3` (divide the accumulator by the denominator and store the output block). Point number
`t = 16·bh + 4·qi + ki`, so `ki = t % 4` and `qi = (t / 4) % 4`. -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions -/

/-- `ki = 0`, as the kernel computes it. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- `ki ≤ qi` (signed), as the kernel computes it. -/
abbrev cond1_1 (i : grid1.Coords) : Prop := k1_cond2 i = 1#1
/-- It holds where `t % 4 ≤ (t / 4) % 4`: no periodic form in `t`, stated as it is. -/
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)

/-- `ki = 3`, as the kernel computes it. -/
abbrev cond1_2 (i : grid1.Coords) : Prop := k1_cond3 i = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
/-- Where `ki ≠ 3` nothing is stored into the output block: the window is idle there, -/
theorem idleAt1_3 : ∀ t : Fin cfg1.N, ¬cond1_2 (grid1.coords t) → cfg1.idle 3 (grid1.coords t) = true := by decide +kernel
/-- and the pipeline does not write the block back. -/
theorem noFlush1_3 : ∀ t : Fin cfg1.N, ¬cond1_2 (grid1.coords t) → (cfg1.win 3).flush t = false := by decide +kernel
/-- Where `ki = 3` the output block is stored: the window is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)
/-- The running maximum `m`, the running denominator `l` and the accumulator `acc`: whole scoped buffers of the
    kernel's own, carried between grid points. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
abbrev VS1_0 : View sig .tc .vmem S512x1 .f32 := scM1_0.view
abbrev VS1_1 : View sig .tc .vmem S512x1 .f32 := scM1_1.view
abbrev VS1_2 : View sig .tc .vmem S512x64 .f32 := scM1_2.view
abbrev VO1_3 : View sig .tc .vmem S1x512x64 .bf16 := (Memref.whole cc1_stg3_0 : Memref sig .tc .vmem S1x512x64 .bf16).view

end Cert.KernelIdeal.Hand

end
-- ==== Proof.KIRegion1RunA.lean ====
import proofs.«125597_j3710851744401_2_alg».proof.Proof.KIRegion1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- CASE A (`ki = 0`: reset, then one step; no output store). On whole memrefs — the three inputs at their contents,
    the output block at contents `xi3` handed back untouched, the three scratch buffers at anything — the body runs to the
    continuation holding the inputs as they were, the output block untouched and each scratch buffer with its pieces
    written (last first); the lists of pieces are given with the proof. -/
noncomputable def kernelRun1_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 : Vec F S1x512x64 .bf16) (x1 : Vec F S1x2048x64 .bf16) (x2 : Vec F S1x2048x64 .bf16) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨[], ?_, ?_, ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KIRegion1RunB.lean ====
import proofs.«125597_j3710851744401_2_alg».proof.Proof.KIRegion1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- CASE B (`ki ∈ {1, 2}`, `ki ≤ qi`: one step; no reset, no output store). The scratch buffers are handed in at the contents `xs·` the point before left and come back with their pieces written. -/
noncomputable def kernelRun1_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 : Vec F S1x512x64 .bf16) (x1 : Vec F S1x2048x64 .bf16) (x2 : Vec F S1x2048x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨[], ?_, ?_, ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KIRegion1RunC.lean ====
import proofs.«125597_j3710851744401_2_alg».proof.Proof.KIRegion1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- CASE C (`ki ∈ {1, 2}`, `ki > qi`: the key block lies wholly above the diagonal). None of the three conditionals is
    taken: the body touches no memory, and whatever is held is handed to the continuation as it was. -/
theorem kernelRun1_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (R : sProp 𝕄) (E : Set ℕ) (K : PUnit → sProp 𝕄) :
    iprop(R ∗ (R -∗ K ⟨⟩)) ⊢ wp frame (wpE (defs₀ (F := F)) Variants.none c none) E (cc1__kernel i arg3 harg3 arg4 harg4 arg5 harg5 arg6 harg6 arg7 harg7 arg8 harg8 arg9 harg9) K := by
  simp only [cc1__kernel_eq_skeleton]; unfold cc1__kernel_skel
  iintro ⟨HR, Hk⟩
  sl_exec (disch := first | exact hc0 | exact hc1 | exact hc2)
  sl_step
  iapply Hk
  iexact HR

end Cert.KernelIdeal.Hand

end
-- ==== Proof.KIRegion1RunD.lean ====
import proofs.«125597_j3710851744401_2_alg».proof.Proof.KIRegion1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- CASE D (`ki = 3 = qi`: one step, then the output store). The scratch buffers are handed in at the contents `xs·` the point before left and come back with their pieces written; the output block, handed in at anything, comes back with its pieces written. -/
noncomputable def kernelRun1_D (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 : Vec F S1x512x64 .bf16) (x1 : Vec F S1x2048x64 .bf16) (x2 : Vec F S1x2048x64 .bf16) (xs0 : Vec F S512x1 .f32) (xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨?_, ?_, ?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIRegion1RunE.lean ====
import proofs.«125597_j3710851744401_2_alg».proof.Proof.KIRegion1RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- CASE E (`ki = 3`, `qi < 3`: the output store only). The scratch buffers are read and handed back as they were; the output block, handed in at anything, comes back with its pieces written. -/
noncomputable def kernelRun1_E (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 : Vec F S1x512x64 .bf16) (x1 : Vec F S1x2048x64 .bf16) (x2 : Vec F S1x2048x64 .bf16) (xs0 : Vec F S512x1 .f32) (xs1 : Vec F S512x1 .f32) (xs2 : Vec F S512x64 .f32) :
    { L3 : List (View.Piece (Elt F) S1x512x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__kernel i arg3 harg3 arg4 harg4 arg5 harg5 arg6 harg6 arg7 harg7 arg8 harg8 arg9 harg9) K } := by
  refine ⟨?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    · iexists _; isplitr; · ipureintro; exact harg9.read_unread _
      iexact HS2

end Cert.KernelIdeal.Hand

end
-- ==== Proof.KIRegion1.lean ====
import proofs.«125597_j3710851744401_2_alg».proof.Proof.KIRegion1RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## A whole-buffer access

Every store of this kernel writes a whole buffer, and every load of a scratch buffer or of the query block reads a
whole buffer, through the unit-stride rectangle at offset zero of the buffer's own sizes; such a rectangle places each
index at itself, so a store leaves the buffer reading as the stored payload and a load reads the contents as they are. -/

theorem emb_unit_zero {s : Shape} (off : Fin s.rank → ℕ) (inb : ∀ a, off a + s.size a ≤ s.size a) (h0 : ∀ a, off a = 0) (x : s.Idx) :
    (Rect.unit off s.size inb).emb x = x := by
  funext a; apply Fin.ext; show off a + 1 * (x a : Nat) = x a; rw [h0 a]; omega

theorem idx_unit_zero {s : Shape} (off : Fin s.rank → ℕ) (inb : ∀ a, off a + s.size a ≤ s.size a) (h0 : ∀ a, off a = 0) (x : s.Idx) :
    (Rect.unit off s.size inb).idx x = x := by
  funext a; apply Fin.ext; show off a + 1 * (x a : Nat) = x a; rw [h0 a]; omega

theorem read_writes_wholeUnit {sig' : RefSig} {κ : Kind} {sp : Space} {s : Shape} {e : EltTy} {Val : EltTy → Type}
    (v : View sig' κ sp s e) (f : v.ty.Contents Val) (off : Fin s.rank → ℕ) (inb : ∀ a, off a + s.size a ≤ s.size a)
    (h0 : ∀ a, off a = 0) (w : s.Idx → Val e) (L : List (View.Piece Val s e)) :
    v.read Val (v.writes Val f (⟨Rect.unit off s.size inb, w⟩ :: L)) = w :=
  funext fun y => by
    have h := View.read_writes_cons_emb v f (Rect.unit off s.size inb) w L y
    rwa [emb_unit_zero off inb h0] at h

theorem ld_wholeUnit {s : Shape} {e : EltTy} {Val : EltTy → Type} (X : s.Idx → Val e) (off : Fin s.rank → ℕ)
    (inb : ∀ a, off a + s.size a ≤ s.size a) (h0 : ∀ a, off a = 0) :
    View.ld X (Rect.unit off s.size inb) = X :=
  funext fun x => congrArg X (idx_unit_zero off inb h0 x)

theorem ld_S512x1 {e : EltTy} {Val : EltTy → Type} (X : S512x1.Idx → Val e) :
    View.ld X (Rect.unit (s := S512x1) ![0, 0] ![512, 1] inb_S512x1_S512x1_0_0) = X :=
  ld_wholeUnit (s := S512x1) X _ _ (by decide)
theorem ld_S512x64 {e : EltTy} {Val : EltTy → Type} (X : S512x64.Idx → Val e) :
    View.ld X (Rect.unit (s := S512x64) ![0, 0] ![512, 64] inb_S512x64_S512x64_0_0) = X :=
  ld_wholeUnit (s := S512x64) X _ _ (by decide)
theorem ld_S1x512x64 {e : EltTy} {Val : EltTy → Type} (X : S1x512x64.Idx → Val e) :
    View.ld X (Rect.unit (s := S1x512x64) ![0, 0, 0] ![1, 512, 64] inb_S1x512x64_S1x512x64_0_0_0) = X :=
  ld_wholeUnit (s := S1x512x64) X _ _ (by decide)

/-! ## One online-softmax step, as pure functions of the blocks and the previous scratch contents

`x0` is the query block, `x1` / `x2` the head's resident keys / values, `m`, `l`, `acc` the running maximum, the running
denominator and the accumulator the step finds. -/

/-- The key (value) rows `[512·ki, 512·ki + 512)` of the head's resident buffer, as the step loads them. -/
def kvB (i : grid1.Coords) (h : cond1_1 i) (x : Vec F S1x2048x64 .bf16) : Vec F S1x512x64 .bf16 :=
  View.ld x (Rect.unit (s := S1x2048x64) (k1_off1 i) S1x512x64.size (k1_off1_inb i h))

/-- The new running maximum. -/
def stepM (i : grid1.Coords) (h : cond1_1 i) (x0 : Vec F S1x512x64 .bf16) (x1 : Vec F S1x2048x64 .bf16) (m : Vec F S512x1 .f32) : Vec F S512x1 .f32 :=
  k1_pay6 (k1_pay10 (BitVec.ofNat 32 (i 1).val) (BitVec.ofNat 32 (i 2).val) x0 (kvB i h x1) m)
/-- The new running denominator. -/
def stepL (i : grid1.Coords) (h : cond1_1 i) (x0 : Vec F S1x512x64 .bf16) (x1 : Vec F S1x2048x64 .bf16) (m l : Vec F S512x1 .f32) : Vec F S512x1 .f32 :=
  k1_pay4 (k1_pay13 (BitVec.ofNat 32 (i 1).val) (BitVec.ofNat 32 (i 2).val) x0 (kvB i h x1) m l)
/-- The new accumulator. -/
def stepAcc (i : grid1.Coords) (h : cond1_1 i) (x0 : Vec F S1x512x64 .bf16) (x1 x2 : Vec F S1x2048x64 .bf16) (m : Vec F S512x1 .f32) (acc : Vec F S512x64 .f32) : Vec F S512x64 .f32 :=
  k1_pay5 (k1_pay8 (kvB i h x2)) (k1_pay11 (BitVec.ofNat 32 (i 1).val) (BitVec.ofNat 32 (i 2).val) x0 (kvB i h x1) m)
    (k1_pay12 (BitVec.ofNat 32 (i 1).val) (BitVec.ofNat 32 (i 2).val) x0 (kvB i h x1) m) acc

section RunForms
variable (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
  (x0 : Vec F S1x512x64 .bf16) (x1 : Vec F S1x2048x64 .bf16) (x2 : Vec F S1x2048x64 .bf16)
  (xs0 : Vec F S512x1 .f32) (xs1 : Vec F S512x1 .f32) (xs2 : Vec F S512x64 .f32)

/-! ### What each case's stores leave, in closed form: the step functions at the contents the case found -/

theorem runA_m (hc0 : cond1_0 i) (hc1 : cond1_1 i) (hc2 : ¬cond1_2 i) (f : arg7.view.ty.Contents (Elt F)) :
    arg7.view.read (Elt F) (arg7.view.writes (Elt F) f (kernelRun1_A c i arg3 harg3 arg4 harg4 arg5 harg5 arg6 harg6 arg7 harg7 arg8 harg8 arg9 harg9 hc0 hc1 hc2 x0 x1 x2).2.1)
      = stepM i hc1 x0 x1 k1_pay1 := by
  unfold kernelRun1_A; dsimp only

  rw [read_writes_wholeUnit _ _ _ _ (by decide)]
  unfold kernelRun1_A.sl.r_1 kernelRun1_A.sl.v34 kernelRun1_A.sl.HS0_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runA_l (hc0 : cond1_0 i) (hc1 : cond1_1 i) (hc2 : ¬cond1_2 i) (f : arg8.view.ty.Contents (Elt F)) :
    arg8.view.read (Elt F) (arg8.view.writes (Elt F) f (kernelRun1_A c i arg3 harg3 arg4 harg4 arg5 harg5 arg6 harg6 arg7 harg7 arg8 harg8 arg9 harg9 hc0 hc1 hc2 x0 x1 x2).2.2.1)
      = stepL i hc1 x0 x1 k1_pay1 k1_pay2 := by
  unfold kernelRun1_A; dsimp only

  rw [read_writes_wholeUnit _ _ _ _ (by decide)]
  unfold kernelRun1_A.sl.r_4 kernelRun1_A.sl.v34 kernelRun1_A.sl.v43 kernelRun1_A.sl.HS0_1 kernelRun1_A.sl.HS1_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runA_acc (hc0 : cond1_0 i) (hc1 : cond1_1 i) (hc2 : ¬cond1_2 i) (f : arg9.view.ty.Contents (Elt F)) :
    arg9.view.read (Elt F) (arg9.view.writes (Elt F) f (kernelRun1_A c i arg3 harg3 arg4 harg4 arg5 harg5 arg6 harg6 arg7 harg7 arg8 harg8 arg9 harg9 hc0 hc1 hc2 x0 x1 x2).2.2.2.1)
      = stepAcc i hc1 x0 x1 x2 k1_pay1 k1_pay3 := by
  unfold kernelRun1_A; dsimp only

  rw [read_writes_wholeUnit _ _ _ _ (by decide)]
  unfold kernelRun1_A.sl.r kernelRun1_A.sl.r_2 kernelRun1_A.sl.r_3 kernelRun1_A.sl.v34 kernelRun1_A.sl.v51 kernelRun1_A.sl.HS0_1 kernelRun1_A.sl.HS2_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runB_m (hc0 : ¬cond1_0 i) (hc1 : cond1_1 i) (hc2 : ¬cond1_2 i) (f : arg7.view.ty.Contents (Elt F)) :
    arg7.view.read (Elt F) (arg7.view.writes (Elt F) f (kernelRun1_B c i arg3 harg3 arg4 harg4 arg5 harg5 arg6 harg6 arg7 harg7 arg8 harg8 arg9 harg9 hc0 hc1 hc2 x0 x1 x2 xs0 xs1 xs2).2.1)
      = stepM i hc1 x0 x1 xs0 := by
  unfold kernelRun1_B; dsimp only

  rw [read_writes_wholeUnit _ _ _ _ (by decide)]
  unfold kernelRun1_B.sl.r_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runB_l (hc0 : ¬cond1_0 i) (hc1 : cond1_1 i) (hc2 : ¬cond1_2 i) (f : arg8.view.ty.Contents (Elt F)) :
    arg8.view.read (Elt F) (arg8.view.writes (Elt F) f (kernelRun1_B c i arg3 harg3 arg4 harg4 arg5 harg5 arg6 harg6 arg7 harg7 arg8 harg8 arg9 harg9 hc0 hc1 hc2 x0 x1 x2 xs0 xs1 xs2).2.2.1)
      = stepL i hc1 x0 x1 xs0 xs1 := by
  unfold kernelRun1_B; dsimp only

  rw [read_writes_wholeUnit _ _ _ _ (by decide)]
  unfold kernelRun1_B.sl.r_4
  simp only [View.readCov_cons_toLoadRect, View.readAt_eq_ld, harg3.read_unread, harg4.read_unread, harg5.read_unread, harg7.read_unread, harg8.read_unread, harg9.read_unread, ld_S512x1, ld_S512x64, ld_S1x512x64]
  rfl

theorem runB_acc (hc0 : ¬cond1_0 i) (hc1 : cond1_1 i) (hc2 : ¬cond1_2 i) (f : arg9.view.ty.Contents (Elt F)) :
    arg9.view.read (Elt F) (arg9.view.writes (Elt F) f (kernelRun1_B c i arg3 harg3 arg4 harg4 arg5 harg5 arg6 harg6 arg7 harg7 arg8 harg8 arg9 harg9 hc0 hc1 hc2 x0 x1 x2 xs0 xs1 xs2).2.2.2.1)
      = stepAcc i hc1 x0 x1 x2 xs0 xs2 := by
  unfold kernelRun1_B; dsimp only

  rw [read_writes_wholeUnit _ _ _ _ (by decide)]
  unfold kernelRun1_B.sl.r kernelRun1_B.sl.r_2 kernelRun1_B.sl.r_3
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_m (hc0 : ¬cond1_0 i) (hc1 : cond1_1 i) (hc2 : cond1_2 i) (f : arg7.view.ty.Contents (Elt F)) :
    arg7.view.read (Elt F) (arg7.view.writes (Elt F) f (kernelRun1_D c i arg3 harg3 arg4 harg4 arg5 harg5 arg6 harg6 arg7 harg7 arg8 harg8 arg9 harg9 hc0 hc1 hc2 x0 x1 x2 xs0 xs1 xs2).2.1)
      = stepM i hc1 x0 x1 xs0 := by
  unfold kernelRun1_D; dsimp only

  rw [read_writes_wholeUnit _ _ _ _ (by decide)]
  unfold kernelRun1_D.sl.r_1
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_l (hc0 : ¬cond1_0 i) (hc1 : cond1_1 i) (hc2 : cond1_2 i) (f : arg8.view.ty.Contents (Elt F)) :
    arg8.view.read (Elt F) (arg8.view.writes (Elt F) f (kernelRun1_D c i arg3 harg3 arg4 harg4 arg5 harg5 arg6 harg6 arg7 harg7 arg8 harg8 arg9 harg9 hc0 hc1 hc2 x0 x1 x2 xs0 xs1 xs2).2.2.1)
      = stepL i hc1 x0 x1 xs0 xs1 := by
  unfold kernelRun1_D; dsimp only
  unfold kernelRun1_D.sl.HS1_1
  rw [read_writes_wholeUnit _ _ _ _ (by decide)]
  unfold kernelRun1_D.sl.r_4
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_acc (hc0 : ¬cond1_0 i) (hc1 : cond1_1 i) (hc2 : cond1_2 i) (f : arg9.view.ty.Contents (Elt F)) :
    arg9.view.read (Elt F) (arg9.view.writes (Elt F) f (kernelRun1_D c i arg3 harg3 arg4 harg4 arg5 harg5 arg6 harg6 arg7 harg7 arg8 harg8 arg9 harg9 hc0 hc1 hc2 x0 x1 x2 xs0 xs1 xs2).2.2.2.1)
      = stepAcc i hc1 x0 x1 x2 xs0 xs2 := by
  unfold kernelRun1_D; dsimp only
  unfold kernelRun1_D.sl.HS2_1
  rw [read_writes_wholeUnit _ _ _ _ (by decide)]
  unfold kernelRun1_D.sl.r kernelRun1_D.sl.r_2 kernelRun1_D.sl.r_3
  simp only [View.readCov_cons_toLoadRect, View.readAt_eq_ld, harg3.read_unread, harg4.read_unread, harg5.read_unread, harg7.read_unread, harg8.read_unread, harg9.read_unread, ld_S512x1, ld_S512x64, ld_S1x512x64]
  rfl

theorem runD_out (hc0 : ¬cond1_0 i) (hc1 : cond1_1 i) (hc2 : cond1_2 i) (f : arg6.view.ty.Contents (Elt F)) :
    arg6.view.read (Elt F) (arg6.view.writes (Elt F) f (kernelRun1_D c i arg3 harg3 arg4 harg4 arg5 harg5 arg6 harg6 arg7 harg7 arg8 harg8 arg9 harg9 hc0 hc1 hc2 x0 x1 x2 xs0 xs1 xs2).1)
      = k1_pay7 (stepAcc i hc1 x0 x1 x2 xs0 xs2) (stepL i hc1 x0 x1 xs0 xs1) := by
  unfold kernelRun1_D; dsimp only

  rw [read_writes_wholeUnit _ _ _ _ (by decide)]
  unfold kernelRun1_D.sl.v9 kernelRun1_D.sl.v10 kernelRun1_D.sl.HS1_1 kernelRun1_D.sl.HS2_1 kernelRun1_D.sl.r kernelRun1_D.sl.r_2 kernelRun1_D.sl.r_3 kernelRun1_D.sl.r_4
  simp only [View.readCov_cons_toLoadRect, View.readAt_eq_ld, harg3.read_unread, harg4.read_unread, harg5.read_unread, harg7.read_unread, harg8.read_unread, harg9.read_unread, ld_S512x1, ld_S512x64, ld_S1x512x64]
  rfl

theorem runE_out (hc0 : ¬cond1_0 i) (hc1 : ¬cond1_1 i) (hc2 : cond1_2 i) (f : arg6.view.ty.Contents (Elt F)) :
    arg6.view.read (Elt F) (arg6.view.writes (Elt F) f (kernelRun1_E c i arg3 harg3 arg4 harg4 arg5 harg5 arg6 harg6 arg7 harg7 arg8 harg8 arg9 harg9 hc0 hc1 hc2 x0 x1 x2 xs0 xs1 xs2).1)
      = k1_pay7 xs2 xs1 := by
  unfold kernelRun1_E; dsimp only
  rw [read_writes_wholeUnit _ _ _ _ (by decide)]
  simp only [View.readCov_cons_toLoadRect, View.readAt_eq_ld, harg3.read_unread, harg4.read_unread, harg5.read_unread, harg7.read_unread, harg8.read_unread, harg9.read_unread, ld_S512x1, ld_S512x64, ld_S1x512x64]

end RunForms

/-! ## The scratch contents point by point -/

/-- The reset contents: the running maximum at the mask fill, the denominator and the accumulator at zero. -/
def init1 : Vec F S512x1 .f32 × Vec F S512x1 .f32 × Vec F S512x64 .f32 := (k1_pay1, k1_pay2, k1_pay3)

/-- One step at point `t` (where `ki ≤ qi`) from scratch contents `p = (m, l, acc)`, on the point's blocks. -/
def step1 (c : Dev nD) (t : Fin cfg1.N) (h : cond1_1 (grid1.coords t)) (p : Vec F S512x1 .f32 × Vec F S512x1 .f32 × Vec F S512x64 .f32) : Vec F S512x1 .f32 × Vec F S512x1 .f32 × Vec F S512x64 .f32 :=
  (stepM (grid1.coords t) h (iblk1 V c 0 t) (iblk1 V c 1 t) p.1,
   stepL (grid1.coords t) h (iblk1 V c 0 t) (iblk1 V c 1 t) p.1 p.2.1,
   stepAcc (grid1.coords t) h (iblk1 V c 0 t) (iblk1 V c 1 t) (iblk1 V c 2 t) p.1 p.2.2)

/-- THE ACCUMULATION: the scratch contents `(m, l, acc)` after the first `n` grid points. Point `n` has `ki = n % 4` and
    `qi = (n / 4) % 4`: at `ki = 0` it steps from the reset contents, at `0 < ki ≤ qi` from what the points before left,
    and at `ki > qi` (the key block wholly above the diagonal) it leaves the scratch as it was. -/
def scr1 (c : Dev nD) : ℕ → Vec F S512x1 .f32 × Vec F S512x1 .f32 × Vec F S512x64 .f32
  | 0 => init1
  | n + 1 =>
    if hn : n < cfg1.N then
      if h0 : n % 4 = 0 then step1 V c ⟨n, hn⟩ ((hcond1_1 ⟨n, hn⟩).mpr (by rw [h0]; exact Nat.zero_le _)) init1
      else if h1 : n % 4 ≤ (n / 4) % 4 then step1 V c ⟨n, hn⟩ ((hcond1_1 ⟨n, hn⟩).mpr h1) (scr1 c n)
      else scr1 c n
    else scr1 c n

theorem scr1_reset (c : Dev nD) (t : Fin cfg1.N) (h0 : t.val % 4 = 0) (h : cond1_1 (grid1.coords t)) :
    scr1 V c (t.val + 1) = step1 V c t h init1 := by
  obtain ⟨n, hn⟩ := t
  show scr1 V c (n + 1) = _
  rw [scr1, dif_pos hn, dif_pos h0]
theorem scr1_step (c : Dev nD) (t : Fin cfg1.N) (h0 : ¬t.val % 4 = 0) (h1 : t.val % 4 ≤ (t.val / 4) % 4) (h : cond1_1 (grid1.coords t)) :
    scr1 V c (t.val + 1) = step1 V c t h (scr1 V c t.val) := by
  obtain ⟨n, hn⟩ := t
  show scr1 V c (n + 1) = _
  rw [scr1, dif_pos hn, dif_neg h0, dif_pos h1]
theorem scr1_skip (c : Dev nD) (t : Fin cfg1.N) (h0 : ¬t.val % 4 = 0) (h1 : ¬t.val % 4 ≤ (t.val / 4) % 4) :
    scr1 V c (t.val + 1) = scr1 V c t.val := by
  obtain ⟨n, hn⟩ := t
  show scr1 V c (n + 1) = _
  rw [scr1, dif_pos hn, dif_neg h0, dif_neg h1]

/-- What the point `t` with `ki = 3` stores into the output block: the accumulator over the denominator, both as the
    point's step (if it takes one) leaves them. -/
def out1_3 (c : Dev nD) (t : Fin cfg1.N) : Vec F S1x512x64 .bf16 :=
  k1_pay7 (scr1 V c (t.val + 1)).2.2 (scr1 V c (t.val + 1)).2.1

/-! ## The region invariant -/

/-- The core's scoped buffers that are neither a staging buffer of this region nor its scratch, each whole at some
    contents: the other two regions' staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's scoped rest is the three scratch buffers owned at some contents and the others. -/
theorem scoped_split (c : Dev nD) :
    (Pipeline.scopedRest spec1 c : sProp 𝕄) ⊢ iprop((∃ d, owns (c : Thread nD τ) scM1_0 fullShare d) ∗ (∃ d, owns (c : Thread nD τ) scM1_1 fullShare d) ∗ (∃ d, owns (c : Thread nD τ) scM1_2 fullShare d) ∗ rest1 c) := by
  rw [scopedRest1_eq]; unfold rest1; simp only [scM1_0, scM1_1, scM1_2, owns_whole]
  iintro ⟨R0, R1, R2, R3, R4, R5, R6, R7, S0, S1, S2, R8, R9, R10, R11, R12, R13⟩
  isplitl [S0]; · iexact S0
  isplitl [S1]; · iexact S1
  isplitl [S2]; · iexact S2
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

theorem scoped_join (c : Dev nD) :
    iprop((∃ d, owns (c : Thread nD τ) scM1_0 fullShare d) ∗ (∃ d, owns (c : Thread nD τ) scM1_1 fullShare d) ∗ (∃ d, owns (c : Thread nD τ) scM1_2 fullShare d) ∗ rest1 c) ⊢ (Pipeline.scopedRest spec1 c : sProp 𝕄) := by
  rw [scopedRest1_eq]; unfold rest1; simp only [scM1_0, scM1_1, scM1_2, owns_whole]
  iintro ⟨S0, S1, S2, R0, R1, R2, R3, R4, R5, R6, R7, R8, R9, R10, R11, R12, R13⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [S0]; · iexact S0
  isplitl [S1]; · iexact S1
  isplitl [S2]; · iexact S2
  isplitl [R8]; · iexact R8
  isplitl [R9]; · iexact R9
  isplitl [R10]; · iexact R10
  isplitl [R11]; · iexact R11
  isplitl [R12]; · iexact R12
  iexact R13

/-- The invariant before point `n`: before the first point what the launch hands the region (the generator register at
    some state and the scoped rest: every scratch buffer at anything, and the other scoped buffers); afterwards the generator register at some state,
    the three scratch buffers owned whole at what the points before left (`scr1`), and the other scoped buffers. -/
def Phi1 (c : Dev nD) : ℕ → sProp 𝕄
  | 0 => iprop((∃ r, prngReg c r) ∗ (∃ d, owns (c : Thread nD τ) scM1_0 fullShare d) ∗ (∃ d, owns (c : Thread nD τ) scM1_1 fullShare d) ∗ (∃ d, owns (c : Thread nD τ) scM1_2 fullShare d) ∗ rest1 c)
  | n + 1 => iprop((∃ r, prngReg c r) ∗ owns (c : Thread nD τ) scM1_0 fullShare (scr1 V c (n + 1)).1 ∗ owns (c : Thread nD τ) scM1_1 fullShare (scr1 V c (n + 1)).2.1 ∗ owns (c : Thread nD τ) scM1_2 fullShare (scr1 V c (n + 1)).2.2 ∗ rest1 c)

theorem Phi1_zero (c : Dev nD) (n : ℕ) (hz : n = 0) : Phi1 V c n = iprop((∃ r, prngReg c r) ∗ (∃ d, owns (c : Thread nD τ) scM1_0 fullShare d) ∗ (∃ d, owns (c : Thread nD τ) scM1_1 fullShare d) ∗ (∃ d, owns (c : Thread nD τ) scM1_2 fullShare d) ∗ rest1 c) := by
  subst hz; rfl
theorem Phi1_succ (c : Dev nD) (n : ℕ) :
    Phi1 V c (n + 1) = iprop((∃ r, prngReg c r) ∗ owns (c : Thread nD τ) scM1_0 fullShare (scr1 V c (n + 1)).1 ∗ owns (c : Thread nD τ) scM1_1 fullShare (scr1 V c (n + 1)).2.1 ∗ owns (c : Thread nD τ) scM1_2 fullShare (scr1 V c (n + 1)).2.2 ∗ rest1 c) := rfl
theorem Phi1_pos (c : Dev nD) (n : ℕ) (hz : n ≠ 0) :
    Phi1 V c n = iprop((∃ r, prngReg c r) ∗ owns (c : Thread nD τ) scM1_0 fullShare (scr1 V c n).1 ∗ owns (c : Thread nD τ) scM1_1 fullShare (scr1 V c n).2.1 ∗ owns (c : Thread nD τ) scM1_2 fullShare (scr1 V c n).2.2 ∗ rest1 c) := by
  cases n with
  | zero => exact absurd rfl hz
  | succ n => rfl

/-! ## The pipeline's proof data -/

/-- The proof data of region 1 on core `c`: the arrays as the region finds them (`V`); after the body at point `t` each
    input's buffer at its block and the output's at `out1_3`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- The output block after a point: `out1_3` (consulted where `ki = 3`, the points that store and write it back). -/
theorem after1_3 (c : Dev nD) (t : Fin cfg1.N) : (dat1 V c).after 3 t = out1_3 V c t := by dsimp only [dat1]

theorem hin1 (c : Dev nD) : (iprop((∃ r, prngReg c r) ∗ Pipeline.scopedRest spec1 c) : sProp 𝕄) ⊢ (dat1 V c).Φ 0 := by
  rw [show (dat1 V c).Φ 0 = Phi1 V c 0 from rfl, Phi1_zero V c 0 rfl]
  iintro ⟨Hg, Hsc⟩
  isplitl [Hg]; · iexact Hg
  iapply (scoped_split c)
  iexact Hsc

theorem Phi1_out (c : Dev nD) (n : ℕ) (hz : n ≠ 0) :
    Phi1 V c n ⊢ (iprop((∃ r, prngReg c r) ∗ Pipeline.scopedRest spec1 c) : sProp 𝕄) := by
  rw [Phi1_pos V c n hz]
  iintro ⟨Hg, HS0, HS1, HS2, HR⟩
  isplitl [Hg]; · iexact Hg
  iapply (scoped_join c)
  isplitl [HS0]; · iexists _; iexact HS0
  isplitl [HS1]; · iexists _; iexact HS1
  isplitl [HS2]; · iexists _; iexact HS2
  iexact HR

theorem hout1 (c : Dev nD) : (dat1 V c).Φ (Fin.last cfg1.N) ⊢ (iprop((∃ r, prngReg c r) ∗ Pipeline.scopedRest spec1 c) : sProp 𝕄) := by
  rw [show (dat1 V c).Φ (Fin.last cfg1.N) = Phi1 V c (Fin.last cfg1.N).val from rfl]
  exact Phi1_out V c _ (by rw [Fin.val_last]; have : cfg1.N = 1024 := N_1; omega)

/-! ## What the body finds in the inputs' staging buffers -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- Case C's run with nothing held apart: the continuation's post suffices. -/
theorem kernelRun1_C' (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__kernel i arg3 harg3 arg4 harg4 arg5 harg5 arg6 harg6 arg7 harg7 arg8 harg8 arg9 harg9) K := by
  have h : K ⟨⟩ ⊢ (iprop(K ⟨⟩ ∗ (K ⟨⟩ -∗ K ⟨⟩)) : sProp 𝕄) := by
    iintro H
    isplitl [H]; · iexact H
    iintro H; iexact H
  exact h.trans (kernelRun1_C c i arg3 harg3 arg4 harg4 arg5 harg5 arg6 harg6 arg7 harg7 arg8 harg8 arg9 harg9 hc0 hc1 hc2 (K ⟨⟩) E K)

set_option maxHeartbeats 8000000 in
/-- The body at any point: the inputs' memrefs hold their blocks (`before1_W`); `ki = t % 4` and `qi = (t / 4) % 4` say
    which of the five cases the point is in; that case's run applies — the invariant hands the body the scratch at what
    the points before left (at anything where the case resets it) and takes it back at this point's contents (`scr1`, by
    the runs' closed forms); the output block is handed back untouched where `ki ≠ 3` and at `out1_3` where `ki = 3`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) from rfl, Phi1_succ]
  rw [show (dat1 V c).Φ t.castSucc = Phi1 V c t.val from rfl]
  have hN : t.val < 1024 := lt_of_lt_of_eq t.isLt (show cfg1.N = 1024 from N_1)
  rw [show (dat1 V c).leavesExact 0 t = owns (c : Thread nD τ) (ms1_0 t) fullShare ((dat1 V c).after 0 t) from by
    unfold Dat.leavesExact; rw [liveAt1_0 (grid1.coords t)], after1_0]
  rw [show (dat1 V c).leavesExact 1 t = owns (c : Thread nD τ) (ms1_1 t) fullShare ((dat1 V c).after 1 t) from by
    unfold Dat.leavesExact; rw [liveAt1_1 (grid1.coords t)], after1_1]
  rw [show (dat1 V c).leavesExact 2 t = owns (c : Thread nD τ) (ms1_2 t) fullShare ((dat1 V c).after 2 t) from by
    unfold Dat.leavesExact; rw [liveAt1_2 (grid1.coords t)], after1_2]
  by_cases h2 : t.val % 4 = 3
  · rw [show (dat1 V c).leavesExact 3 t = owns (c : Thread nD τ) (ms1_3 t) fullShare ((dat1 V c).after 3 t) from by
      unfold Dat.leavesExact; rw [liveAt1_3 t ((hcond1_2 t).mpr h2)], after1_3]
    unfold out1_3
    have h0 : ¬t.val % 4 = 0 := by omega
    have hz : t.val ≠ 0 := by omega
    rw [Phi1_pos V c _ hz]
    by_cases h1 : t.val % 4 ≤ (t.val / 4) % 4
    · -- ki = 3 = qi: one step, then the output store
      rw [scr1_step V c t h0 h1 ((hcond1_1 t).mpr h1)]; unfold step1; dsimp only
      iintro ⟨⟨Hg, HS0, HS1, HS2, HR⟩, Ho, ⟨%d0, H0⟩, ⟨%d1, H1⟩, ⟨%d2, H2⟩, ⟨%d3, H3⟩⟩
      iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hg HS0 HS1 HS2 HR]
      · isplitl [Hg]; · iexact Hg
        isplitl [HS0]
        · unfold owns; iexists _; isplitr
          swap; · iexact HS0
          ipureintro; exact runD_m ..
        isplitl [HS1]
        · unfold owns; iexists _; isplitr
          swap; · iexact HS1
          ipureintro; exact runD_l ..
        isplitl [HS2]
        · unfold owns; iexists _; isplitr
          swap; · iexact HS2
          ipureintro; exact runD_acc ..
        iexact HR
      isplitl [Ho]; · iexact Ho
      isplitl [H0]; · iexact H0
      isplitl [H1]; · iexact H1
      isplitl [H2]; · iexact H2
      unfold owns; iexists _; isplitr
      swap; · iexact H3
      ipureintro; exact runD_out ..
    · -- ki = 3, qi < 3: the output store only
      rw [scr1_skip V c t h0 h1]
      iintro ⟨⟨Hg, HS0, HS1, HS2, HR⟩, Ho, ⟨%d0, H0⟩, ⟨%d1, H1⟩, ⟨%d2, H2⟩, ⟨%d3, H3⟩⟩
      iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Hg HS0 HS1 HS2 HR]
      · isplitl [Hg]; · iexact Hg
        isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      unfold owns; iexists _; isplitr
      swap; · iexact H3
      ipureintro; exact runE_out ..
  · rw [Dat.leavesExact_idle (dat1 V c) 3 t (idleAt1_3 t (fun h => h2 ((hcond1_2 t).mp h))) (noFlush1_3 t (fun h => h2 ((hcond1_2 t).mp h)))]
    by_cases h0 : t.val % 4 = 0
    · -- ki = 0: reset, then one step
      have h1 : t.val % 4 ≤ (t.val / 4) % 4 := by omega
      rw [scr1_reset V c t h0 ((hcond1_1 t).mpr h1)]; unfold step1 init1; dsimp only
      by_cases hz : t.val = 0
      · rw [Phi1_zero V c _ hz]
        iintro ⟨⟨Hg, HS0, HS1, HS2, HR⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hg HS0 HS1 HS2 HR]
        · isplitl [Hg]; · iexact Hg
          isplitl [HS0]
          · unfold owns; iexists _; isplitr
            swap; · iexact HS0
            ipureintro; exact runA_m ..
          isplitl [HS1]
          · unfold owns; iexists _; isplitr
            swap; · iexact HS1
            ipureintro; exact runA_l ..
          isplitl [HS2]
          · unfold owns; iexists _; isplitr
            swap; · iexact HS2
            ipureintro; exact runA_acc ..
          iexact HR
        isplitl [Ho]; · iexact Ho
        isplitl [H0]; · iexact H0
        isplitl [H1]; · iexact H1
        isplitl [H2]; · iexact H2
        iexists _; iexact H3
      · rw [Phi1_pos V c _ hz]
        iintro ⟨⟨Hg, HS0, HS1, HS2, HR⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hg HS0 HS1 HS2 HR]
        · isplitl [Hg]; · iexact Hg
          isplitl [HS0]
          · unfold owns; iexists _; isplitr
            swap; · iexact HS0
            ipureintro; exact runA_m ..
          isplitl [HS1]
          · unfold owns; iexists _; isplitr
            swap; · iexact HS1
            ipureintro; exact runA_l ..
          isplitl [HS2]
          · unfold owns; iexists _; isplitr
            swap; · iexact HS2
            ipureintro; exact runA_acc ..
          iexact HR
        isplitl [Ho]; · iexact Ho
        isplitl [H0]; · iexact H0
        isplitl [H1]; · iexact H1
        isplitl [H2]; · iexact H2
        iexists _; iexact H3
    · have hz : t.val ≠ 0 := fun e => h0 (by rw [e])
      rw [Phi1_pos V c _ hz]
      by_cases h1 : t.val % 4 ≤ (t.val / 4) % 4
      · -- 0 < ki ≤ qi, ki < 3: one step
        rw [scr1_step V c t h0 h1 ((hcond1_1 t).mpr h1)]; unfold step1; dsimp only
        iintro ⟨⟨Hg, HS0, HS1, HS2, HR⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hg HS0 HS1 HS2 HR]
        · isplitl [Hg]; · iexact Hg
          isplitl [HS0]
          · unfold owns; iexists _; isplitr
            swap; · iexact HS0
            ipureintro; exact runB_m ..
          isplitl [HS1]
          · unfold owns; iexists _; isplitr
            swap; · iexact HS1
            ipureintro; exact runB_l ..
          isplitl [HS2]
          · unfold owns; iexists _; isplitr
            swap; · iexact HS2
            ipureintro; exact runB_acc ..
          iexact HR
        isplitl [Ho]; · iexact Ho
        isplitl [H0]; · iexact H0
        isplitl [H1]; · iexact H1
        isplitl [H2]; · iexact H2
        iexists _; iexact H3
      · -- ki > qi: nothing
        rw [scr1_skip V c t h0 h1]
        iintro ⟨HP, Ho, ⟨%d0, H0⟩, ⟨%d1, H1⟩, ⟨%d2, H2⟩, ⟨%d3, H3⟩⟩
        iapply (kernelRun1_C' c (grid1.coords t) _ _ _ _ _ _ _ _ _ _ _ _ _ _ (fun h => h0 ((hcond1_0 t).mp h)) (fun h => h1 ((hcond1_1 t).mp h)) (fun h => h2 ((hcond1_2 t).mp h)) Set.univ _)
        isplitl [HP]; · iexact HP
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
import proofs.«125597_j3710851744401_2_alg».proof.Proof.Gen.KernelIdeal.Launch
import proofs.«125597_j3710851744401_2_alg».proof.Proof.Gen.KernelIdeal.Skeleton
import proofs.«125597_j3710851744401_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the linear layer `cc2__linear_kernel`, its body half

The body is of the plainest class: it loads the three input windows' blocks whole (an activation block, a weight
block, a bias row), computes one pure value of them (the skeleton's payload `k2_pay1`: the product of the activation
block with the transposed weight block, plus the broadcast bias row), and stores that value over the whole output
block. (It also loads the output block once before the store; the value read is not used.) So what the body leaves
in the output window's staging buffer is a closed function `out2_3` of the three input blocks at the point, and the
input buffers are left as found. Everything is stated at a parameter `V`, the TensorCore's buffer contents when the
region is entered. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (an unfetched point has the block index of the point before, whose block the buffer still holds), for any
    proof data whose array is `V`'s and whose body leaves the block in place. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (an unfetched point has the block index of the point before, whose block the buffer still holds), for any
    proof data whose array is `V`'s and whose body leaves the block in place. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (an unfetched point has the block index of the point before, whose block the buffer still holds), for any
    proof data whose array is `V`'s and whose body leaves the block in place. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole block -/

abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-! ## What the body leaves in the output window's buffer -/

/-- Window 3's staging buffer after the body, from the input windows' blocks: its one store, of the payload of the
    three loaded blocks, laid over the buffer. -/
def out2_3 (x0 : Vec F S512x1024 .bf16) (x1 : Vec F S1024x1024 .f32) (x2 : Vec F S1x1024 .f32) : Vec F S512x1024 .f32 :=
  View.canon [⟨rx2, k2_pay1 (View.ld x0 rx2) (View.ld x1 rw2) (View.ld x2 rb2)⟩]

/-- The one store is of the whole block, so it covers the buffer. -/
theorem cover2_3 (p0 : Vec F S512x1024 .f32) (y : S512x1024.Idx) :
    ∃ pc ∈ ([⟨rx2, p0⟩] : List (View.Piece (Elt F) S512x1024 .f32)), y ∈ pc.1.set :=
  View.cover_of_tiled [⟨rx2, p0⟩] S512x1024.size (by rfl) y

/-! ## The body's triple -/

set_option maxHeartbeats 1000000 in
/-- The kernel body on whole staging memrefs, the inputs' at read contents `x0 x1 x2` and the output's at anything,
    runs to the continuation holding the inputs' as they were and the output's at `out2_3` of the inputs'. -/
theorem sound_kernel2 (c : Dev nD) (E : Set ℕ) (i : grid2.Coords)
    (arg0 : Memref sig .tc .vmem S512x1024 .bf16) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The run of the whole program, from the launch to the return.

  @main is seven items in a row: a stretch of host operations, the first linear layer (a pallas_call over a 16 × 3
  grid), the stretch that cuts its result into query, key and value heads, the attention kernel (64 × 4 × 4 grid
  points, its three scratch buffers carried from point to point), the stretch that puts the heads back side by
  side, the second linear layer (16 grid points), and a last reshape.  The contents of every buffer between two
  items are written down once, as a fold from the launch memory: a host stretch applies its operations; a
  pallas_call leaves each of its windows' arrays at what the write-backs of its grid points leave there and every
  other buffer alone.  Each pallas_call is entered with all buffers at one stage of that fold and left with them at
  the next, so the seven items chain, and the program's run ends with every buffer at the last stage.  The frame
  claim is that run read at the five argument arrays: no host operation writes one, and a pallas_call either does
  not touch it or reads it through an input window, which hands it back as it found it.
-/
import proofs.«125597_j3710851744401_2_alg».proof.Proof.Gen.KernelIdeal.Launch
import proofs.«125597_j3710851744401_2_alg».proof.Proof.Gen.KernelIdeal.Skeleton
import proofs.«125597_j3710851744401_2_alg».proof.Proof.Gen.KernelIdeal.Points
import proofs.«125597_j3710851744401_2_alg».proof.Proof.Gen.KernelIdeal.Regions
import proofs.«125597_j3710851744401_2_alg».proof.Proof.KIRegion0
import proofs.«125597_j3710851744401_2_alg».proof.Proof.KIRegion1
import proofs.«125597_j3710851744401_2_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## What each item of @main leaves untouched -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
/-- An input window's array leaves region 0 as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window's array leaves region 2 as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! ## The argument arrays reach the end as launched -/

theorem W7_main_arg0 (c : Dev nD) : W7 m ρ c (Proc.devRef .tc main_arg0) = m ((c : Thread nD τ).loc main_arg0) :=
  (W7_keep m ρ c main_arg0 (by decide)).trans <| (W6_of_ne m ρ c main_arg0 (by decide)).trans <| (W5_keep m ρ c main_arg0 (by decide)).trans <|
    (W4_of_ne m ρ c main_arg0 (by decide)).trans <| (W3_keep m ρ c main_arg0 (by decide)).trans <| (W2_of_ne m ρ c main_arg0 (by decide)).trans <|
    (W1_keep m ρ c main_arg0 (by decide)).trans rfl
theorem W7_main_arg1 (c : Dev nD) : W7 m ρ c (Proc.devRef .tc main_arg1) = m ((c : Thread nD τ).loc main_arg1) :=
  (W7_keep m ρ c main_arg1 (by decide)).trans <| (W6_of_ne m ρ c main_arg1 (by decide)).trans <| (W5_keep m ρ c main_arg1 (by decide)).trans <|
    (W4_of_ne m ρ c main_arg1 (by decide)).trans <| (W3_keep m ρ c main_arg1 (by decide)).trans <| (W2_in m ρ c 1 rfl).trans <|
    (W1_keep m ρ c main_arg1 (by decide)).trans rfl
theorem W7_main_arg2 (c : Dev nD) : W7 m ρ c (Proc.devRef .tc main_arg2) = m ((c : Thread nD τ).loc main_arg2) :=
  (W7_keep m ρ c main_arg2 (by decide)).trans <| (W6_of_ne m ρ c main_arg2 (by decide)).trans <| (W5_keep m ρ c main_arg2 (by decide)).trans <|
    (W4_of_ne m ρ c main_arg2 (by decide)).trans <| (W3_keep m ρ c main_arg2 (by decide)).trans <| (W2_of_ne m ρ c main_arg2 (by decide)).trans <|
    (W1_keep m ρ c main_arg2 (by decide)).trans rfl
theorem W7_main_arg3 (c : Dev nD) : W7 m ρ c (Proc.devRef .tc main_arg3) = m ((c : Thread nD τ).loc main_arg3) :=
  (W7_keep m ρ c main_arg3 (by decide)).trans <| (W6_in m ρ c 1 rfl).trans <| (W5_keep m ρ c main_arg3 (by decide)).trans <|
    (W4_of_ne m ρ c main_arg3 (by decide)).trans <| (W3_keep m ρ c main_arg3 (by decide)).trans <| (W2_of_ne m ρ c main_arg3 (by decide)).trans <|
    (W1_keep m ρ c main_arg3 (by decide)).trans rfl
theorem W7_main_arg4 (c : Dev nD) : W7 m ρ c (Proc.devRef .tc main_arg4) = m ((c : Thread nD τ).loc main_arg4) :=
  (W7_keep m ρ c main_arg4 (by decide)).trans <| (W6_of_ne m ρ c main_arg4 (by decide)).trans <| (W5_keep m ρ c main_arg4 (by decide)).trans <|
    (W4_of_ne m ρ c main_arg4 (by decide)).trans <| (W3_keep m ρ c main_arg4 (by decide)).trans <| (W2_of_ne m ρ c main_arg4 (by decide)).trans <|
    (W1_keep m ρ c main_arg4 (by decide)).trans rfl

/-! ## The proof data of the three pipelines, and what rides beside the buffers -/

abbrev adm : (p : Fin 3) → (pcfgs (F := F) p).Adm := fun p => (cfgs p).toPCfg_adm
/-- Every pipeline's proof data at its region's entry contents (a literal match, so that the library's pinned configuration
    at a numeral reduces to the printed one). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev Lv0 : GSem nD τ sig → Finset Unit := fun _ => ∅
abbrev lv0 : GSem nD τ sig → Unit → ℕ := fun _ _ => 0
/-- Beside the buffers, through every segment: the generator register at some state, and nothing owed. -/
abbrev Beside (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W7 m ρ c)

/-! ## The regions as segments -/

set_option backward.isDefEq.respectTransparency.types false in
/-- Region 0 between two boundaries: entered with every unscoped buffer at `W1`, left with them at `W2`.
    Its windows' arrays are split out of the unscoped buffers and put back at what the write-backs leave; the generator
    register passes through the body's invariant; nothing is owed and the kernel has no semaphore of its own. -/
def reg0 : Pipeline.RegionSeg (pcfgs (F := F)) adm (pdats m ρ) () defs₀ 𝒱₀ Lv0 lv0 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lv0 lv0 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between two boundaries: entered with every unscoped buffer at `W3`, left with them at `W4`.
    Its windows' arrays are split out of the unscoped buffers and put back at what the write-backs leave; the generator
    register passes through the body's invariant; nothing is owed and the kernel has no semaphore of its own. -/
def reg1 : Pipeline.RegionSeg (pcfgs (F := F)) adm (pdats m ρ) () defs₀ 𝒱₀ Lv0 lv0 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ Lv0 lv0 1 fun _ _ => rfl
  pre c := iprop(StableHlo.held (c : Thread nD τ) (Pipeline.ucRefs τ sig) (W3 m ρ c) ∗ Beside c)
  post c := iprop(StableHlo.held (c : Thread nD τ) (Pipeline.ucRefs τ sig) (W4 m ρ c) ∗ Beside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    refine (hout1 (V3 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between two boundaries: entered with every unscoped buffer at `W5`, left with them at `W6`.
    Its windows' arrays are split out of the unscoped buffers and put back at what the write-backs leave; the generator
    register passes through the body's invariant; nothing is owed and the kernel has no semaphore of its own. -/
def reg2 : Pipeline.RegionSeg (pcfgs (F := F)) adm (pdats m ρ) () defs₀ 𝒱₀ Lv0 lv0 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ Lv0 lv0 2 fun _ _ => rfl
  pre c := iprop(StableHlo.held (c : Thread nD τ) (Pipeline.ucRefs τ sig) (W5 m ρ c) ∗ Beside c)
  post c := iprop(StableHlo.held (c : Thread nD τ) (Pipeline.ucRefs τ sig) (W6 m ρ c) ∗ Beside c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ Lv0 lv0) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in the final
    state every unscoped buffer of every core holds the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ Lv0 lv0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := Tₙ m ρ)
    (hch := ⟨fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach Lv0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

/-- The frame: every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Hand

end
-- ==== Proof.LibHeads.lean ====
import Idealize.ShloMosaic.Lib.Pipeline.Value
import Idealize.ShloMosaic.Lib.ValueIdx

/-! # Attention's host re-layouts read at an index

A batch of 4 sequences of 2048 positions with 16 heads of width 64: the rows of a [4, 2048, 1024] array regrouped as
[8192, 1024] and back; a block of 1024 columns cut from an [8192, 3072] matrix; the heads of an [8192, 1024] matrix
split off and moved in front of the sequence axis ([8192, 1024] → [4, 2048, 16, 64] → [4, 16, 2048, 64] →
[64, 2048, 64]) and merged back. Each result, read at an index given by coordinates, is ONE entry of the operand,
with coordinates related by quotients and remainders. For any element type. -/

set_option maxRecDepth 16384

namespace Cert.LibHeads

open Idealize.ShloMosaic Idealize.ShloMosaic.ValueIdx

section Layout
variable {α : Type}

/-- Rows regrouped, [4, 2048, 1024] → [8192, 1024]: row r is row r % 2048 of batch r / 2048. -/
theorem merge_rows_apply (x : (⟨3, ![4, 2048, 1024]⟩ : Shape).Idx → α) (h : (⟨3, ![4, 2048, 1024]⟩ : Shape).ShapeCasts (⟨2, ![8192, 1024]⟩ : Shape)) (r : Fin 8192) (d : Fin 1024) :
    shapeCast (⟨2, ![8192, 1024]⟩ : Shape) x h (ix2 r d) = x (ix3 (⟨r.val / 2048, by omega⟩ : Fin 4) (⟨r.val % 2048, by omega⟩ : Fin 2048) d) :=
  shapeCast_apply x h _ _ (by
    rw [Shape.rowMajor_val_three, Shape.rowMajor_val_two]
    show (r.val / 2048 * 2048 + r.val % 2048) * 1024 + d.val = r.val * 1024 + d.val
    omega)

/-- Rows split back, [8192, 1024] → [4, 2048, 1024]: row s of batch n is row 2048 n + s. -/
theorem split_rows_apply (x : (⟨2, ![8192, 1024]⟩ : Shape).Idx → α) (h : (⟨2, ![8192, 1024]⟩ : Shape).ShapeCasts (⟨3, ![4, 2048, 1024]⟩ : Shape)) (n : Fin 4) (s : Fin 2048) (e : Fin 1024) :
    shapeCast (⟨3, ![4, 2048, 1024]⟩ : Shape) x h (ix3 n s e) = x (ix2 (⟨2048 * n.val + s.val, by omega⟩ : Fin 8192) e) :=
  shapeCast_apply x h _ _ (by
    rw [Shape.rowMajor_val_three, Shape.rowMajor_val_two]
    show (2048 * n.val + s.val) * 1024 + e.val = (n.val * 2048 + s.val) * 1024 + e.val
    omega)

/-- A block of 1024 columns of an [8192, 3072] matrix, from column o. -/
theorem cols_apply (o : Nat) (x : (⟨2, ![8192, 3072]⟩ : Shape).Idx → α) (h : (⟨2, ![8192, 3072]⟩ : Shape).Slices ![0, o] (⟨2, ![8192, 1024]⟩ : Shape)) (r : Fin 8192) (c : Fin 1024)
    (hc : o + c.val < 3072) :
    extractStridedSlice (⟨2, ![8192, 1024]⟩ : Shape) ![0, o] x h (ix2 r c) = x (ix2 r (⟨o + c.val, hc⟩ : Fin 3072)) :=
  extractStridedSlice_apply _ x h _ _ (fun a => by
    match a with
    | ⟨0, _⟩ => show r.val = 0 + r.val; omega
    | ⟨1, _⟩ => rfl)

/-- Heads split off and moved in front of the sequence axis, [8192, 1024] → [4, 2048, 16, 64] → [4, 16, 2048, 64] →
    [64, 2048, 64]: entry (bh, s, j) is row 2048 (bh / 16) + s, column 64 (bh % 16) + j. -/
theorem heads_apply (x : (⟨2, ![8192, 1024]⟩ : Shape).Idx → α) (h1 : (⟨2, ![8192, 1024]⟩ : Shape).ShapeCasts (⟨4, ![4, 2048, 16, 64]⟩ : Shape))
    (h2 : (⟨4, ![4, 2048, 16, 64]⟩ : Shape).Transposes [0, 2, 1, 3] (⟨4, ![4, 16, 2048, 64]⟩ : Shape)) (h3 : (⟨4, ![4, 16, 2048, 64]⟩ : Shape).ShapeCasts (⟨3, ![64, 2048, 64]⟩ : Shape))
    (bh : Fin 64) (s : Fin 2048) (j : Fin 64) :
    shapeCast (⟨3, ![64, 2048, 64]⟩ : Shape) (transpose (⟨4, ![4, 16, 2048, 64]⟩ : Shape) [0, 2, 1, 3] (shapeCast (⟨4, ![4, 2048, 16, 64]⟩ : Shape) x h1) h2) h3 (ix3 bh s j)
      = x (ix2 (⟨2048 * (bh.val / 16) + s.val, by omega⟩ : Fin 8192) (⟨64 * (bh.val % 16) + j.val, by omega⟩ : Fin 1024)) := by
  refine (shapeCast_apply _ h3 (ix3 bh s j) (ix4 (⟨bh.val / 16, by omega⟩ : Fin 4) (⟨bh.val % 16, by omega⟩ : Fin 16) s j) ?_).trans ?_
  · rw [Shape.rowMajor_val_four, Shape.rowMajor_val_three]
    show ((bh.val / 16 * 16 + bh.val % 16) * 2048 + s.val) * 64 + j.val = (bh.val * 2048 + s.val) * 64 + j.val
    omega
  refine (transpose_apply [0, 2, 1, 3] _ h2 _ (ix4 (⟨bh.val / 16, by omega⟩ : Fin 4) s (⟨bh.val % 16, by omega⟩ : Fin 16) j) (fun b => ?_)).trans ?_
  · match b with
    | ⟨0, _⟩ => rfl
    | ⟨1, _⟩ => rfl
    | ⟨2, _⟩ => rfl
    | ⟨3, _⟩ => rfl
  refine shapeCast_apply x h1 _ _ ?_
  rw [Shape.rowMajor_val_two, Shape.rowMajor_val_four]
  show (2048 * (bh.val / 16) + s.val) * 1024 + (64 * (bh.val % 16) + j.val) = ((bh.val / 16 * 2048 + s.val) * 16 + bh.val % 16) * 64 + j.val
  omega

/-- Heads merged back, [64, 2048, 64] → [4, 16, 2048, 64] → [4, 2048, 16, 64] → [8192, 1024]: entry (r, c) is head
    16 (r / 2048) + c / 64, position r % 2048, lane c % 64. -/
theorem unheads_apply (x : (⟨3, ![64, 2048, 64]⟩ : Shape).Idx → α) (h1 : (⟨3, ![64, 2048, 64]⟩ : Shape).ShapeCasts (⟨4, ![4, 16, 2048, 64]⟩ : Shape))
    (h2 : (⟨4, ![4, 16, 2048, 64]⟩ : Shape).Transposes [0, 2, 1, 3] (⟨4, ![4, 2048, 16, 64]⟩ : Shape)) (h3 : (⟨4, ![4, 2048, 16, 64]⟩ : Shape).ShapeCasts (⟨2, ![8192, 1024]⟩ : Shape))
    (r : Fin 8192) (c : Fin 1024) :
    shapeCast (⟨2, ![8192, 1024]⟩ : Shape) (transpose (⟨4, ![4, 2048, 16, 64]⟩ : Shape) [0, 2, 1, 3] (shapeCast (⟨4, ![4, 16, 2048, 64]⟩ : Shape) x h1) h2) h3 (ix2 r c)
      = x (ix3 (⟨16 * (r.val / 2048) + c.val / 64, by omega⟩ : Fin 64) (⟨r.val % 2048, by omega⟩ : Fin 2048) (⟨c.val % 64, by omega⟩ : Fin 64)) := by
  refine (shapeCast_apply _ h3 (ix2 r c) (ix4 (⟨r.val / 2048, by omega⟩ : Fin 4) (⟨r.val % 2048, by omega⟩ : Fin 2048) (⟨c.val / 64, by omega⟩ : Fin 16) (⟨c.val % 64, by omega⟩ : Fin 64)) ?_).trans ?_
  · rw [Shape.rowMajor_val_four, Shape.rowMajor_val_two]
    show ((r.val / 2048 * 2048 + r.val % 2048) * 16 + c.val / 64) * 64 + c.val % 64 = r.val * 1024 + c.val
    omega
  refine (transpose_apply [0, 2, 1, 3] _ h2 _ (ix4 (⟨r.val / 2048, by omega⟩ : Fin 4) (⟨c.val / 64, by omega⟩ : Fin 16) (⟨r.val % 2048, by omega⟩ : Fin 2048) (⟨c.val % 64, by omega⟩ : Fin 64)) (fun b => ?_)).trans ?_
  · match b with
    | ⟨0, _⟩ => rfl
    | ⟨1, _⟩ => rfl
    | ⟨2, _⟩ => rfl
    | ⟨3, _⟩ => rfl
  refine shapeCast_apply x h1 _ _ ?_
  rw [Shape.rowMajor_val_three, Shape.rowMajor_val_four]
  show ((16 * (r.val / 2048) + c.val / 64) * 2048 + r.val % 2048) * 64 + c.val % 64 = ((r.val / 2048 * 16 + c.val / 64) * 2048 + r.val % 2048) * 64 + c.val % 64
  omega

end Layout

end Cert.LibHeads
-- ==== Proof.KIHost.lean ====
import proofs.«125597_j3710851744401_2_alg».proof.Proof.Gen.KernelIdeal.Launch
import proofs.«125597_j3710851744401_2_alg».proof.Proof.Gen.KernelIdeal.Regions
import proofs.«125597_j3710851744401_2_alg».proof.Proof.LibHeads
import Idealize.ShloMosaic.Lib.Pipeline.Value
import Idealize.ShloMosaic.Lib.ValueIdx
import Idealize.ShloMosaic.Lib.ValueLayout
import Idealize.ShloMosaic.Lib.StableHlo.Run

/-! # The host stretches of @main, read at an index

Between the three regions @main only re-lays arrays: it regroups rows (a reshape between [4, 2048, ·] and [8192, ·]),
gives a vector a unit axis, cuts the [8192, 3072] projection into its three [8192, 1024] column blocks (queries, keys,
values), and splits each into 16 heads of width 64 moved in front of the sequence axis ([8192, 1024] → [4, 2048, 16, 64]
→ [4, 16, 2048, 64] → [64, 2048, 64]), and back. Each result, read at an index, is ONE entry of the array it was made
from, with coordinates related by quotients and remainders. Stated over any contents `W` of the buffers before the
stretch, for any element type: no arithmetic on the elements is involved. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.LibHeads

/-! ## The stretches -/

variable {F : FTy → Type} [FloatOps F] [Named F]
variable (W : Valuation τ sig (Elt F))

/-! ### Before region 0: the activations' rows regrouped, the bias given a unit axis -/

theorem host0_v0 (r : Fin 8192) (d : Fin 1024) :
    StableHlo.after hostOps0 W (Proc.devRef .tc main_v0) (ix2 r d)
      = W (Proc.devRef .tc main_arg0) (ix3 (⟨r.val / 2048, by omega⟩ : Fin 4) (⟨r.val % 2048, by omega⟩ : Fin 2048) d) := by
  have e : StableHlo.after hostOps0 W (Proc.devRef .tc main_v0) = shapeCast S8192x1024 (W (Proc.devRef .tc main_arg0)) shapeCasts_S4x2048x1024_S8192x1024 := by
    dsimp only [hostOps0]; after_results; rfl
  exact (congrFun e (ix2 r d)).trans (merge_rows_apply _ _ r d)

theorem host0_v1 (e : Fin 3072) :
    StableHlo.after hostOps0 W (Proc.devRef .tc main_v1) (ix2 (0 : Fin 1) e) = W (Proc.devRef .tc main_arg2) (ix1 e) := by
  have h : StableHlo.after hostOps0 W (Proc.devRef .tc main_v1) = shapeCast S1x3072 (W (Proc.devRef .tc main_arg2)) shapeCasts_S3072_S1x3072 := by
    dsimp only [hostOps0]; after_results; rfl
  exact (congrFun h (ix2 (0 : Fin 1) e)).trans (shapeCast_a_1a_apply _ _ 0 e)

/-- The stretch leaves every buffer it does not write as it was. -/
theorem host0_keep (r : Ref sig .tc) (h : r ∉ (hostOps0_W : List (Ref sig .tc))) :
    StableHlo.after hostOps0 W (Proc.devRef .tc r) = W (Proc.devRef .tc r) :=
  StableHlo.after_of_writes_sub hostOps0 W hostOps0_writes h

/-! ### Between regions 0 and 1: the projection cut into queries, keys and values, each split into heads -/

theorem host1_v8 (bh : Fin 64) (s : Fin 2048) (j : Fin 64) :
    StableHlo.after hostOps1 W (Proc.devRef .tc main_v8) (ix3 bh s j)
      = W (Proc.devRef .tc main_v2) (ix2 (⟨2048 * (bh.val / 16) + s.val, by omega⟩ : Fin 8192) (⟨64 * (bh.val % 16) + j.val, by omega⟩ : Fin 3072)) := by
  have e : StableHlo.after hostOps1 W (Proc.devRef .tc main_v8)
      = shapeCast S64x2048x64 (transpose S4x16x2048x64 [0, 2, 1, 3] (shapeCast S4x2048x16x64
          (extractStridedSlice S8192x1024 ![0, 0] (W (Proc.devRef .tc main_v2)) slices_S8192x3072_S8192x1024_0_0)
          shapeCasts_S8192x1024_S4x2048x16x64) transposes_S4x2048x16x64_S4x16x2048x64_0_2_1_3) shapeCasts_S4x16x2048x64_S64x2048x64 := by
    dsimp only [hostOps1]; after_results; rfl
  refine (congrFun e (ix3 bh s j)).trans ((heads_apply _ _ _ _ bh s j).trans ((cols_apply 0 _ _ _ _ (by omega)).trans ?_))
  exact congrArg (W (Proc.devRef .tc main_v2)) (congrArg (ix2 _) (Fin.ext (by show 0 + (64 * (bh.val % 16) + j.val) = 64 * (bh.val % 16) + j.val; omega)))

theorem host1_v11 (bh : Fin 64) (s : Fin 2048) (j : Fin 64) :
    StableHlo.after hostOps1 W (Proc.devRef .tc main_v11) (ix3 bh s j)
      = W (Proc.devRef .tc main_v2) (ix2 (⟨2048 * (bh.val / 16) + s.val, by omega⟩ : Fin 8192) (⟨1024 + (64 * (bh.val % 16) + j.val), by omega⟩ : Fin 3072)) := by
  have e : StableHlo.after hostOps1 W (Proc.devRef .tc main_v11)
      = shapeCast S64x2048x64 (transpose S4x16x2048x64 [0, 2, 1, 3] (shapeCast S4x2048x16x64
          (extractStridedSlice S8192x1024 ![0, 1024] (W (Proc.devRef .tc main_v2)) slices_S8192x3072_S8192x1024_0_1024)
          shapeCasts_S8192x1024_S4x2048x16x64) transposes_S4x2048x16x64_S4x16x2048x64_0_2_1_3) shapeCasts_S4x16x2048x64_S64x2048x64 := by
    dsimp only [hostOps1]; after_results; rfl
  exact (congrFun e (ix3 bh s j)).trans ((heads_apply _ _ _ _ bh s j).trans (cols_apply 1024 _ _ _ _ (by omega)))

theorem host1_v14 (bh : Fin 64) (s : Fin 2048) (j : Fin 64) :
    StableHlo.after hostOps1 W (Proc.devRef .tc main_v14) (ix3 bh s j)
      = W (Proc.devRef .tc main_v2) (ix2 (⟨2048 * (bh.val / 16) + s.val, by omega⟩ : Fin 8192) (⟨2048 + (64 * (bh.val % 16) + j.val), by omega⟩ : Fin 3072)) := by
  have e : StableHlo.after hostOps1 W (Proc.devRef .tc main_v14)
      = shapeCast S64x2048x64 (transpose S4x16x2048x64 [0, 2, 1, 3] (shapeCast S4x2048x16x64
          (extractStridedSlice S8192x1024 ![0, 2048] (W (Proc.devRef .tc main_v2)) slices_S8192x3072_S8192x1024_0_2048)
          shapeCasts_S8192x1024_S4x2048x16x64) transposes_S4x2048x16x64_S4x16x2048x64_0_2_1_3) shapeCasts_S4x16x2048x64_S64x2048x64 := by
    dsimp only [hostOps1]; after_results; rfl
  exact (congrFun e (ix3 bh s j)).trans ((heads_apply _ _ _ _ bh s j).trans (cols_apply 2048 _ _ _ _ (by omega)))

/-- The stretch leaves every buffer it does not write as it was. -/
theorem host1_keep (r : Ref sig .tc) (h : r ∉ (hostOps1_W : List (Ref sig .tc))) :
    StableHlo.after hostOps1 W (Proc.devRef .tc r) = W (Proc.devRef .tc r) :=
  StableHlo.after_of_writes_sub hostOps1 W hostOps1_writes h

/-! ### Between regions 1 and 2: the heads merged back, the output bias given a unit axis -/

theorem host2_v18 (r : Fin 8192) (c : Fin 1024) :
    StableHlo.after hostOps2 W (Proc.devRef .tc main_v18) (ix2 r c)
      = W (Proc.devRef .tc main_v15) (ix3 (⟨16 * (r.val / 2048) + c.val / 64, by omega⟩ : Fin 64) (⟨r.val % 2048, by omega⟩ : Fin 2048) (⟨c.val % 64, by omega⟩ : Fin 64)) := by
  have e : StableHlo.after hostOps2 W (Proc.devRef .tc main_v18)
      = shapeCast S8192x1024 (transpose S4x2048x16x64 [0, 2, 1, 3] (shapeCast S4x16x2048x64 (W (Proc.devRef .tc main_v15))
          shapeCasts_S64x2048x64_S4x16x2048x64) transposes_S4x16x2048x64_S4x2048x16x64_0_2_1_3) shapeCasts_S4x2048x16x64_S8192x1024 := by
    dsimp only [hostOps2]; after_results; rfl
  exact (congrFun e (ix2 r c)).trans (unheads_apply _ _ _ _ r c)

theorem host2_v19 (e : Fin 1024) :
    StableHlo.after hostOps2 W (Proc.devRef .tc main_v19) (ix2 (0 : Fin 1) e) = W (Proc.devRef .tc main_arg4) (ix1 e) := by
  have h : StableHlo.after hostOps2 W (Proc.devRef .tc main_v19) = shapeCast S1x1024 (W (Proc.devRef .tc main_arg4)) shapeCasts_S1024_S1x1024 := by
    dsimp only [hostOps2]; after_results; rfl
  exact (congrFun h (ix2 (0 : Fin 1) e)).trans (shapeCast_a_1a_apply _ _ 0 e)

/-- The stretch leaves every buffer it does not write as it was. -/
theorem host2_keep (r : Ref sig .tc) (h : r ∉ (hostOps2_W : List (Ref sig .tc))) :
    StableHlo.after hostOps2 W (Proc.devRef .tc r) = W (Proc.devRef .tc r) :=
  StableHlo.after_of_writes_sub hostOps2 W hostOps2_writes h

/-! ### After region 2: the result's rows split back into batches -/

theorem host3_v21 (n : Fin 4) (s : Fin 2048) (e : Fin 1024) :
    StableHlo.after hostOps3 W (Proc.devRef .tc main_v21) (ix3 n s e)
      = W (Proc.devRef .tc main_v20) (ix2 (⟨2048 * n.val + s.val, by omega⟩ : Fin 8192) e) := by
  have h : StableHlo.after hostOps3 W (Proc.devRef .tc main_v21) = shapeCast S4x2048x1024 (W (Proc.devRef .tc main_v20)) shapeCasts_S8192x1024_S4x2048x1024 := by
    dsimp only [hostOps3]; after_results; rfl
  exact (congrFun h (ix3 n s e)).trans (split_rows_apply _ _ n s e)

/-- The stretch leaves every buffer it does not write as it was. -/
theorem host3_keep (r : Ref sig .tc) (h : r ∉ (hostOps3_W : List (Ref sig .tc))) :
    StableHlo.after hostOps3 W (Proc.devRef .tc r) = W (Proc.devRef .tc r) :=
  StableHlo.after_of_writes_sub hostOps3 W hostOps3_writes h

end Cert.KernelIdeal.Hand

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KIValue0.lean ====
import proofs.«125597_j3710851744401_2_alg».proof.Proof.KIRegion0
import proofs.«125597_j3710851744401_2_alg».proof.Proof.LibLayout
import Idealize.ShloMosaic.Lib.Pipeline.Value
import Idealize.ShloMosaic.Lib.ValueIdx
import Idealize.ShloMosaic.Lib.ValueLayout
import Idealize.ShloMosaic.PureOps.Ideal.Laws

/-! # Region 0 of @main on the extended reals: the array the linear layer leaves

On the extended reals the body's value at entry (p, q) of a block is the sum over the contraction index of the products
of row p of the activation block with row q of the weight block, plus the bias row at q; the blocks are restrictions
of the whole arrays, the output's blocks tile its array, so the array the region leaves is one function of the three
arrays it reads, entry by entry. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's payload at an index -/

theorem dot0_lhs0 (j : S512x1024.Idx) (k : dot_S512x1024_S1024x1024_S512x1024_1_1_0_0_n_n.contr.Idx) :
    (dot_S512x1024_S1024x1024_S512x1024_1_1_0_0_n_n.lhsIdx j k 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem dot0_rhs0 (j : S512x1024.Idx) (k : dot_S512x1024_S1024x1024_S512x1024_1_1_0_0_n_n.contr.Idx) :
    (dot_S512x1024_S1024x1024_S512x1024_1_1_0_0_n_n.rhsIdx j k 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- Entry (p, q) of the body's value: row p of the activation block against row q of the weight block, plus the bias
    row at q. (The format changes are the identity on the extended reals; the product is accumulated into zero.) -/
theorem pay0_apply (x0 : Vec Ideal S512x1024 .f32) (x1 : Vec Ideal S1024x1024 .f32) (x2 : Vec Ideal S1x1024 .f32) (p : Fin 512) (q : Fin 1024) :
    k0_pay1 x0 x1 x2 (ix2 p q) = (∑ d : Fin 1024, x0 (ix2 p d) * x1 (ix2 q d)) + x2 (ix2 (0 : Fin 1) q) := by
  have e1 := Cert.LibLayout.matmul_rows_rows_apply (M := 512) (K := 1024) (N := 1024) dot_S512x1024_S1024x1024_S512x1024_1_1_0_0_n_n rfl rfl rfl rfl dot0_lhs0 dot0_rhs0 none
    (truncf .bf16 (shapeCast S512x1024 x0 shapeCasts_S512x1024_S512x1024) bitsLt_bf16_f32) (truncf .bf16 x1 bitsLt_bf16_f32) p q
  have e2 : broadcastTo S512x1024 (shapeCast S1x1024 x2 shapeCasts_S1x1024_S1x1024) broadcasts_S1x1024_S512x1024 (ix2 p q) = x2 (ix2 (0 : Fin 1) q) := by
    rw [shapeCast_self]; exact broadcastTo_1b_ab_apply _ _ p q
  refine (congrArg₂ (· + ·) e1 e2).trans ?_
  simp only [truncf_apply, shapeCast_self]

/-! ## What the output array ends holding -/

/-- The linear layer as ONE function of the three arrays the region reads: entry (r, e) is row r of the activations
    against row e of the weights, plus the bias at e. -/
def G0 (a0 : S8192x1024.Idx → EReal) (a1 : S3072x1024.Idx → EReal) (a2 : S1x3072.Idx → EReal) : S8192x3072.Idx → EReal :=
  fun i => (∑ d : Fin 1024, a0 (ix2 (i 0) d) * a1 (ix2 (i 1) d)) + a2 (ix2 (0 : Fin 1) (i 1))

theorem hz0 : (![0, 0] : Fin 2 → Nat) = fun _ => 0 := funext fun a => by fin_cases a <;> rfl

/-- The printed index maps, decided over the 48 grid points: the activation block moves with the output's row block,
    the weight block and the bias block with the output's column block, and the output's block indices are the
    point's quotient and remainder by 3. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15 ∧ win0_3.index t (1 : Fin 2) ≤ 2 :=
  (by decide +kernel : ∀ t : Fin grid0.N, _)

/-- Every block of the output array is some point's. -/
theorem idx_onto0 : ∀ (q0 : Fin 16) (q1 : Fin 3), ∃ t : Fin cfg0.N, win0_3.index t = ![q0.val, q1.val] :=
  (by decide +kernel : ∀ (q0 : Fin 16) (q1 : Fin 3), ∃ t : Fin grid0.N, win0_3.index t = ![q0.val, q1.val])

/-- Block t of G0, entry (p, q), from the blocks of the three arrays at t: the blocks are restrictions of the arrays,
    the activation block on the output's rows, the weight and bias blocks on the output's columns. -/
theorem G0_blk (A0 : S8192x1024.Idx → EReal) (A1 : S3072x1024.Idx → EReal) (A2 : S1x3072.Idx → EReal) (t : Fin cfg0.N) (p : Fin 512) (q : Fin 1024) :
    (∑ d : Fin 1024, A0 (((cfg0.win 0).blk t).view.emb (ix2 p d)) * A1 (((cfg0.win 1).blk t).view.emb (ix2 q d)))
      + A2 (((cfg0.win 2).blk t).view.emb (ix2 (0 : Fin 1) q))
    = G0 A0 A1 A2 (((cfg0.win 3).blk t).view.emb (ix2 p q)) := by
  obtain ⟨e0, e1, e2, e3, e4, e5, e6, e7⟩ := idx_facts0 t
  have hp : p.val < 512 := p.isLt
  have hq : q.val < 1024 := q.isLt
  have h0 : ∀ d : Fin 1024, ((cfg0.win 0).blk t).view.emb (ix2 p d) = ix2 ((((cfg0.win 3).blk t).view.emb (ix2 p q)) 0) d := fun d => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * d.val = d.val; omega
  have h1 : ∀ d : Fin 1024, ((cfg0.win 1).blk t).view.emb (ix2 q d) = ix2 ((((cfg0.win 3).blk t).view.emb (ix2 p q)) 1) d := fun d => by
    funext a; apply Fin.ext
    match a with
    | ⟨0, _⟩ => show win0_1.index t (0 : Fin 2) * 1024 + 1 * q.val = win0_3.index t (1 : Fin 2) * 1024 + 1 * q.val; omega
    | ⟨1, _⟩ => show win0_1.index t (1 : Fin 2) * 1024 + 1 * d.val = d.val; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  unfold G0
  refine congrArg₂ (· + ·) (Finset.sum_congr rfl fun d _ => ?_) (congrArg A2 h2)
  rw [h0 d, h1 d]
  rfl

/-- G0 at entry (r, e). -/
theorem G0_apply (A0 : S8192x1024.Idx → EReal) (A1 : S3072x1024.Idx → EReal) (A2 : S1x3072.Idx → EReal) (r : Fin 8192) (e : Fin 3072) :
    G0 A0 A1 A2 (ix2 r e) = (∑ d : Fin 1024, A0 (ix2 r d) * A1 (ix2 e d)) + A2 (ix2 (0 : Fin 1) e) := rfl

variable (V : (c : Dev nD) → (b : Ref sig .tc) → Buf (Elt Ideal) ((c : Thread nD τ).loc b))

/-- What point t writes back is block t of G0 of the arrays as the region finds them. -/
theorem flushed0_3_eq (c : Dev nD) (t : Fin cfg0.N) :
    (dat0 (F := Ideal) V c).flushed 3 t = ((cfg0.win 3).blk t).view.read (Elt Ideal) (G0 (V c main_v0) (V c main_arg1) (V c main_v1)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  funext j
  obtain ⟨p, q, rfl⟩ : ∃ (p : Fin 512) (q : Fin 1024), j = ix2 p q := ⟨j 0, j 1, eq_ix2 j⟩
  refine (pay0_apply (iblk0 V c 0 t) (iblk0 V c 1 t) (iblk0 V c 2 t) p q).trans ?_
  exact G0_blk (V c main_v0) (V c main_arg1) (V c main_v1) t p q

/-- An index of the array is in point t's block iff each coordinate is in the block's range on its axis. -/
theorem mem_blk0_3 (t : Fin cfg0.N) (i : S8192x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- The output's blocks tile its array: entry (i0, i1) is in the block of the point with row block i0 / 512 and
    column block i1 / 1024. -/
theorem cover0_3_arr (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The output array after the region: the linear layer of the arrays as the region finds them. -/
theorem final0_3 (c : Dev nD) : (dat0 (F := Ideal) V c).arrAt 3 cfg0.N = G0 (V c main_v0) (V c main_arg1) (V c main_v1) :=
  (dat0 V c).arrAt_eq_of_cover 3 (G0 (V c main_v0) (V c main_arg1) (V c main_v1)) (fun t _ => flushed0_3_eq V c t) cover0_3_arr

/-- The same, entry by entry (`G0_apply` spells the entry out). -/
theorem arr0_3 (c : Dev nD) (r : Fin 8192) (e : Fin 3072) :
    (dat0 (F := Ideal) V c).arrAt 3 cfg0.N (ix2 r e) = G0 (V c main_v0) (V c main_arg1) (V c main_v1) (ix2 r e) := by
  rw [final0_3]

/-- The arrays the region only reads come back as entered. -/
theorem arr0_in0 (c : Dev nD) : (dat0 (F := Ideal) V c).arrAt 0 cfg0.N = V c (Pipeline.arrRef spec0 0) :=
  ((dat0 V c).arrAt_in 0 rfl _).trans (A_eq0 V c 0)
theorem arr0_in1 (c : Dev nD) : (dat0 (F := Ideal) V c).arrAt 1 cfg0.N = V c (Pipeline.arrRef spec0 1) :=
  ((dat0 V c).arrAt_in 1 rfl _).trans (A_eq0 V c 1)
theorem arr0_in2 (c : Dev nD) : (dat0 (F := Ideal) V c).arrAt 2 cfg0.N = V c (Pipeline.arrRef spec0 2) :=
  ((dat0 V c).arrAt_in 2 rfl _).trans (A_eq0 V c 2)

end Cert.KernelIdeal.Hand

end
-- ==== Proof.KIPay1.lean ====
import proofs.«125597_j3710851744401_2_alg».proof.Proof.Gen.KernelIdeal.Skeleton
import proofs.«125597_j3710851744401_2_alg».proof.Proof.LibLayout
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws
import Idealize.ShloMosaic.PureOps.IdealRules

/-! # The flash-attention body's values on the extended reals, entry by entry

Each value the body of the attention region stores or carries is read here at an index, as a formula over the
entries of the values it is computed from: the start values of the running maximum, denominator and weighted sum;
the masked and scaled scores of one tile (row r of the query block against row j of the key block, kept where the
key's position 512·ki + j is not after the query's position 512·qi + r, and -∞ elsewhere); the new running maximum;
the two exponentials; the new denominator; the new weighted sum; and the final quotient.  Format changes are the
identity on the extended reals, shape casts and transposes are re-indexings, and a matrix product accumulated into
zero is a plain sum. -/

set_option maxRecDepth 16384

noncomputable section

namespace Cert.KernelIdeal.Pay1

open Cert.KernelIdeal Cert.KernelIdeal.Gen Idealize.ShloMosaic Idealize.ShloMosaic.TcCoe Idealize.SL.Sem
open Idealize.ShloMosaic.ValueIdx
open scoped BigOperators

/-! ## The named constant and the start values -/

/-- The mask's fill value and the running maximum's start value is -∞ on the extended reals. -/
theorem neg_big : Named.named (F := Ideal) Cert.KernelIdeal.κ "neg_big" (φ := .f32) 0xF149F2CA#32 = (⊥ : EReal) :=
  IdealRules.named_const.ideal_named_scalar _ _ _ _ rfl

/-- The running maximum starts at -∞ in every row. -/
theorem pay1_apply (i : S512x1.Idx) : k1_pay1 (F := Ideal) i = (⊥ : EReal) := by
  unfold k1_pay1
  rw [shapeCast_self]
  exact neg_big

/-- The running denominator starts at the zero word in every row. -/
theorem pay2_apply (i : S512x1.Idx) : k1_pay2 (F := Ideal) i = Ideal.ofBits .f32 0x00000000#32 := by
  unfold k1_pay2
  rw [shapeCast_self]
  rfl

/-- The running weighted sum starts at the zero word in every entry. -/
theorem pay3_apply (i : S512x64.Idx) : k1_pay3 (F := Ideal) i = Ideal.ofBits .f32 0x00000000#32 := by
  unfold k1_pay3
  rw [shapeCast_self]
  rfl

/-- The stored denominator is the computed one. -/
theorem pay4_eq (v47 : FVec Ideal S512x1 .f32) : k1_pay4 v47 = v47 := by
  unfold k1_pay4
  exact shapeCast_self _ _

/-- The stored maximum is the computed one. -/
theorem pay6_eq (v37 : FVec Ideal S512x1 .f32) : k1_pay6 v37 = v37 := by
  unfold k1_pay6
  exact shapeCast_self _ _

/-- The value block without its leading unit axis. -/
theorem pay8_apply (v17 : Vec Ideal S1x512x64 .bf16) (j : Fin 512) (d : Fin 64) :
    k1_pay8 v17 (ix2 j d) = v17 (ix3 (0 : Fin 1) j d) := by
  unfold k1_pay8
  exact shapeCast_1ab_ab_apply v17 _ j d

/-- The output block: the weighted sum divided, row by row, by the denominator. -/
theorem pay7_apply (v9 : Vec Ideal S512x64 .f32) (v10 : Vec Ideal S512x1 .f32) (u : Fin 1) (r : Fin 512) (d : Fin 64) :
    k1_pay7 v9 v10 (ix3 u r d) = Ideal.div (v9 (ix2 r d)) (v10 (ix2 r (0 : Fin 1))) := by
  unfold k1_pay7
  refine (shapeCast_ab_1ab_apply _ _ u r d).trans ?_
  rw [truncf_apply, divf_apply]
  exact congrArg (Ideal.div (v9 (ix2 r d))) (Cert.LibLayout.broadcastTo_a1_ab_apply v10 _ r d)

/-! ## The causal mask's comparison of words -/

/-- The word 512·a + b, built by a word product and a word sum, for a tile number a below 4 and an offset b
    below 512: no wrap-around, so as a signed integer it is the natural number. -/
theorem toInt_pos (a b : ℕ) (ha : a < 4) (hb : b < 512) :
    (IntOp.addi (Scalar.muli (BitVec.ofNat 32 a) 512#32) (BitVec.ofNat 32 b)).toInt = ((512 * a + b : ℕ) : ℤ) := by
  have e : IntOp.addi (Scalar.muli (BitVec.ofNat 32 a) 512#32) (BitVec.ofNat 32 b) = BitVec.ofNat 32 (512 * a + b) := by
    apply BitVec.eq_of_toNat_eq
    show (BitVec.ofNat 32 a * 512#32 + BitVec.ofNat 32 b).toNat = _
    rw [BitVec.toNat_add, BitVec.toNat_mul, BitVec.toNat_ofNat, BitVec.toNat_ofNat, BitVec.toNat_ofNat]
    show (a % 2 ^ 32 * 512 % 2 ^ 32 + b % 2 ^ 32) % 2 ^ 32 = (512 * a + b) % 2 ^ 32
    omega
  rw [e]
  exact WordArith.toInt_ofNat_small _ (by omega)

/-- The mask's select: the signed comparison of the key's position 512·ki + j with the query's position 512·qi + r
    chooses as the comparison of the natural numbers does. -/
theorem select_causal {α : Type} (qi ki r j : ℕ) (hq : qi < 4) (hk : ki < 4) (hr : r < 512) (hj : j < 512) (A B : α) :
    Scalar.select (IntOp.cmpi .sle (IntOp.addi (Scalar.muli (BitVec.ofNat 32 ki) 512#32) (BitVec.ofNat 32 j))
        (IntOp.addi (Scalar.muli (BitVec.ofNat 32 qi) 512#32) (BitVec.ofNat 32 r))) A B
      = if 512 * ki + j ≤ 512 * qi + r then A else B := by
  unfold Scalar.select IntOp.cmpi
  show (if BitVec.ofBool (BitVec.sle _ _) = 1 then A else B) = _
  refine if_congr ?_ rfl rfl
  rw [WordArith.ofBool_eq_numeral_one_iff, BitVec.sle, decide_eq_true_eq, toInt_pos ki j hk hj, toInt_pos qi r hq hr]
  exact Nat.cast_le

/-! ## The scores of one tile -/

theorem dotS_lhs0 (j : S512x512.Idx) (k : dot_S512x64_S64x512_S512x512_1_0_0_1_n_n.contr.Idx) :
    (dot_S512x64_S64x512_S512x512_1_0_0_1_n_n.lhsIdx j k 0).val = (j 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem dotS_rhs1 (j : S512x512.Idx) (k : dot_S512x64_S64x512_S512x512_1_0_0_1_n_n.contr.Idx) :
    (dot_S512x64_S64x512_S512x512_1_0_0_1_n_n.rhsIdx j k 1).val = (j 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Entry (r, j) of the masked, scaled scores of tile (qi, ki): row r of the query block against row j of the key
    block, times the word of one eighth, where key position 512·ki + j is not after query position 512·qi + r;
    -∞ elsewhere. -/
theorem pay9_apply (qi ki : ℕ) (hq : qi < 4) (hk : ki < 4) (v11 v14 : Vec Ideal S1x512x64 .bf16) (r j : Fin 512) :
    k1_pay9 (BitVec.ofNat 32 qi) (BitVec.ofNat 32 ki) v11 v14 (ix2 r j)
      = if 512 * ki + j.val ≤ 512 * qi + r.val then
          (∑ d : Fin 64, v11 (ix3 (0 : Fin 1) r d) * v14 (ix3 (0 : Fin 1) j d)) * Ideal.ofBits .f32 0x3E000000#32
        else ⊥ := by
  have e1 := Cert.LibLayout.matmul_rows_cols_apply (M := 512) (K := 64) (N := 512) (φ₁ := .bf16) (φ₂ := .bf16) dot_S512x64_S64x512_S512x512_1_0_0_1_n_n rfl rfl rfl rfl dotS_lhs0 dotS_rhs1 none
    (shapeCast S512x64 v11 shapeCasts_S1x512x64_S512x64)
    (transpose S64x512 [1, 0] (shapeCast S512x64 v14 shapeCasts_S1x512x64_S512x64) transposes_S512x64_p1_0_S64x512) r j
  have e2 : ∀ d : Fin 64, shapeCast S512x64 v11 shapeCasts_S1x512x64_S512x64 (ix2 r d) = v11 (ix3 (0 : Fin 1) r d) :=
    fun d => shapeCast_1ab_ab_apply v11 _ r d
  have e3 : ∀ d : Fin 64, transpose S64x512 [1, 0] (shapeCast S512x64 v14 shapeCasts_S1x512x64_S512x64) transposes_S512x64_p1_0_S64x512 (ix2 d j)
      = v14 (ix3 (0 : Fin 1) j d) :=
    fun d => (transpose_ix2_apply _ _ d j).trans (shapeCast_1ab_ab_apply v14 _ j d)
  simp only [e2, e3] at e1
  have i0 : iota .tc S512x512 32 [0] iota_S512x512_d0_w32 (ix2 r j) = BitVec.ofNat 32 r.val := iota_single_apply _ _ _ _ _ _
  have i1 : iota .tc S512x512 32 [1] iota_S512x512_d1_w32 (ix2 r j) = BitVec.ofNat 32 j.val := iota_single_apply _ _ _ _ _ _
  refine Eq.trans ?_ (select_causal qi ki r.val j.val hq hk r.isLt j.isLt _ _)
  unfold k1_pay9
  show Scalar.select (IntOp.cmpi .sle (IntOp.addi (Scalar.muli (BitVec.ofNat 32 ki) 512#32) (iota .tc S512x512 32 [1] iota_S512x512_d1_w32 (ix2 r j)))
      (IntOp.addi (Scalar.muli (BitVec.ofNat 32 qi) 512#32) (iota .tc S512x512 32 [0] iota_S512x512_d0_w32 (ix2 r j)))) _ _ = _
  rw [i0, i1]
  refine congrArg₂ (Scalar.select _) ?_ neg_big
  exact congrArg (· * Ideal.ofBits .f32 0x3E000000#32) e1

/-! ## The running maximum, the exponentials, the denominator -/

/-- Row r of the new running maximum: the old one against the maximum of the tile's row of scores, folded from the
    word of -∞. -/
theorem pay10_apply (a1 a2 : BitVec 32) (v11 v14 : Vec Ideal S1x512x64 .bf16) (v34 : Vec Ideal S512x1 .f32) (r : Fin 512) (u : Fin 1) :
    k1_pay10 a1 a2 v11 v14 v34 (ix2 r u)
      = max (v34 (ix2 r u)) ((Finset.univ : Finset (Fin 512)).fold max (Ideal.ofBits .f32 0xFF800000#32) (fun j => k1_pay9 a1 a2 v11 v14 (ix2 r j))) := by
  unfold k1_pay10
  rw [maximumf_apply]
  refine congrArg (max (v34 (ix2 r u))) ?_
  refine (Cert.LibLayout.shapeCast_a_a1_apply _ _ r u).trans ?_
  exact Cert.LibLayout.max_rows_apply (a := 512) (b := 512) (k1_pay9 a1 a2 v11 v14) _ _ _ r

/-- Row r of the rescaling factor: the exponential of the old maximum less the new one. -/
theorem pay11_apply (a1 a2 : BitVec 32) (v11 v14 : Vec Ideal S1x512x64 .bf16) (v34 : Vec Ideal S512x1 .f32) (i : S512x1.Idx) :
    k1_pay11 a1 a2 v11 v14 v34 i = Ideal.exp (v34 i - k1_pay10 a1 a2 v11 v14 v34 i) := rfl

/-- Entry (r, j) of the tile's unnormalised weights: the exponential of the score less the row's new maximum. -/
theorem pay12_apply (a1 a2 : BitVec 32) (v11 v14 : Vec Ideal S1x512x64 .bf16) (v34 : Vec Ideal S512x1 .f32) (r j : Fin 512) :
    k1_pay12 a1 a2 v11 v14 v34 (ix2 r j)
      = Ideal.exp (k1_pay9 a1 a2 v11 v14 (ix2 r j) - k1_pay10 a1 a2 v11 v14 v34 (ix2 r (0 : Fin 1))) := by
  unfold k1_pay12
  show Ideal.exp (k1_pay9 a1 a2 v11 v14 (ix2 r j) - broadcastTo S512x512 (k1_pay10 a1 a2 v11 v14 v34) broadcasts_S512x1_S512x512 (ix2 r j)) = _
  rw [Cert.LibLayout.broadcastTo_a1_ab_apply (k1_pay10 a1 a2 v11 v14 v34) _ r j]

/-- Row r of the new denominator: the old one rescaled, plus the sum of the tile's row of weights. -/
theorem pay13_apply (a1 a2 : BitVec 32) (v11 v14 : Vec Ideal S1x512x64 .bf16) (v34 v43 : Vec Ideal S512x1 .f32) (r : Fin 512) (u : Fin 1) :
    k1_pay13 a1 a2 v11 v14 v34 v43 (ix2 r u)
      = k1_pay11 a1 a2 v11 v14 v34 (ix2 r u) * v43 (ix2 r u) + ∑ j : Fin 512, k1_pay12 a1 a2 v11 v14 v34 (ix2 r j) := by
  unfold k1_pay13
  rw [addf_apply, mulf_apply]
  refine congrArg (k1_pay11 a1 a2 v11 v14 v34 (ix2 r u) * v43 (ix2 r u) + ·) ?_
  refine (Cert.LibLayout.shapeCast_a_a1_apply _ _ r u).trans ?_
  exact Cert.LibLayout.sum_rows_apply (a := 512) (b := 512) (k1_pay12 a1 a2 v11 v14 v34) _ _ _ r

/-! ## The running weighted sum -/

theorem dotP_lhs0 (j : S512x64.Idx) (k : dot_S512x512_S512x64_S512x64_1_0_0_1_n_n.contr.Idx) :
    (dot_S512x512_S512x64_S512x64_1_0_0_1_n_n.lhsIdx j k 0).val = (j 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem dotP_rhs1 (j : S512x64.Idx) (k : dot_S512x512_S512x64_S512x64_1_0_0_1_n_n.contr.Idx) :
    (dot_S512x512_S512x64_S512x64_1_0_0_1_n_n.rhsIdx j k 1).val = (j 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Entry (r, d) of the new weighted sum: the old one rescaled by row r's factor, plus the tile's weights of row r
    against column d of the value block. -/
theorem pay5_apply (v18 : FVec Ideal S512x64 .bf16) (v39 : FVec Ideal S512x1 .f32) (v42 : FVec Ideal S512x512 .f32) (v51 : Vec Ideal S512x64 .f32)
    (r : Fin 512) (d : Fin 64) :
    k1_pay5 v18 v39 v42 v51 (ix2 r d)
      = v39 (ix2 r (0 : Fin 1)) * v51 (ix2 r d) + ∑ j : Fin 512, v42 (ix2 r j) * v18 (ix2 j d) := by
  have e1 := Cert.LibLayout.matmul_rows_cols_apply (M := 512) (K := 512) (N := 64) (φ₁ := .bf16) (φ₂ := .bf16) dot_S512x512_S512x64_S512x64_1_0_0_1_n_n rfl rfl rfl rfl dotP_lhs0 dotP_rhs1 none
    (truncf .bf16 v42 bitsLt_bf16_f32) v18 r d
  have e2 : broadcastTo S512x64 v39 broadcasts_S512x1_S512x64 (ix2 r d) = v39 (ix2 r (0 : Fin 1)) :=
    Cert.LibLayout.broadcastTo_a1_ab_apply v39 _ r d
  unfold k1_pay5
  rw [shapeCast_self]
  refine (congrArg₂ (· + ·) (congrArg (· * v51 (ix2 r d)) e2) e1).trans ?_
  simp only [truncf_apply]

end Cert.KernelIdeal.Pay1

end
-- ==== Proof.LibOnlineSoftmax.lean ====
/-
  The online softmax: a row of scores is read tile by tile, keeping a running maximum `m`, a running
  denominator `l` and a running weighted sum `acc`; each new tile rescales what was kept by
  `exp (m_old − m_new)`. On the extended reals, for scores that are real or `-∞` (never `+∞`) and real
  values, the state after any set `A` of columns holding at least one real score is
      m = sup_{j ∈ A} s j,   l = ∑_{j ∈ A} exp (s j − m),   acc = ∑_{j ∈ A} exp (s j − m) · v j
  (the empty set gives the start state `m = -∞, l = 0, acc = 0`), and `acc / l` is the softmax-weighted
  sum `∑_{j ∈ A} (exp (s j − m) / l) · v j`. Columns scoring `-∞` weigh nothing, so a row may be
  extended by such columns without changing any of the three.

  The one law used is `exp (μ − μ') · exp (r − μ) = exp (r − μ')` on the reals; every quantity is shown
  to be the image of a real number, where products distribute over sums.
-/
import Idealize.ShloMosaic.PureOps.Ideal

noncomputable section

namespace Cert.OnlineSoftmax

open Idealize.ShloMosaic

variable {ι : Type} [DecidableEq ι]

/-- The image of a finite real sum is the sum of the images. -/
theorem coe_sum (A : Finset ι) (f : ι → ℝ) : ((∑ j ∈ A, f j : ℝ) : EReal) = ∑ j ∈ A, (f j : EReal) := by
  induction A using Finset.induction_on with
  | empty => simp
  | insert a A ha ih => rw [Finset.sum_insert ha, Finset.sum_insert ha, EReal.coe_add, ih]

/-- The real weight of a score `x` against a real maximum `μ`: `exp (x − μ)`, and `0` for `x = -∞`. -/
def wt (x : EReal) (μ : ℝ) : ℝ := if x = ⊥ then 0 else Real.exp (x.toReal - μ)

theorem wt_nonneg (x : EReal) (μ : ℝ) : 0 ≤ wt x μ := by
  unfold wt; split_ifs
  · exact le_rfl
  · exact (Real.exp_pos _).le

theorem wt_coe (r μ : ℝ) : wt (r : EReal) μ = Real.exp (r - μ) := by
  unfold wt; rw [if_neg (EReal.coe_ne_bot r), EReal.toReal_coe]

theorem wt_bot (μ : ℝ) : wt ⊥ μ = 0 := by unfold wt; rw [if_pos rfl]

/-- `exp (x − μ)` on the extended reals is the image of the real weight. -/
theorem exp_sub (x : EReal) (hx : x ≠ ⊤) (μ : ℝ) : Ideal.exp (x - (μ : EReal)) = ((wt x μ : ℝ) : EReal) := by
  induction x using EReal.rec with
  | bot => rw [EReal.bot_sub, wt_bot]; rfl
  | coe r => rw [← EReal.coe_sub, wt_coe]; rfl
  | top => exact absurd rfl hx

/-- The rescaling law: `exp (μ − μ') · exp (x − μ) = exp (x − μ')`. -/
theorem rescale (x : EReal) (μ μ' : ℝ) : Real.exp (μ - μ') * wt x μ = wt x μ' := by
  unfold wt; split_ifs
  · exact mul_zero _
  · rw [← Real.exp_add]; congr 1; ring

/-- A score that is real or `-∞`. -/
def Score (x : EReal) : Prop := x ≠ ⊤

/-- The supremum of finitely many scores, one of them real, is real. -/
theorem sup_real (s : ι → EReal) (A : Finset ι) (hs : ∀ j ∈ A, s j ≠ ⊤) (hA : ∃ j ∈ A, s j ≠ ⊥) :
    ∃ μ : ℝ, A.sup s = (μ : EReal) := by
  obtain ⟨j0, hj0, hne⟩ := hA
  obtain ⟨j1, hj1, he⟩ := Finset.exists_mem_eq_sup A ⟨j0, hj0⟩ s
  have hle : s j0 ≤ A.sup s := Finset.le_sup hj0
  have htop : A.sup s ≠ ⊤ := he ▸ hs j1 hj1
  have hbot : A.sup s ≠ ⊥ := fun h => hne (le_bot_iff.mp (h ▸ hle))
  exact ⟨(A.sup s).toReal, (EReal.coe_toReal htop hbot).symm⟩

/-- Every score is at most the supremum, so its weight against it is at most one; the largest weighs one. -/
theorem exists_wt_one (s : ι → EReal) (A : Finset ι) (hA : ∃ j ∈ A, s j ≠ ⊥) (μ : ℝ) (hμ : A.sup s = (μ : EReal)) :
    ∃ j ∈ A, wt (s j) μ = 1 := by
  obtain ⟨j0, hj0, _⟩ := hA
  obtain ⟨j1, hj1, he⟩ := Finset.exists_mem_eq_sup A ⟨j0, hj0⟩ s
  refine ⟨j1, hj1, ?_⟩
  rw [← he, hμ, wt_coe, sub_self, Real.exp_zero]

/-- The denominator is a positive real. -/
theorem den_pos (s : ι → EReal) (A : Finset ι) (hA : ∃ j ∈ A, s j ≠ ⊥) (μ : ℝ) (hμ : A.sup s = (μ : EReal)) :
    0 < ∑ j ∈ A, wt (s j) μ := by
  obtain ⟨j, hj, h1⟩ := exists_wt_one s A hA μ hμ
  calc (0 : ℝ) < 1 := one_pos
    _ = wt (s j) μ := h1.symm
    _ ≤ ∑ j ∈ A, wt (s j) μ := Finset.single_le_sum (f := fun j => wt (s j) μ) (fun i _ => wt_nonneg _ _) hj

/-- The denominator over the extended reals is the image of the real denominator. -/
theorem den_coe (s : ι → EReal) (A : Finset ι) (hs : ∀ j ∈ A, s j ≠ ⊤) (μ : ℝ) :
    ∑ j ∈ A, Ideal.exp (s j - (μ : EReal)) = ((∑ j ∈ A, wt (s j) μ : ℝ) : EReal) := by
  rw [coe_sum]; exact Finset.sum_congr rfl fun j hj => exp_sub (s j) (hs j hj) μ

/-- The weighted sum over the extended reals is the image of the real weighted sum. -/
theorem acc_coe (s : ι → EReal) (v : ι → ℝ) (A : Finset ι) (hs : ∀ j ∈ A, s j ≠ ⊤) (μ : ℝ) :
    ∑ j ∈ A, Ideal.exp (s j - (μ : EReal)) * (v j : EReal) = ((∑ j ∈ A, wt (s j) μ * v j : ℝ) : EReal) := by
  rw [coe_sum]; exact Finset.sum_congr rfl fun j hj => by rw [exp_sub (s j) (hs j hj) μ, EReal.coe_mul]

/-- ONE STEP of the online softmax. `A` is what has been read (possibly nothing), `B` the new tile,
    disjoint from it; the scores are real or `-∞`, one of `A ∪ B` is real, and `A`, if not empty, already
    holds a real one. Then the new maximum is the supremum over `A ∪ B`, and the kept denominator and
    weighted sum, rescaled by `exp (m_old − m_new)`, plus the tile's own, are those of `A ∪ B`. -/
theorem step (s : ι → EReal) (v : ι → ℝ) (A B : Finset ι) (hd : Disjoint A B)
    (hs : ∀ j ∈ A ∪ B, s j ≠ ⊤) (hA : A = ∅ ∨ ∃ j ∈ A, s j ≠ ⊥) (hAB : ∃ j ∈ A ∪ B, s j ≠ ⊥) :
    max (A.sup s) (B.sup s) = (A ∪ B).sup s
    ∧ Ideal.exp (A.sup s - (A ∪ B).sup s) * (∑ j ∈ A, Ideal.exp (s j - A.sup s))
        + ∑ j ∈ B, Ideal.exp (s j - (A ∪ B).sup s)
      = ∑ j ∈ A ∪ B, Ideal.exp (s j - (A ∪ B).sup s)
    ∧ Ideal.exp (A.sup s - (A ∪ B).sup s) * (∑ j ∈ A, Ideal.exp (s j - A.sup s) * (v j : EReal))
        + ∑ j ∈ B, Ideal.exp (s j - (A ∪ B).sup s) * (v j : EReal)
      = ∑ j ∈ A ∪ B, Ideal.exp (s j - (A ∪ B).sup s) * (v j : EReal) := by
  refine ⟨(Finset.sup_union).symm, ?_, ?_⟩
  all_goals rw [Finset.sum_union hd]; congr 1
  all_goals
    rcases hA with rfl | hA
    · simp only [Finset.sum_empty, mul_zero]
    · obtain ⟨μ, hμ⟩ := sup_real s A (fun j hj => hs j (Finset.mem_union_left _ hj)) hA
      obtain ⟨μ', hμ'⟩ := sup_real s (A ∪ B) hs hAB
      have hsA : ∀ j ∈ A, s j ≠ ⊤ := fun j hj => hs j (Finset.mem_union_left _ hj)
      rw [hμ, hμ', ← EReal.coe_sub]
      first
        | rw [den_coe s A hsA μ, den_coe s A hsA μ', show Ideal.exp ((μ - μ' : ℝ) : EReal) = ((Real.exp (μ - μ') : ℝ) : EReal) from rfl,
            ← EReal.coe_mul, Finset.mul_sum]
          exact congrArg _ (Finset.sum_congr rfl fun j _ => rescale (s j) μ μ')
        | rw [acc_coe s v A hsA μ, acc_coe s v A hsA μ', show Ideal.exp ((μ - μ' : ℝ) : EReal) = ((Real.exp (μ - μ') : ℝ) : EReal) from rfl,
            ← EReal.coe_mul, Finset.mul_sum]
          exact congrArg _ (Finset.sum_congr rfl fun j _ => by rw [← mul_assoc, rescale (s j) μ μ'])

/-- THE END of the online softmax: the weighted sum divided by the denominator is the softmax-weighted sum. -/
theorem finish (s : ι → EReal) (v : ι → ℝ) (A : Finset ι) (hs : ∀ j ∈ A, s j ≠ ⊤) (hA : ∃ j ∈ A, s j ≠ ⊥) :
    Ideal.div (∑ j ∈ A, Ideal.exp (s j - A.sup s) * (v j : EReal)) (∑ j ∈ A, Ideal.exp (s j - A.sup s))
      = ∑ j ∈ A, Ideal.div (Ideal.exp (s j - A.sup s)) (∑ j ∈ A, Ideal.exp (s j - A.sup s)) * (v j : EReal) := by
  obtain ⟨μ, hμ⟩ := sup_real s A hs hA
  have hpos := den_pos s A hA μ hμ
  have hne : ((∑ j ∈ A, wt (s j) μ : ℝ) : EReal) ≠ 0 := by
    rw [ne_eq, EReal.coe_eq_zero]; exact hpos.ne'
  rw [hμ, den_coe s A hs μ, acc_coe s v A hs μ]
  unfold Ideal.div
  rw [if_neg hne, ← EReal.coe_inv, ← EReal.coe_mul, Finset.sum_mul, coe_sum]
  refine Finset.sum_congr rfl fun j hj => ?_
  rw [if_neg hne, exp_sub (s j) (hs j hj) μ, ← EReal.coe_mul, ← EReal.coe_mul]
  congr 1; ring

/-- Columns scoring `-∞` change neither the maximum nor, against a real maximum, any sum: a row's three
    quantities over a set `A` are those over any larger set whose extra columns all score `-∞`. -/
theorem extend_sup (s : ι → EReal) (A C : Finset ι) (hAC : A ⊆ C) (hbot : ∀ j ∈ C, j ∉ A → s j = ⊥) :
    C.sup s = A.sup s := by
  apply le_antisymm
  · refine Finset.sup_le fun j hj => ?_
    by_cases hjA : j ∈ A
    · exact Finset.le_sup hjA
    · rw [hbot j hj hjA]; exact bot_le
  · exact Finset.sup_mono hAC

theorem extend_sum (s : ι → EReal) (f : ι → EReal → EReal) (A C : Finset ι) (hAC : A ⊆ C) (μ : ℝ)
    (hbot : ∀ j ∈ C, j ∉ A → s j = ⊥) (hf : ∀ j, f j 0 = 0) :
    ∑ j ∈ C, f j (Ideal.exp (s j - (μ : EReal))) = ∑ j ∈ A, f j (Ideal.exp (s j - (μ : EReal))) := by
  refine (Finset.sum_subset hAC fun j hj hjA => ?_).symm
  rw [hbot j hj hjA, EReal.bot_sub]; exact hf j

/-- THE WHOLE ROW from a prefix: when every column outside `A` scores `-∞`, the kept weighted sum over the kept
    denominator is the softmax-weighted sum over ALL columns, with the maximum and the denominator taken over all columns. -/
theorem row_final (s : ι → EReal) (v : ι → ℝ) [Fintype ι] (A : Finset ι) (hs : ∀ j, s j ≠ ⊤) (hA : ∃ j ∈ A, s j ≠ ⊥)
    (hbot : ∀ j, j ∉ A → s j = ⊥) :
    Ideal.div (∑ j ∈ A, Ideal.exp (s j - A.sup s) * (v j : EReal)) (∑ j ∈ A, Ideal.exp (s j - A.sup s))
      = ∑ j, Ideal.div (Ideal.exp (s j - Finset.univ.sup s)) (∑ j', Ideal.exp (s j' - Finset.univ.sup s)) * (v j : EReal) := by
  rw [finish s v A (fun j _ => hs j) hA]
  have hsup : Finset.univ.sup s = A.sup s := extend_sup s A Finset.univ (Finset.subset_univ _) fun j _ hj => hbot j hj
  obtain ⟨μ, hμ⟩ := sup_real s A (fun j _ => hs j) hA
  have hpos := den_pos s A hA μ hμ
  rw [hsup, hμ]
  have hden : ∑ j', Ideal.exp (s j' - (μ : EReal)) = ∑ j ∈ A, Ideal.exp (s j - (μ : EReal)) :=
    extend_sum s (fun _ x => x) A Finset.univ (Finset.subset_univ _) μ (fun j _ hj => hbot j hj) (fun _ => rfl)
  rw [hden]
  have hne : ∑ j ∈ A, Ideal.exp (s j - (μ : EReal)) ≠ 0 := by
    rw [den_coe s A (fun j _ => hs j) μ, ne_eq, EReal.coe_eq_zero]; exact hpos.ne'
  refine (extend_sum s (fun j x => Ideal.div x (∑ j ∈ A, Ideal.exp (s j - (μ : EReal))) * (v j : EReal)) A Finset.univ
    (Finset.subset_univ _) μ (fun j _ hj => hbot j hj) (fun j => ?_)).symm
  unfold Ideal.div
  rw [if_neg hne, zero_mul, zero_mul]

/-! ## A row read in consecutive tiles of equal width -/

section Tiles

variable {N : ℕ}

/-- The columns before tile `k` (tiles of width `w`). -/
def before (w k : ℕ) : Finset (Fin N) := Finset.univ.filter fun j => j.val < k * w
/-- The columns of tile `k`. -/
def tile (w k : ℕ) : Finset (Fin N) := Finset.univ.filter fun j => k * w ≤ j.val ∧ j.val < (k + 1) * w

theorem before_zero (w : ℕ) : (before w 0 : Finset (Fin N)) = ∅ := by
  unfold before; rw [Finset.filter_eq_empty_iff]; intro j _; omega

theorem before_succ (w k : ℕ) : (before w (k + 1) : Finset (Fin N)) = before w k ∪ tile w k := by
  ext j
  simp only [before, tile, Finset.mem_union, Finset.mem_filter, Finset.mem_univ, true_and]
  constructor
  · intro h; by_cases h' : j.val < k * w
    · exact Or.inl h'
    · exact Or.inr ⟨by omega, h⟩
  · rintro (h | h)
    · have : k * w ≤ (k + 1) * w := Nat.mul_le_mul_right _ (Nat.le_succ _); omega
    · exact h.2

theorem before_disjoint (w k : ℕ) : Disjoint (before w k : Finset (Fin N)) (tile w k) := by
  rw [Finset.disjoint_left]; intro j hj hj'
  simp only [before, tile, Finset.mem_filter, Finset.mem_univ, true_and] at hj hj'
  omega

/-- Column `c` of tile `k`. -/
def col (w k : ℕ) (hk : (k + 1) * w ≤ N) (c : Fin w) : Fin N :=
  ⟨k * w + c.val, by have := c.isLt; have : (k + 1) * w = k * w + w := by ring
                     omega⟩

/-- A sum over a tile is the sum over its columns. -/
theorem sum_tile {M : Type*} [AddCommMonoid M] (w k : ℕ) (hk : (k + 1) * w ≤ N) (f : Fin N → M) :
    ∑ j ∈ tile w k, f j = ∑ c : Fin w, f (col w k hk c) := by
  symm
  refine Finset.sum_bij (fun c _ => col w k hk c) (fun c _ => ?_) (fun c _ c' _ h => ?_) (fun j hj => ?_) (fun _ _ => rfl)
  · simp only [tile, col, Finset.mem_filter, Finset.mem_univ, true_and]
    have := c.isLt; have : (k + 1) * w = k * w + w := by ring
    omega
  · have := congrArg Fin.val h; simp only [col] at this; exact Fin.ext (by omega)
  · simp only [tile, Finset.mem_filter, Finset.mem_univ, true_and] at hj
    have e : (k + 1) * w = k * w + w := by ring
    exact ⟨⟨j.val - k * w, by omega⟩, Finset.mem_univ _, Fin.ext (by simp only [col]; omega)⟩

/-- The supremum over a tile is the supremum over its columns. -/
theorem sup_tile (w k : ℕ) (hk : (k + 1) * w ≤ N) (s : Fin N → EReal) :
    (tile w k).sup s = Finset.univ.sup fun c : Fin w => s (col w k hk c) := by
  apply le_antisymm
  · refine Finset.sup_le fun j hj => ?_
    simp only [tile, Finset.mem_filter, Finset.mem_univ, true_and] at hj
    have e : (k + 1) * w = k * w + w := by ring
    have : j = col w k hk ⟨j.val - k * w, by omega⟩ := Fin.ext (by simp only [col]; omega)
    rw [this]; exact Finset.le_sup (f := fun c : Fin w => s (col w k hk c)) (Finset.mem_univ _)
  · refine Finset.sup_le fun c _ => ?_
    refine Finset.le_sup (f := s) ?_
    simp only [tile, col, Finset.mem_filter, Finset.mem_univ, true_and]
    have := c.isLt; have : (k + 1) * w = k * w + w := by ring
    omega

/-- ONE TILE of the online softmax, as a kernel computes it: from the state over the columns before tile `k`, the
    tile's scores `T` and values `vt` give the state over the columns before tile `k + 1`. Column 0 of the row
    scores a real number (so every non-empty prefix has a real score). -/
theorem tile_step (w k : ℕ) (hw : 0 < w) (hk : (k + 1) * w ≤ N) (s : Fin N → EReal) (v : Fin N → ℝ)
    (hs : ∀ j, s j ≠ ⊤) (h0 : s ⟨0, by have : w ≤ (k + 1) * w := Nat.le_mul_of_pos_left _ (Nat.succ_pos _); omega⟩ ≠ ⊥)
    (T : Fin w → EReal) (hT : ∀ c, T c = s (col w k hk c)) (vt : Fin w → EReal) (hv : ∀ c, vt c = (v (col w k hk c) : EReal)) :
    max ((before w k).sup s) (Finset.univ.sup T) = (before w (k + 1)).sup s
    ∧ Ideal.exp ((before w k).sup s - (before w (k + 1)).sup s) * (∑ j ∈ before w k, Ideal.exp (s j - (before w k).sup s))
        + ∑ c : Fin w, Ideal.exp (T c - (before w (k + 1)).sup s)
      = ∑ j ∈ before w (k + 1), Ideal.exp (s j - (before w (k + 1)).sup s)
    ∧ Ideal.exp ((before w k).sup s - (before w (k + 1)).sup s) * (∑ j ∈ before w k, Ideal.exp (s j - (before w k).sup s) * (v j : EReal))
        + ∑ c : Fin w, Ideal.exp (T c - (before w (k + 1)).sup s) * vt c
      = ∑ j ∈ before w (k + 1), Ideal.exp (s j - (before w (k + 1)).sup s) * (v j : EReal) := by
  have hw' : w ≤ (k + 1) * w := Nat.le_mul_of_pos_left _ (Nat.succ_pos _)
  have hmem : (⟨0, by omega⟩ : Fin N) ∈ before w (k + 1) := by
    simp only [before, Finset.mem_filter, Finset.mem_univ, true_and]; omega
  have hA : (before w k : Finset (Fin N)) = ∅ ∨ ∃ j ∈ before w k, s j ≠ ⊥ := by
    rcases Nat.eq_zero_or_pos k with rfl | hkpos
    · exact Or.inl (before_zero w)
    · refine Or.inr ⟨⟨0, by omega⟩, ?_, h0⟩
      simp only [before, Finset.mem_filter, Finset.mem_univ, true_and]
      exact Nat.mul_pos hkpos hw
  have hT' : (fun c : Fin w => s (col w k hk c)) = T := funext fun c => (hT c).symm
  obtain ⟨e1, e2, e3⟩ := step s v (before w k) (tile w k) (before_disjoint w k) (fun j _ => hs j) hA
    (by rw [← before_succ]; exact ⟨_, hmem, h0⟩)
  rw [← before_succ] at e1 e2 e3
  rw [sup_tile w k hk s, hT'] at e1
  rw [sum_tile w k hk] at e2 e3
  refine ⟨e1, ?_, ?_⟩
  · rw [← e2]; congr 1
    exact Finset.sum_congr rfl fun c _ => by rw [hT c]
  · rw [← e3]; congr 1
    exact Finset.sum_congr rfl fun c _ => by rw [hT c, hv c]

end Tiles

end Cert.OnlineSoftmax

end
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.Spec.lean ====
/-
  The result of causal self-attention as one function of the five argument arrays, index by index, in the
  order of operations of the reference: the input projection, the split into heads, the masked and scaled
  scores, the row-wise softmax (maximum, exponentials, denominator, quotient), the weighted sum of the
  values, the merge of the heads and the output projection. Every stage is named, so that another
  arrangement of the same computation can be compared with this one stage by stage.
-/
import Idealize.ShloMosaic.PureOps.Ideal
import Idealize.ShloMosaic.Lib.ValueIdx

noncomputable section

namespace Cert.Spec

open Idealize.ShloMosaic Idealize.ShloMosaic.ValueIdx

/-- The input `x : [4, 2048, 1024]`. -/
abbrev X : Type := FVec Ideal ⟨3, ![4, 2048, 1024]⟩ .f32
/-- The input projection's weight `w_in : [3072, 1024]`. -/
abbrev WIn : Type := FVec Ideal ⟨2, ![3072, 1024]⟩ .f32
/-- The input projection's bias `b_in : [3072]`. -/
abbrev BIn : Type := FVec Ideal ⟨1, ![3072]⟩ .f32
/-- The output projection's weight `w_out : [1024, 1024]`. -/
abbrev WOut : Type := FVec Ideal ⟨2, ![1024, 1024]⟩ .f32
/-- The output projection's bias `b_out : [1024]`. -/
abbrev BOut : Type := FVec Ideal ⟨1, ![1024]⟩ .f32

/-- The word of `-∞`. -/
abbrev negInf : EReal := Ideal.ofBits .f32 0xFF800000#32
/-- The word of `8.0`, the square root of the width of a head. -/
abbrev eight : EReal := Ideal.ofBits .f32 0x41000000#32
/-- The word of `0.0`. -/
abbrev zero : EReal := Ideal.ofBits .f32 0x00000000#32

/-- The input projection: `qkv(n, s, e) = (∑ d, x(n, s, d) · w_in(e, d)) + b_in(e)`. -/
def qkv (x : X) (w : WIn) (b : BIn) (n : Fin 4) (s : Fin 2048) (e : Fin 3072) : EReal :=
  (∑ d : Fin 1024, x (ix3 n s d) * w (ix2 e d)) + b (ix1 e)

/-- Column `64 h + j` of the projection: feature `j` of head `h` of the queries. -/
def colQ (h : Fin 16) (j : Fin 64) : Fin 3072 := ⟨64 * h.val + j.val, by omega⟩
/-- Column `1024 + 64 h + j`: feature `j` of head `h` of the keys. -/
def colK (h : Fin 16) (j : Fin 64) : Fin 3072 := ⟨1024 + (64 * h.val + j.val), by omega⟩
/-- Column `2048 + 64 h + j`: feature `j` of head `h` of the values. -/
def colV (h : Fin 16) (j : Fin 64) : Fin 3072 := ⟨2048 + (64 * h.val + j.val), by omega⟩

/-- The queries by head: `q(n, h, s, j) = qkv(n, s, 64 h + j)`. -/
def q (x : X) (w : WIn) (b : BIn) (n : Fin 4) (h : Fin 16) (s : Fin 2048) (j : Fin 64) : EReal :=
  qkv x w b n s (colQ h j)
/-- The keys by head: `k(n, h, s, j) = qkv(n, s, 1024 + 64 h + j)`. -/
def k (x : X) (w : WIn) (b : BIn) (n : Fin 4) (h : Fin 16) (s : Fin 2048) (j : Fin 64) : EReal :=
  qkv x w b n s (colK h j)
/-- The values by head: `v(n, h, s, j) = qkv(n, s, 2048 + 64 h + j)`. -/
def v (x : X) (w : WIn) (b : BIn) (n : Fin 4) (h : Fin 16) (s : Fin 2048) (j : Fin 64) : EReal :=
  qkv x w b n s (colV h j)

/-- The inner product of query `i` with key `j`. -/
def dots (x : X) (w : WIn) (b : BIn) (n : Fin 4) (h : Fin 16) (i j : Fin 2048) : EReal :=
  ∑ d : Fin 64, q x w b n h i d * k x w b n h j d

/-- The masked, scaled score: the inner product where key `j` is not after query `i`, `-∞` elsewhere,
    divided by eight. -/
def score (x : X) (w : WIn) (b : BIn) (n : Fin 4) (h : Fin 16) (i j : Fin 2048) : EReal :=
  Ideal.div (if j.val ≤ i.val then dots x w b n h i j else negInf) eight

/-- The maximum of a row of scores, as the softmax takes it: the fold of `max` from `-∞`, again against `-∞`. -/
def rowMax (x : X) (w : WIn) (b : BIn) (n : Fin 4) (h : Fin 16) (i : Fin 2048) : EReal :=
  max negInf ((Finset.univ : Finset (Fin 2048)).fold max negInf fun j => score x w b n h i j)

/-- The unnormalised weight `exp (score − maximum)`. -/
def expo (x : X) (w : WIn) (b : BIn) (n : Fin 4) (h : Fin 16) (i j : Fin 2048) : EReal :=
  Ideal.exp (score x w b n h i j - rowMax x w b n h i)

/-- The softmax's denominator: zero plus the sum of a row of unnormalised weights. -/
def rowSum (x : X) (w : WIn) (b : BIn) (n : Fin 4) (h : Fin 16) (i : Fin 2048) : EReal :=
  zero + ∑ j : Fin 2048, expo x w b n h i j

/-- The attention weight of key `j` for query `i`. -/
def attn (x : X) (w : WIn) (b : BIn) (n : Fin 4) (h : Fin 16) (i j : Fin 2048) : EReal :=
  Ideal.div (expo x w b n h i j) (rowSum x w b n h i)

/-- One head's output: the attention-weighted sum of the values. -/
def heads (x : X) (w : WIn) (b : BIn) (n : Fin 4) (h : Fin 16) (i : Fin 2048) (d : Fin 64) : EReal :=
  ∑ j : Fin 2048, attn x w b n h i j * v x w b n h j d

/-- The heads side by side: column `c` is feature `c % 64` of head `c / 64`. -/
def merged (x : X) (w : WIn) (b : BIn) (n : Fin 4) (s : Fin 2048) (c : Fin 1024) : EReal :=
  heads x w b n ⟨c.val / 64, by omega⟩ s ⟨c.val % 64, by omega⟩

/-- The output projection: `out(n, s, e) = (∑ c, merged(n, s, c) · w_out(e, c)) + b_out(e)`. -/
def out (x : X) (w : WIn) (b : BIn) (wo : WOut) (bo : BOut) (n : Fin 4) (s : Fin 2048) (e : Fin 1024) : EReal :=
  (∑ c : Fin 1024, merged x w b n s c * wo (ix2 e c)) + bo (ix1 e)

/-- The whole result as an array `[4, 2048, 1024]`. -/
def G (x : X) (w : WIn) (b : BIn) (wo : WOut) (bo : BOut) : FVec Ideal ⟨3, ![4, 2048, 1024]⟩ .f32 :=
  fun i => out x w b wo bo (i 0) (i 1) (i 2)

theorem G_apply (x : X) (w : WIn) (b : BIn) (wo : WOut) (bo : BOut) (n : Fin 4) (s : Fin 2048) (e : Fin 1024) :
    G x w b wo bo (ix3 n s e) = out x w b wo bo n s e := rfl

end Cert.Spec

end
-- ==== Proof.OnlineAttn.lean ====
/-
  The online softmax of one causal attention row. A query row keeps a running maximum `m`, a running
  denominator `l` and, for each of the 64 features, a running weighted sum `acc`; the keys are read in
  four tiles of 512 columns, and each tile rescales what was kept by `exp (m_old − m_new)`. Tiles wholly
  after the query are skipped. At the end `acc / l` is the softmax-weighted sum of the values over the
  whole row of 2048 columns, the columns after the query weighing `exp (-∞) = 0`.
-/
import proofs.«125597_j3710851744401_2_alg».proof.Proof.LibOnlineSoftmax
import proofs.«125597_j3710851744401_2_alg».proof.Proof.LibReal
import proofs.«125597_j3710851744401_2_alg».proof.Proof.Spec
import Idealize.ShloMosaic.PureOps.Ideal.Laws

noncomputable section

namespace Cert.OnlineAttn

open Idealize.ShloMosaic

/-! ## The state of one query row and its step -/

/-- What is kept for one query row: the running maximum, the running denominator, and the running
    weighted sum of each of the 64 features. -/
structure RowState where
  m : EReal
  l : EReal
  acc : Fin 64 → EReal

/-- Before the first tile: `m = -∞`, `l = 0`, `acc = 0`. -/
def init : RowState := ⟨⊥, 0, fun _ => 0⟩

/-- The new maximum: the old one against the tile's, the tile's folded from `-∞`. -/
def stepM (m : EReal) (T : Fin 512 → EReal) : EReal :=
  max m ((Finset.univ : Finset (Fin 512)).fold max ⊥ T)

/-- ONE TILE. `T c` is the masked, scaled score of the tile's column `c`, `V c d` feature `d` of its value:
    `m' = max m (max_c T c)`, `a = exp (m − m')`, `p c = exp (T c − m')`,
    `l' = a · l + (0 + ∑ c, p c)`, `acc' d = a · acc d + ∑ c, p c · V c d`. -/
def step (st : RowState) (T : Fin 512 → EReal) (V : Fin 512 → Fin 64 → EReal) : RowState where
  m := stepM st.m T
  l := Ideal.exp (st.m - stepM st.m T) * st.l + (0 + ∑ c : Fin 512, Ideal.exp (T c - stepM st.m T))
  acc := fun d => Ideal.exp (st.m - stepM st.m T) * st.acc d + ∑ c : Fin 512, Ideal.exp (T c - stepM st.m T) * V c d

/-- THE END: feature `d` of the row's output, `acc d / l`. -/
def finish (st : RowState) (d : Fin 64) : EReal := Ideal.div (st.acc d) st.l

/-- Column `c` of tile `kt` of a row of 2048 columns read in four tiles of 512. -/
def col (kt : Fin 4) (c : Fin 512) : Fin 2048 := ⟨512 * kt.val + c.val, by omega⟩

/-- The state after the first `k` tiles (`k ≤ 4`) of a row with scores `s` and values `V`, from `init`. -/
def after (s : Fin 2048 → EReal) (V : Fin 2048 → Fin 64 → EReal) : ℕ → RowState
  | 0 => init
  | k + 1 => if h : k < 4 then step (after s V k) (fun c => s (col ⟨k, h⟩ c)) (fun c d => V (col ⟨k, h⟩ c) d)
      else after s V k

theorem after_zero (s : Fin 2048 → EReal) (V : Fin 2048 → Fin 64 → EReal) : after s V 0 = init := rfl

theorem after_succ (s : Fin 2048 → EReal) (V : Fin 2048 → Fin 64 → EReal) (k : ℕ) (h : k < 4) :
    after s V (k + 1) = step (after s V k) (fun c => s (col ⟨k, h⟩ c)) (fun c d => V (col ⟨k, h⟩ c) d) := by
  rw [after, dif_pos h]

/-! ## The words -/

open Cert.OnlineSoftmax Cert.LibReal

/-- The word of `-∞` is `-∞`. -/
theorem negInf_eq : Ideal.ofBits .f32 0xFF800000#32 = ⊥ := by simp [Ideal.ofBits, Ideal.ieee]

/-- The word of `8.0` is eight. -/
theorem eight_eq : Ideal.ofBits .f32 0x41000000#32 = ((8 : ℝ) : EReal) := by
  simp [Ideal.ofBits, Ideal.ieee]
  rw [← EReal.coe_mul]
  congr 1
  norm_num

/-- The word of `0.125` is one eighth. -/
theorem eighth_eq : Ideal.ofBits .f32 0x3E000000#32 = ((1 / 8 : ℝ) : EReal) := by
  rw [show (1 / 8 : ℝ) = 8388608 * (2 ^ 26 : ℝ)⁻¹ by norm_num]
  simp [Ideal.ofBits, Ideal.ieee]

/-- Scaling by one eighth and then masking with `-∞` is masking with `-∞` and then dividing by eight:
    `-∞ / 8 = -∞`, and `x / 8 = x · (1/8)` for every extended real `x`. -/
theorem scale_then_mask (c : Prop) [Decidable c] (x : EReal) :
    (if c then x * Ideal.ofBits .f32 0x3E000000#32 else ⊥)
      = Ideal.div (if c then x else Ideal.ofBits .f32 0xFF800000#32) (Ideal.ofBits .f32 0x41000000#32) := by
  rw [eight_eq, eighth_eq, negInf_eq, Ideal.div_coe (by norm_num : (8 : ℝ) ≠ 0)]
  split_ifs
  · rfl
  · exact (EReal.bot_mul_coe_of_pos (by norm_num)).symm

/-- The specification's score from the product scaled first and masked after. -/
theorem score_scaled (x : Spec.X) (w : Spec.WIn) (b : Spec.BIn) (n : Fin 4) (h : Fin 16) (i j : Fin 2048) :
    (if j.val ≤ i.val then Spec.dots x w b n h i j * Ideal.ofBits .f32 0x3E000000#32 else ⊥)
      = Spec.score x w b n h i j :=
  scale_then_mask _ _

/-- A fold of `max` from `-∞` is the supremum. -/
theorem fold_max_eq_sup {ι : Type} [DecidableEq ι] (A : Finset ι) (f : ι → EReal) : A.fold max ⊥ f = A.sup f := by
  induction A using Finset.induction_on with
  | empty => rfl
  | insert a A ha ih => rw [Finset.fold_insert ha, Finset.sup_insert, ih]

/-! ## The state after `k` tiles in closed form -/

/-- The library's column of a tile is this file's. -/
theorem col_eq (k : ℕ) (h : k < 4) (hk : (k + 1) * 512 ≤ 2048) (c : Fin 512) :
    Cert.OnlineSoftmax.col 512 k hk c = col ⟨k, h⟩ c :=
  Fin.ext (by show k * 512 + c.val = 512 * k + c.val; omega)

/-- After `k` tiles the row holds the maximum, the denominator and the weighted sums of the columns before
    tile `k`. The scores are real or `-∞`, column 0 scores a real, the values are real. -/
theorem after_closed (s : Fin 2048 → EReal) (V : Fin 2048 → Fin 64 → EReal) (hs : ∀ j, s j ≠ ⊤)
    (h0 : s ⟨0, by omega⟩ ≠ ⊥) (hV : ∀ j d, IsReal (V j d)) (k : ℕ) (hk : k ≤ 4) :
    (after s V k).m = (before 512 k).sup s
    ∧ (after s V k).l = ∑ j ∈ before 512 k, Ideal.exp (s j - (before 512 k).sup s)
    ∧ ∀ d, (after s V k).acc d = ∑ j ∈ before 512 k, Ideal.exp (s j - (before 512 k).sup s) * V j d := by
  induction k with
  | zero =>
    rw [after_zero, before_zero]
    exact ⟨rfl, rfl, fun _ => rfl⟩
  | succ k ih =>
    have h : k < 4 := by omega
    have hk' : (k + 1) * 512 ≤ 2048 := by omega
    obtain ⟨em, el, eacc⟩ := ih (by omega)
    rw [after_succ s V k h]
    have hT : ∀ c : Fin 512, (fun c => s (col ⟨k, h⟩ c)) c = s (Cert.OnlineSoftmax.col 512 k hk' c) := fun c => by
      rw [col_eq k h hk' c]
    have key : ∀ d : Fin 64, ∃ v' : Fin 2048 → ℝ, (∀ j, V j d = (v' j : EReal)) := fun d => by
      choose v' hv' using fun j => hV j d
      exact ⟨v', hv'⟩
    obtain ⟨v0, hv0⟩ := key 0
    have e1 := (tile_step 512 k (by omega) hk' s v0 hs h0 (fun c => s (col ⟨k, h⟩ c)) hT
      (fun c => V (col ⟨k, h⟩ c) 0) (fun c => by rw [hv0, col_eq k h hk' c])).1
    have hm : stepM (after s V k).m (fun c => s (col ⟨k, h⟩ c)) = (before 512 (k + 1)).sup s := by
      unfold stepM
      rw [em, fold_max_eq_sup, e1]
    refine ⟨hm, ?_, fun d => ?_⟩
    · have e2 := (tile_step 512 k (by omega) hk' s v0 hs h0 (fun c => s (col ⟨k, h⟩ c)) hT
        (fun c => V (col ⟨k, h⟩ c) 0) (fun c => by rw [hv0, col_eq k h hk' c])).2.1
      show Ideal.exp ((after s V k).m - stepM (after s V k).m (fun c => s (col ⟨k, h⟩ c))) * (after s V k).l
        + (0 + ∑ c : Fin 512, Ideal.exp (s (col ⟨k, h⟩ c) - stepM (after s V k).m (fun c => s (col ⟨k, h⟩ c)))) = _
      rw [hm, em, el, zero_add]
      exact e2
    · obtain ⟨v', hv'⟩ := key d
      have e3 := (tile_step 512 k (by omega) hk' s v' hs h0 (fun c => s (col ⟨k, h⟩ c)) hT
        (fun c => V (col ⟨k, h⟩ c) d) (fun c => by rw [hv', col_eq k h hk' c])).2.2
      show Ideal.exp ((after s V k).m - stepM (after s V k).m (fun c => s (col ⟨k, h⟩ c))) * (after s V k).acc d
        + ∑ c : Fin 512, Ideal.exp (s (col ⟨k, h⟩ c) - stepM (after s V k).m (fun c => s (col ⟨k, h⟩ c))) * V (col ⟨k, h⟩ c) d = _
      rw [hm, em, eacc d]
      have hVd : (fun j => V j d) = fun j => (v' j : EReal) := funext hv'
      have e3' := e3
      simp only [← hv'] at e3'
      exact e3'

/-! ## The end of the row -/

/-- For query `i` in q-tile `qi`, whose scores are real up to column `i` and `-∞` after it, with real values:
    after the tiles `0, …, qi` the quotient `acc / l` is the softmax-weighted sum of the values over all 2048
    columns, the softmax spelled as the specification spells it (the maximum folded from the word of `-∞` and
    taken against it again, the denominator added to the word of zero). -/
theorem finish_eq (s : Fin 2048 → EReal) (V : Fin 2048 → Fin 64 → EReal) (i : Fin 2048) (qi : ℕ)
    (hlo : 512 * qi ≤ i.val) (hhi : i.val < 512 * (qi + 1))
    (hreal : ∀ j : Fin 2048, j.val ≤ i.val → IsReal (s j)) (hbot : ∀ j : Fin 2048, i.val < j.val → s j = ⊥)
    (hV : ∀ j d, IsReal (V j d)) (d : Fin 64) :
    finish (after s V (qi + 1)) d
      = ∑ j : Fin 2048,
          Ideal.div (Ideal.exp (s j - max Spec.negInf ((Finset.univ : Finset (Fin 2048)).fold max Spec.negInf s)))
            (Spec.zero + ∑ j' : Fin 2048,
              Ideal.exp (s j' - max Spec.negInf ((Finset.univ : Finset (Fin 2048)).fold max Spec.negInf s)))
          * V j d := by
  have hi := i.isLt
  have hs : ∀ j, s j ≠ ⊤ := fun j => by
    by_cases hj : j.val ≤ i.val
    · obtain ⟨r, hr⟩ := hreal j hj; rw [hr]; exact EReal.coe_ne_top r
    · rw [hbot j (by omega)]; exact bot_ne_top
  have h0 : s ⟨0, by omega⟩ ≠ ⊥ := by
    obtain ⟨r, hr⟩ := hreal ⟨0, by omega⟩ (Nat.zero_le _); rw [hr]; exact EReal.coe_ne_bot r
  obtain ⟨em, el, eacc⟩ := after_closed s V hs h0 hV (qi + 1) (by omega)
  choose v' hv' using fun j => hV j d
  have hA : ∃ j ∈ (before 512 (qi + 1) : Finset (Fin 2048)), s j ≠ ⊥ :=
    ⟨⟨0, by omega⟩, by simp only [before, Finset.mem_filter, Finset.mem_univ, true_and]; omega, h0⟩
  have hout : ∀ j : Fin 2048, j ∉ (before 512 (qi + 1) : Finset (Fin 2048)) → s j = ⊥ := fun j hj => by
    simp only [before, Finset.mem_filter, Finset.mem_univ, true_and] at hj
    exact hbot j (by omega)
  have hrow := row_final s v' (before 512 (qi + 1)) hs hA hout
  unfold finish
  rw [eacc d, el]
  simp only [hv']
  rw [hrow]
  have hmax : max Spec.negInf ((Finset.univ : Finset (Fin 2048)).fold max Spec.negInf s) = Finset.univ.sup s := by
    show max (Ideal.ofBits .f32 0xFF800000#32) (Finset.univ.fold max (Ideal.ofBits .f32 0xFF800000#32) s) = _
    rw [negInf_eq, fold_max_eq_sup]
    exact max_eq_right bot_le
  have hzero : Spec.zero = 0 := Ideal.ofBits_zero_f32
  rw [hmax, hzero, zero_add]

/-! ## The specification's rows -/

/-- Under real inputs the input projection is real. -/
theorem qkv_real (x : Spec.X) (w : Spec.WIn) (b : Spec.BIn) (hx : RealVec x) (hw : RealVec w) (hb : RealVec b)
    (n : Fin 4) (s : Fin 2048) (e : Fin 3072) : IsReal (Spec.qkv x w b n s e) :=
  IsReal.add (IsReal.sum _ _ fun d _ => (hx _).mul (hw _)) (hb _)

/-- Up to the diagonal the score is real. -/
theorem score_real (x : Spec.X) (w : Spec.WIn) (b : Spec.BIn) (hx : RealVec x) (hw : RealVec w) (hb : RealVec b)
    (n : Fin 4) (h : Fin 16) (i j : Fin 2048) (hij : j.val ≤ i.val) : IsReal (Spec.score x w b n h i j) := by
  unfold Spec.score
  rw [if_pos hij]
  show IsReal (Ideal.div _ (Ideal.ofBits .f32 0x41000000#32))
  rw [eight_eq]
  refine IsReal.div_coe (IsReal.sum _ _ fun d _ => ?_) (by norm_num)
  exact (qkv_real x w b hx hw hb _ _ _).mul (qkv_real x w b hx hw hb _ _ _)

/-- After the diagonal the score is `-∞`. -/
theorem score_bot (x : Spec.X) (w : Spec.WIn) (b : Spec.BIn) (n : Fin 4) (h : Fin 16) (i j : Fin 2048)
    (hij : i.val < j.val) : Spec.score x w b n h i j = ⊥ := by
  unfold Spec.score
  rw [if_neg (by omega)]
  show Ideal.div (Ideal.ofBits .f32 0xFF800000#32) (Ideal.ofBits .f32 0x41000000#32) = ⊥
  rw [eight_eq, negInf_eq, Ideal.div_coe (by norm_num : (8 : ℝ) ≠ 0)]
  exact EReal.bot_mul_coe_of_pos (by norm_num)

/-- THE LAW: for query `i` of head `h` of batch `n`, in q-tile `qi`, the online softmax over the tiles `0, …, qi`
    of the specification's scores and values ends with the specification's head output. -/
theorem heads_eq (x : Spec.X) (w : Spec.WIn) (b : Spec.BIn) (hx : RealVec x) (hw : RealVec w) (hb : RealVec b)
    (n : Fin 4) (h : Fin 16) (i : Fin 2048) (d : Fin 64) (qi : ℕ) (hlo : 512 * qi ≤ i.val) (hhi : i.val < 512 * (qi + 1)) :
    finish (after (fun j => Spec.score x w b n h i j) (fun j d => Spec.v x w b n h j d) (qi + 1)) d
      = Spec.heads x w b n h i d := by
  have hV : ∀ (j : Fin 2048) (d : Fin 64), IsReal (Spec.v x w b n h j d) := fun j d =>
    qkv_real x w b hx hw hb n j (Spec.colV h d)
  exact (finish_eq (fun j => Spec.score x w b n h i j) (fun j d => Spec.v x w b n h j d) i qi hlo hhi
    (fun j hj => score_real x w b hx hw hb n h i j hj) (fun j hj => score_bot x w b n h i j hj) hV d).trans rfl

end Cert.OnlineAttn

end
-- ==== Proof.KIStep1.lean ====
import proofs.«125597_j3710851744401_2_alg».proof.Proof.KIPay1
import proofs.«125597_j3710851744401_2_alg».proof.Proof.OnlineAttn

/-! # One step of the attention body, row by row, is one step of the online softmax

The body keeps three buffers between grid points: a column of running maxima, a column of running denominators and a
matrix of running weighted sums, one row per query of the block. Row r of the three, taken together, is the state of
the online softmax of query r; the values the body computes for one key/value tile (the new maximum, the new
denominator, the new weighted sum) are, row by row, the online softmax's step on the tile's row of masked scores and
the tile's values. The start values are the online softmax's start state. -/

set_option maxRecDepth 16384

noncomputable section

namespace Cert.KernelIdeal.Step1

open Cert.KernelIdeal Cert.KernelIdeal.Gen Idealize.ShloMosaic Idealize.ShloMosaic.TcCoe Idealize.SL.Sem
open Idealize.ShloMosaic.ValueIdx
open Cert.KernelIdeal.Pay1
open Cert.OnlineAttn (RowState)
open scoped BigOperators

/-- The zero word is zero. -/
theorem zero_eq : Ideal.ofBits .f32 0x00000000#32 = (0 : EReal) := by simp [Ideal.ofBits, Ideal.ieee]

/-- Row r of the three buffers (maxima, denominators, weighted sums) is the row state st. -/
def RowIs (m l : Vec Ideal S512x1 .f32) (acc : Vec Ideal S512x64 .f32) (r : Fin 512) (st : RowState) : Prop :=
  m (ix2 r (0 : Fin 1)) = st.m ∧ l (ix2 r (0 : Fin 1)) = st.l ∧ ∀ d : Fin 64, acc (ix2 r d) = st.acc d

/-- The start values are the start state in every row. -/
theorem rowIs_init (r : Fin 512) : RowIs (k1_pay1 (F := Ideal)) (k1_pay2 (F := Ideal)) (k1_pay3 (F := Ideal)) r Cert.OnlineAttn.init :=
  ⟨pay1_apply _, (pay2_apply _).trans zero_eq, fun d => (pay3_apply _).trans zero_eq⟩

/-- One step of the body on a tile, read in row r: the online softmax's step from the row's state, on the tile's row r
    of masked scores and on the tile's values. -/
theorem rowIs_step (a1 a2 : BitVec 32) (x0 kb vb : Vec Ideal S1x512x64 .bf16) (m l : Vec Ideal S512x1 .f32) (acc : Vec Ideal S512x64 .f32)
    (r : Fin 512) (st : RowState) (h : RowIs m l acc r st) :
    RowIs (k1_pay6 (k1_pay10 a1 a2 x0 kb m)) (k1_pay4 (k1_pay13 a1 a2 x0 kb m l))
      (k1_pay5 (k1_pay8 vb) (k1_pay11 a1 a2 x0 kb m) (k1_pay12 a1 a2 x0 kb m) acc) r
      (Cert.OnlineAttn.step st (fun c => k1_pay9 a1 a2 x0 kb (ix2 r c)) (fun c d => vb (ix3 (0 : Fin 1) c d))) := by
  obtain ⟨hm, hl, hacc⟩ := h
  have e10 : k1_pay10 a1 a2 x0 kb m (ix2 r (0 : Fin 1)) = Cert.OnlineAttn.stepM st.m (fun c => k1_pay9 a1 a2 x0 kb (ix2 r c)) := by
    rw [pay10_apply, hm, Cert.OnlineAttn.negInf_eq]; rfl
  have e11 : k1_pay11 a1 a2 x0 kb m (ix2 r (0 : Fin 1)) = Ideal.exp (st.m - Cert.OnlineAttn.stepM st.m (fun c => k1_pay9 a1 a2 x0 kb (ix2 r c))) := by
    rw [pay11_apply, hm, e10]
  have e12 : ∀ j : Fin 512, k1_pay12 a1 a2 x0 kb m (ix2 r j)
      = Ideal.exp (k1_pay9 a1 a2 x0 kb (ix2 r j) - Cert.OnlineAttn.stepM st.m (fun c => k1_pay9 a1 a2 x0 kb (ix2 r c))) := fun j => by
    rw [pay12_apply, e10]
  refine ⟨?_, ?_, fun d => ?_⟩
  · rw [pay6_eq]; exact e10
  · rw [pay4_eq, pay13_apply, e11, hl]
    simp only [e12]
    show _ = Ideal.exp _ * st.l + (0 + ∑ c : Fin 512, Ideal.exp _)
    rw [zero_add]
  · rw [pay5_apply, e11, hacc d]
    simp only [e12, pay8_apply]
    rfl

end Cert.KernelIdeal.Step1

end
-- ==== Proof.KIArr1.lean ====
import proofs.«125597_j3710851744401_2_alg».proof.Proof.KIRegion1
import Idealize.ShloMosaic.Lib.Pipeline.Value
import Idealize.ShloMosaic.Lib.ValueIdx

/-! # Region 1 of @main: from the blocks written back to the output array

The attention region writes its output window back only at the last key block of each (head, query block): at the
points t with t % 4 = 3, where t = 16 · bh + 4 · qi + ki. The block written at such a point is rows 512 · qi … of head
bh; the 64 · 4 such blocks tile the [64, 2048, 64] array. So the array the region leaves is, entry by entry, what the
body left in the output window's buffer at the covering point. Stated first for any proof data of the pipeline whose
body leaves `O t` in the output window's buffer, then for the region's own. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F] [Named F]

/-- The output window's block indices, decided over the 1024 grid points: head t / 16, query block t / 4 % 4, lane
    block 0. -/
theorem idx_facts1 : ∀ t : Fin cfg1.N, win1_3.index t (0 : Fin 3) = t.val / 16
    ∧ win1_3.index t (1 : Fin 3) = t.val / 4 % 4
    ∧ win1_3.index t (2 : Fin 3) = 0 :=
  (by decide +kernel : ∀ t : Fin grid1.N, _)

/-- The point that writes back the block holding row s of head b: the last key block of query block s / 512. -/
def pt1' (b : Fin 64) (s : Fin 2048) : Fin cfg1.N := ⟨16 * b.val + 4 * (s.val / 512) + 3, by rw [show cfg1.N = 1024 from N_1]; omega⟩

/-- The point that writes back query block qi of head bh. -/
def pt1 (bh : Fin 64) (qi : Fin 4) : Fin cfg1.N := ⟨16 * bh.val + 4 * qi.val + 3, by rw [show cfg1.N = 1024 from N_1]; omega⟩

theorem pt1_val (bh : Fin 64) (qi : Fin 4) : (pt1 bh qi).val = 16 * bh.val + 4 * qi.val + 3 := rfl

/-- The array as one function of what the body leaves at each point: entry (b, s, d) is entry (0, s % 512, d) of the
    block left at the covering point. -/
def G1 (O : Fin cfg1.N → Vec F S1x512x64 .bf16) : S64x2048x64.Idx → Elt F .bf16 :=
  fun i => O (pt1' (i 0) (i 1)) (ix3 (0 : Fin 1) (⟨(i 1).val % 512, Nat.mod_lt _ (by decide)⟩ : Fin 512) (i 2))

/-- Block t of G1, for a point t that writes back, is what the body left at t. -/
theorem G1_blk (O : Fin cfg1.N → Vec F S1x512x64 .bf16) (t : Fin cfg1.N) (h3 : t.val % 4 = 3) (u : Fin 1) (r : Fin 512) (d : Fin 64) :
    G1 O (((cfg1.win 3).blk t).view.emb (ix3 u r d)) = O t (ix3 u r d) := by
  obtain ⟨e0, e1, e2⟩ := idx_facts1 t
  have hu : u.val = 0 := by omega
  have hr : r.val < 512 := r.isLt
  have hd : d.val < 64 := d.isLt
  have htN : t.val < 1024 := Nat.lt_of_lt_of_eq t.isLt (N_1 : cfg1.N = 1024)
  have ht : pt1' ((((cfg1.win 3).blk t).view.emb (ix3 u r d)) 0) ((((cfg1.win 3).blk t).view.emb (ix3 u r d)) 1) = t := Fin.ext (by
    show 16 * (win1_3.index t (0 : Fin 3) * 1 + 1 * u.val) + 4 * ((win1_3.index t (1 : Fin 3) * 512 + 1 * r.val) / 512) + 3 = t.val
    omega)
  have hi : ix3 (0 : Fin 1) (⟨((((cfg1.win 3).blk t).view.emb (ix3 u r d)) 1).val % 512, Nat.mod_lt _ (by decide)⟩ : Fin 512) ((((cfg1.win 3).blk t).view.emb (ix3 u r d)) 2) = ix3 u r d := by
    funext a; apply Fin.ext
    match a with
    | ⟨0, _⟩ => show 0 = u.val; omega
    | ⟨1, _⟩ => show (win1_3.index t (1 : Fin 3) * 512 + 1 * r.val) % 512 = r.val; omega
    | ⟨2, _⟩ => show win1_3.index t (2 : Fin 3) * 64 + 1 * d.val = d.val; omega
  unfold G1
  exact congr (congrArg O ht) hi

/-- An index of the array is in point t's block iff each coordinate is in the block's range on its axis. -/
theorem mem_blk1_3 (t : Fin cfg1.N) (i : S64x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v15).slice (win1_3.rect t)).set ↔ _
  rw [View.set_slice_whole, Rect.mem_set_unit]
  exact Iff.rfl

/-- The blocks written back tile the array: entry (b, s, d) is in the block of the point 16 b + 4 (s / 512) + 3. -/
theorem cover1_3_arr (i : S64x2048x64.Idx) : ∃ t : Fin cfg1.N, (cfg1.win 3).flush t = true ∧ i ∈ ((cfg1.win 3).blk t).view.set := by
  have hi0 : (i 0).val < 64 := (i 0).isLt
  have hi1 : (i 1).val < 2048 := (i 1).isLt
  have hi2 : (i 2).val < 64 := (i 2).isLt
  obtain ⟨e0, e1, e2⟩ := idx_facts1 (pt1' (i 0) (i 1))
  have hv : (pt1' (i 0) (i 1)).val = 16 * (i 0).val + 4 * ((i 1).val / 512) + 3 := rfl
  refine ⟨pt1' (i 0) (i 1), (flush1_3 _).mpr (by rw [hv]; omega), ?_⟩
  rw [mem_blk1_3]
  intro a
  match a with
  | ⟨0, _⟩ => show win1_3.index (pt1' (i 0) (i 1)) (0 : Fin 3) * 1 ≤ (i 0).val ∧ (i 0).val < win1_3.index (pt1' (i 0) (i 1)) (0 : Fin 3) * 1 + 1; omega
  | ⟨1, _⟩ => show win1_3.index (pt1' (i 0) (i 1)) (1 : Fin 3) * 512 ≤ (i 1).val ∧ (i 1).val < win1_3.index (pt1' (i 0) (i 1)) (1 : Fin 3) * 512 + 512; omega
  | ⟨2, _⟩ => show win1_3.index (pt1' (i 0) (i 1)) (2 : Fin 3) * 64 ≤ (i 2).val ∧ (i 2).val < win1_3.index (pt1' (i 0) (i 1)) (2 : Fin 3) * 64 + 64; omega

section Generic
variable {c : Dev nD} (dat : Dat τ (Elt F) Unit ℕ (UR sig nD τ) ℕ cfg1 c) (O : Fin cfg1.N → Vec F S1x512x64 .bf16)
  (hafter : ∀ t, dat.after 3 t = O t)
include hafter

/-- What a point that writes back writes is its block of G1. -/
theorem flushed1_3_of (t : Fin cfg1.N) (hf : (cfg1.win 3).flush t = true) :
    dat.flushed 3 t = ((cfg1.win 3).blk t).view.read (Elt F) (G1 O) := by
  show (cfg1.win 3).cut (grid1.coords t) (dat.after 3 t) = _
  rw [hafter]
  have h3 : t.val % 4 = 3 := (flush1_3 t).mp hf
  funext y
  obtain ⟨u, r, d, rfl⟩ : ∃ (u : Fin 1) (r : Fin 512) (d : Fin 64), y = ix3 u r d := ⟨y 0, y 1, y 2, eq_ix3 y⟩
  exact (G1_blk O t h3 u r d).symm

/-- The output array after the region. -/
theorem final1_3_of : dat.arrAt 3 cfg1.N = G1 O :=
  dat.arrAt_eq_of_cover 3 (G1 O) (fun t hf => flushed1_3_of dat O hafter t hf) cover1_3_arr

/-- Entry (bh, 512 qi + r, d) of the output array is entry (0, r, d) of what the body left at the point
    16 bh + 4 qi + 3. -/
theorem arr1_3_of (bh : Fin 64) (qi : Fin 4) (r : Fin 512) (d : Fin 64) :
    dat.arrAt 3 cfg1.N (ix3 bh (⟨512 * qi.val + r.val, by omega⟩ : Fin 2048) d) = O (pt1 bh qi) (ix3 (0 : Fin 1) r d) := by
  rw [final1_3_of dat O hafter]
  have ht : pt1' bh (⟨512 * qi.val + r.val, by omega⟩ : Fin 2048) = pt1 bh qi := Fin.ext (by
    show 16 * bh.val + 4 * ((512 * qi.val + r.val) / 512) + 3 = 16 * bh.val + 4 * qi.val + 3
    omega)
  have hi : ix3 (0 : Fin 1) (⟨(512 * qi.val + r.val) % 512, Nat.mod_lt _ (by decide)⟩ : Fin 512) d = ix3 (0 : Fin 1) r d := by
    funext a; apply Fin.ext
    match a with
    | ⟨0, _⟩ => rfl
    | ⟨1, _⟩ => show (512 * qi.val + r.val) % 512 = r.val; omega
    | ⟨2, _⟩ => rfl
  show O (pt1' bh (⟨512 * qi.val + r.val, by omega⟩ : Fin 2048)) (ix3 (0 : Fin 1) (⟨(512 * qi.val + r.val) % 512, Nat.mod_lt _ (by decide)⟩ : Fin 512) d) = _
  exact congr (congrArg O ht) hi

end Generic

/-! ## The region's own proof data -/

variable (V : (c : Dev nD) → (b : Ref sig .tc) → Buf (Elt F) ((c : Thread nD τ).loc b))

/-- The output array after region 1, as one function of what the body leaves at the points that write back. -/
theorem final1_3 (c : Dev nD) : (dat1 V c).arrAt 3 cfg1.N = G1 (out1_3 V c) :=
  final1_3_of (dat1 V c) (out1_3 V c) (after1_3 V c)

/-- Entry (bh, 512 qi + r, d) of the output array after region 1. -/
theorem arr1_3 (c : Dev nD) (bh : Fin 64) (qi : Fin 4) (r : Fin 512) (d : Fin 64) :
    (dat1 V c).arrAt 3 cfg1.N (ix3 bh (⟨512 * qi.val + r.val, by omega⟩ : Fin 2048) d) = out1_3 V c (pt1 bh qi) (ix3 (0 : Fin 1) r d) :=
  arr1_3_of (dat1 V c) (out1_3 V c) (after1_3 V c) bh qi r d

/-- The arrays the region only reads come back as entered. -/
theorem arr1_in0 (c : Dev nD) : (dat1 V c).arrAt 0 cfg1.N = V c (Pipeline.arrRef spec1 0) :=
  ((dat1 V c).arrAt_in 0 rfl _).trans (A_eq1 V c 0)
theorem arr1_in1 (c : Dev nD) : (dat1 V c).arrAt 1 cfg1.N = V c (Pipeline.arrRef spec1 1) :=
  ((dat1 V c).arrAt_in 1 rfl _).trans (A_eq1 V c 1)
theorem arr1_in2 (c : Dev nD) : (dat1 V c).arrAt 2 cfg1.N = V c (Pipeline.arrRef spec1 2) :=
  ((dat1 V c).arrAt_in 2 rfl _).trans (A_eq1 V c 2)

end Cert.KernelIdeal.Hand

end
-- ==== Proof.KIValue1.lean ====
import proofs.«125597_j3710851744401_2_alg».proof.Proof.KIRegion1
import proofs.«125597_j3710851744401_2_alg».proof.Proof.KIStep1
import proofs.«125597_j3710851744401_2_alg».proof.Proof.KIArr1
import Idealize.ShloMosaic.Lib.Pipeline.Value
import Idealize.ShloMosaic.Lib.ValueIdx
import Idealize.ShloMosaic.Lib.ValueLayout

/-! # Region 1 of @main on the extended reals: what a point leaves in the scratch and in the output block

Point t = 16·bh + 4·qi + ki of the attention region works on head bh, on the block of queries 512·qi … 512·qi + 511 and,
where ki ≤ qi, on the tile of keys and values 512·ki … 512·ki + 511. Row r of the three scratch buffers after that
point is the state of the online softmax of query i = 512·qi + r after the tiles 0 … min ki qi: the masked, scaled
scores of the tile are those of the query against the tile's keys, the start values are the start state, a step of
the body is a step of the online softmax, and a tile wholly after the query block is skipped. The point with ki = 3
stores the quotient of the weighted sum by the denominator: the online softmax's result after qi + 1 tiles. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Pay1 Cert.KernelIdeal.Step1
open Cert.OnlineAttn (RowState)
open scoped BigOperators

/-! ## Where the blocks sit in their arrays -/

/-- The printed index maps and the tile's row offset, decided over the 1024 grid points: point t is head t / 16, query
    tile (t / 4) % 4, key tile t % 4; the query block and the output block are rows 512·qi … of their head, the key and
    value blocks the whole head, of which the step reads rows 512·ki …. -/
theorem geom1 : ∀ t : Fin cfg1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = (t.val / 4) % 4 ∧ win1_3.index t (2 : Fin 3) = 0
    ∧ k1_off1 (grid1.coords t) (0 : Fin 3) = 0 ∧ k1_off1 (grid1.coords t) (1 : Fin 3) = 512 * (t.val % 4) ∧ k1_off1 (grid1.coords t) (2 : Fin 3) = 0
    ∧ (grid1.coords t (1 : Fin 3)).val = (t.val / 4) % 4 ∧ (grid1.coords t (2 : Fin 3)).val = t.val % 4 :=
  (by decide +kernel : ∀ t : Fin grid1.N, _)

variable (V : (c : Dev nD) → (b : Ref sig .tc) → Buf (Elt Ideal) ((c : Thread nD τ).loc b))

/-- The query block of point t: rows 512·qi + r of head t / 16 of the query array. -/
theorem blkQ (c : Dev nD) (t : Fin cfg1.N) (bh : Fin 64) (qi : ℕ) (hq : qi < 4) (hb : t.val / 16 = bh.val) (hqi : (t.val / 4) % 4 = qi)
    (r : Fin 512) (d : Fin 64) :
    iblk1 V c 0 t (ix3 (0 : Fin 1) r d) = V c main_v8 (ix3 bh ⟨512 * qi + r.val, by omega⟩ d) := by
  obtain ⟨e0, e1, e2, -⟩ := geom1 t
  show V c main_v8 (((cfg1.win 0).blk t).view.emb (ix3 (0 : Fin 1) r d)) = _
  refine congrArg (V c main_v8) (funext fun a => Fin.ext ?_)
  match a with
  | ⟨0, _⟩ => show win1_0.index t (0 : Fin 3) * 1 + 1 * 0 = bh.val; omega
  | ⟨1, _⟩ => show win1_0.index t (1 : Fin 3) * 512 + 1 * r.val = 512 * qi + r.val; omega
  | ⟨2, _⟩ => show win1_0.index t (2 : Fin 3) * 64 + 1 * d.val = d.val; omega

/-- The key (value) tile the step of point t loads from the resident block w (1: keys, 2: values): rows
    512·ki + j of head t / 16 of the array. -/
theorem blkK (c : Dev nD) (t : Fin cfg1.N) (h : cond1_1 (grid1.coords t)) (bh : Fin 64) (ki : ℕ) (hk : ki < 4) (hb : t.val / 16 = bh.val) (hki : t.val % 4 = ki)
    (j : Fin 512) (d : Fin 64) :
    kvB (grid1.coords t) h (iblk1 V c 1 t) (ix3 (0 : Fin 1) j d) = V c main_v11 (ix3 bh ⟨512 * ki + j.val, by omega⟩ d) := by
  obtain ⟨-, -, -, e0, e1, e2, -, -, -, -, -, -, o0, o1, o2, -⟩ := geom1 t
  show V c main_v11 (((cfg1.win 1).blk t).view.emb ((Rect.unit (s := S1x2048x64) (k1_off1 (grid1.coords t)) S1x512x64.size (k1_off1_inb (grid1.coords t) h)).idx (ix3 (0 : Fin 1) j d))) = _
  refine congrArg (V c main_v11) (funext fun a => Fin.ext ?_)
  match a with
  | ⟨0, _⟩ => show win1_1.index t (0 : Fin 3) * 1 + 1 * (k1_off1 (grid1.coords t) (0 : Fin 3) + 1 * 0) = bh.val; omega
  | ⟨1, _⟩ => show win1_1.index t (1 : Fin 3) * 2048 + 1 * (k1_off1 (grid1.coords t) (1 : Fin 3) + 1 * j.val) = 512 * ki + j.val; omega
  | ⟨2, _⟩ => show win1_1.index t (2 : Fin 3) * 64 + 1 * (k1_off1 (grid1.coords t) (2 : Fin 3) + 1 * d.val) = d.val; omega

theorem blkV (c : Dev nD) (t : Fin cfg1.N) (h : cond1_1 (grid1.coords t)) (bh : Fin 64) (ki : ℕ) (hk : ki < 4) (hb : t.val / 16 = bh.val) (hki : t.val % 4 = ki)
    (j : Fin 512) (d : Fin 64) :
    kvB (grid1.coords t) h (iblk1 V c 2 t) (ix3 (0 : Fin 1) j d) = V c main_v14 (ix3 bh ⟨512 * ki + j.val, by omega⟩ d) := by
  obtain ⟨-, -, -, -, -, -, e0, e1, e2, -, -, -, o0, o1, o2, -⟩ := geom1 t
  show V c main_v14 (((cfg1.win 2).blk t).view.emb ((Rect.unit (s := S1x2048x64) (k1_off1 (grid1.coords t)) S1x512x64.size (k1_off1_inb (grid1.coords t) h)).idx (ix3 (0 : Fin 1) j d))) = _
  refine congrArg (V c main_v14) (funext fun a => Fin.ext ?_)
  match a with
  | ⟨0, _⟩ => show win1_2.index t (0 : Fin 3) * 1 + 1 * (k1_off1 (grid1.coords t) (0 : Fin 3) + 1 * 0) = bh.val; omega
  | ⟨1, _⟩ => show win1_2.index t (1 : Fin 3) * 2048 + 1 * (k1_off1 (grid1.coords t) (1 : Fin 3) + 1 * j.val) = 512 * ki + j.val; omega
  | ⟨2, _⟩ => show win1_2.index t (2 : Fin 3) * 64 + 1 * (k1_off1 (grid1.coords t) (2 : Fin 3) + 1 * d.val) = d.val; omega

/-! ## The scores and the values of one head, as functions of the three arrays -/

/-- The masked, scaled score of key j for query i of head bh: the inner product times the word of one eighth where
    the key is not after the query, -∞ elsewhere. -/
def sc1 (Q K : S64x2048x64.Idx → EReal) (bh : Fin 64) (i j : Fin 2048) : EReal :=
  if j.val ≤ i.val then (∑ d : Fin 64, Q (ix3 bh i d) * K (ix3 bh j d)) * Ideal.ofBits .f32 0x3E000000#32 else ⊥

/-- Feature d of value j of head bh. -/
def val1 (W : S64x2048x64.Idx → EReal) (bh : Fin 64) (j : Fin 2048) (d : Fin 64) : EReal := W (ix3 bh j d)

/-- The query of row r of query tile qi. -/
def qrow (qi : ℕ) (hq : qi < 4) (r : Fin 512) : Fin 2048 := ⟨512 * qi + r.val, by omega⟩

/-- ONE STEP AT A POINT, ROW BY ROW: at point t = 16·bh + 4·qi + ki with ki ≤ qi the body's step takes row r of the
    scratch from a state of the online softmax of query 512·qi + r to its step on tile ki of that query's scores and
    of the head's values. -/
theorem step1_row (c : Dev nD) (t : Fin cfg1.N) (h : cond1_1 (grid1.coords t)) (bh : Fin 64) (qi ki : ℕ) (hq : qi < 4) (hk : ki < 4)
    (ht : t.val = 16 * bh.val + 4 * qi + ki) (p : Vec Ideal S512x1 .f32 × Vec Ideal S512x1 .f32 × Vec Ideal S512x64 .f32)
    (r : Fin 512) (st : RowState) (hp : RowIs p.1 p.2.1 p.2.2 r st) :
    RowIs (step1 V c t h p).1 (step1 V c t h p).2.1 (step1 V c t h p).2.2 r
      (Cert.OnlineAttn.step st (fun cc => sc1 (V c main_v8) (V c main_v11) bh (qrow qi hq r) (Cert.OnlineAttn.col ⟨ki, hk⟩ cc))
        (fun cc d => val1 (V c main_v14) bh (Cert.OnlineAttn.col ⟨ki, hk⟩ cc) d)) := by
  have hb : t.val / 16 = bh.val := by omega
  have hqi : (t.val / 4) % 4 = qi := by omega
  have hki : t.val % 4 = ki := by omega
  obtain ⟨-, -, -, -, -, -, -, -, -, -, -, -, -, -, -, g1, g2⟩ := geom1 t
  have key := rowIs_step (BitVec.ofNat 32 (grid1.coords t (1 : Fin 3)).val) (BitVec.ofNat 32 (grid1.coords t (2 : Fin 3)).val)
    (iblk1 V c 0 t) (kvB (grid1.coords t) h (iblk1 V c 1 t)) (kvB (grid1.coords t) h (iblk1 V c 2 t)) p.1 p.2.1 p.2.2 r st hp
  have hT : (fun cc : Fin 512 => k1_pay9 (BitVec.ofNat 32 (grid1.coords t (1 : Fin 3)).val) (BitVec.ofNat 32 (grid1.coords t (2 : Fin 3)).val)
        (iblk1 V c 0 t) (kvB (grid1.coords t) h (iblk1 V c 1 t)) (ix2 r cc))
      = fun cc => sc1 (V c main_v8) (V c main_v11) bh (qrow qi hq r) (Cert.OnlineAttn.col ⟨ki, hk⟩ cc) := by
    funext cc
    rw [g1, g2, hqi, hki, pay9_apply qi ki hq hk]
    simp only [blkQ V c t bh qi hq hb hqi, blkK V c t h bh ki hk hb hki]
    rfl
  have hV : (fun (cc : Fin 512) (d : Fin 64) => kvB (grid1.coords t) h (iblk1 V c 2 t) (ix3 (0 : Fin 1) cc d))
      = fun cc d => val1 (V c main_v14) bh (Cert.OnlineAttn.col ⟨ki, hk⟩ cc) d := by
    funext cc d
    rw [blkV V c t h bh ki hk hb hki]
    rfl
  rw [hT, hV] at key
  exact key

/-! ## The scratch after a point, row by row -/

/-- Point (bh, qi, ki) of the grid. -/
def pt (bh : Fin 64) (qi ki : ℕ) (hq : qi < 4) (hk : ki < 4) : Fin cfg1.N :=
  ⟨16 * bh.val + 4 * qi + ki, by have : cfg1.N = 1024 := N_1; omega⟩

/-- THE SCRATCH ROW BY ROW: after point (bh, qi, ki), row r of the scratch is the online softmax of query 512·qi + r of
    head bh after the tiles 0 … min ki qi. -/
theorem scr1_row (c : Dev nD) (bh : Fin 64) (qi : ℕ) (hq : qi < 4) (r : Fin 512) :
    ∀ (ki : ℕ) (hk : ki < 4),
      RowIs (scr1 V c (16 * bh.val + 4 * qi + ki + 1)).1 (scr1 V c (16 * bh.val + 4 * qi + ki + 1)).2.1 (scr1 V c (16 * bh.val + 4 * qi + ki + 1)).2.2 r
        (Cert.OnlineAttn.after (sc1 (V c main_v8) (V c main_v11) bh (qrow qi hq r)) (val1 (V c main_v14) bh) (min ki qi + 1))
  | 0, hk => by
    have h0 : (pt bh qi 0 hq hk).val % 4 = 0 := by show (16 * bh.val + 4 * qi + 0) % 4 = 0; omega
    have hc : cond1_1 (grid1.coords (pt bh qi 0 hq hk)) := (hcond1_1 _).mpr (by rw [h0]; exact Nat.zero_le _)
    have e : scr1 V c (16 * bh.val + 4 * qi + 0 + 1) = step1 V c (pt bh qi 0 hq hk) hc init1 := scr1_reset V c (pt bh qi 0 hq hk) h0 hc
    rw [e, Nat.zero_min, Cert.OnlineAttn.after_succ _ _ 0 hk, Cert.OnlineAttn.after_zero]
    exact step1_row V c (pt bh qi 0 hq hk) hc bh qi 0 hq hk rfl init1 r Cert.OnlineAttn.init (rowIs_init r)
  | ki + 1, hk => by
    have ih := scr1_row c bh qi hq r ki (by omega)
    have h0 : ¬(pt bh qi (ki + 1) hq hk).val % 4 = 0 := by show ¬(16 * bh.val + 4 * qi + (ki + 1)) % 4 = 0; omega
    by_cases hle : ki + 1 ≤ qi
    · have h1 : (pt bh qi (ki + 1) hq hk).val % 4 ≤ ((pt bh qi (ki + 1) hq hk).val / 4) % 4 := by
        show (16 * bh.val + 4 * qi + (ki + 1)) % 4 ≤ ((16 * bh.val + 4 * qi + (ki + 1)) / 4) % 4; omega
      have hc : cond1_1 (grid1.coords (pt bh qi (ki + 1) hq hk)) := (hcond1_1 _).mpr h1
      have e : scr1 V c (16 * bh.val + 4 * qi + (ki + 1) + 1) = step1 V c (pt bh qi (ki + 1) hq hk) hc (scr1 V c (16 * bh.val + 4 * qi + ki + 1)) :=
        scr1_step V c (pt bh qi (ki + 1) hq hk) h0 h1 hc
      rw [e, min_eq_left hle, Cert.OnlineAttn.after_succ _ _ (ki + 1) hk]
      rw [min_eq_left (by omega : ki ≤ qi)] at ih
      exact step1_row V c (pt bh qi (ki + 1) hq hk) hc bh qi (ki + 1) hq hk rfl _ r _ ih
    · have h1 : ¬(pt bh qi (ki + 1) hq hk).val % 4 ≤ ((pt bh qi (ki + 1) hq hk).val / 4) % 4 := by
        show ¬(16 * bh.val + 4 * qi + (ki + 1)) % 4 ≤ ((16 * bh.val + 4 * qi + (ki + 1)) / 4) % 4; omega
      have e : scr1 V c (16 * bh.val + 4 * qi + (ki + 1) + 1) = scr1 V c (16 * bh.val + 4 * qi + ki + 1) :=
        scr1_skip V c (pt bh qi (ki + 1) hq hk) h0 h1
      rw [e, min_eq_right (by omega : qi ≤ ki + 1)]
      rw [min_eq_right (by omega : qi ≤ ki)] at ih
      exact ih

/-! ## The output block -/

/-- WHAT THE LAST POINT OF A QUERY BLOCK STORES: entry (r, d) of the output block of point (bh, qi, 3) is the online
    softmax's result for query 512·qi + r of head bh after its qi + 1 tiles. -/
theorem out1_row (c : Dev nD) (bh : Fin 64) (qi : ℕ) (hq : qi < 4) (u : Fin 1) (r : Fin 512) (d : Fin 64) :
    out1_3 V c (pt bh qi 3 hq (by omega)) (ix3 u r d)
      = Cert.OnlineAttn.finish (Cert.OnlineAttn.after (sc1 (V c main_v8) (V c main_v11) bh (qrow qi hq r)) (val1 (V c main_v14) bh) (qi + 1)) d := by
  obtain ⟨-, hl, hacc⟩ := scr1_row V c bh qi hq r 3 (by omega)
  rw [min_eq_right (by omega : qi ≤ 3)] at hl hacc
  unfold out1_3
  rw [pay7_apply]
  show Ideal.div ((scr1 V c (16 * bh.val + 4 * qi + 3 + 1)).2.2 (ix2 r d)) ((scr1 V c (16 * bh.val + 4 * qi + 3 + 1)).2.1 (ix2 r (0 : Fin 1))) = _
  rw [hacc d, hl]
  rfl

/-- The same against the specification: when the three arrays hold the queries, keys and values of the
    specification by head, and the inputs are real, the stored entry is the specification's head output. -/
theorem out1_heads (x : Cert.Spec.X) (w : Cert.Spec.WIn) (b : Cert.Spec.BIn)
    (hx : Cert.LibReal.RealVec x) (hw : Cert.LibReal.RealVec w) (hb : Cert.LibReal.RealVec b) (c : Dev nD)
    (hQ : ∀ (n : Fin 4) (h : Fin 16) (s : Fin 2048) (j : Fin 64), V c main_v8 (ix3 ⟨16 * n.val + h.val, by omega⟩ s j) = Cert.Spec.q x w b n h s j)
    (hK : ∀ (n : Fin 4) (h : Fin 16) (s : Fin 2048) (j : Fin 64), V c main_v11 (ix3 ⟨16 * n.val + h.val, by omega⟩ s j) = Cert.Spec.k x w b n h s j)
    (hV : ∀ (n : Fin 4) (h : Fin 16) (s : Fin 2048) (j : Fin 64), V c main_v14 (ix3 ⟨16 * n.val + h.val, by omega⟩ s j) = Cert.Spec.v x w b n h s j)
    (n : Fin 4) (h : Fin 16) (qi : ℕ) (hq : qi < 4) (u : Fin 1) (r : Fin 512) (d : Fin 64) :
    out1_3 V c (pt ⟨16 * n.val + h.val, by omega⟩ qi 3 hq (by omega)) (ix3 u r d) = Cert.Spec.heads x w b n h (qrow qi hq r) d := by
  rw [out1_row]
  have hs : sc1 (V c main_v8) (V c main_v11) ⟨16 * n.val + h.val, by omega⟩ (qrow qi hq r) = fun j => Cert.Spec.score x w b n h (qrow qi hq r) j := by
    funext j
    rw [← Cert.OnlineAttn.score_scaled]
    unfold sc1 Cert.Spec.dots
    simp only [hQ, hK]
  have hv : val1 (V c main_v14) ⟨16 * n.val + h.val, by omega⟩ = fun j d => Cert.Spec.v x w b n h j d := by
    funext j d
    exact hV n h j d
  rw [hs, hv]
  exact Cert.OnlineAttn.heads_eq x w b hx hw hb n h (qrow qi hq r) d qi (by show 512 * qi ≤ 512 * qi + r.val; omega) (by show 512 * qi + r.val < 512 * (qi + 1); omega)

/-! ## The output array -/

/-- THE OUTPUT ARRAY OF THE REGION against the specification: when the three arrays the region reads hold the queries,
    keys and values of the specification by head, and the inputs are real, entry (16·n + h, i, d) of the array the
    region leaves is the specification's output of head h of batch n at query i, feature d. (Query i is row i % 512 of
    query tile i / 512, whose last point stores its block and writes it back.) -/
theorem arr1_heads (x : Cert.Spec.X) (w : Cert.Spec.WIn) (b : Cert.Spec.BIn)
    (hx : Cert.LibReal.RealVec x) (hw : Cert.LibReal.RealVec w) (hb : Cert.LibReal.RealVec b) (c : Dev nD)
    (hQ : ∀ (n : Fin 4) (h : Fin 16) (s : Fin 2048) (j : Fin 64), V c main_v8 (ix3 ⟨16 * n.val + h.val, by omega⟩ s j) = Cert.Spec.q x w b n h s j)
    (hK : ∀ (n : Fin 4) (h : Fin 16) (s : Fin 2048) (j : Fin 64), V c main_v11 (ix3 ⟨16 * n.val + h.val, by omega⟩ s j) = Cert.Spec.k x w b n h s j)
    (hV : ∀ (n : Fin 4) (h : Fin 16) (s : Fin 2048) (j : Fin 64), V c main_v14 (ix3 ⟨16 * n.val + h.val, by omega⟩ s j) = Cert.Spec.v x w b n h s j)
    (n : Fin 4) (h : Fin 16) (i : Fin 2048) (d : Fin 64) :
    (dat1 (F := Ideal) V c).arrAt 3 cfg1.N (ix3 ⟨16 * n.val + h.val, by omega⟩ i d) = Cert.Spec.heads x w b n h i d := by
  have hi : i.val < 2048 := i.isLt
  have hq : i.val / 512 < 4 := by omega
  have ei : i = qrow (i.val / 512) hq ⟨i.val % 512, by omega⟩ := Fin.ext (by show i.val = 512 * (i.val / 512) + i.val % 512; omega)
  rw [ei]
  refine (arr1_3 V c ⟨16 * n.val + h.val, by omega⟩ ⟨i.val / 512, hq⟩ ⟨i.val % 512, by omega⟩ d).trans ?_
  exact out1_heads V x w b hx hw hb c hQ hK hV n h (i.val / 512) hq (0 : Fin 1) ⟨i.val % 512, by omega⟩ d

end Cert.KernelIdeal.Hand

end
-- ==== Proof.KIValue2.lean ====
import proofs.«125597_j3710851744401_2_alg».proof.Proof.KIRegion2
import proofs.«125597_j3710851744401_2_alg».proof.Proof.LibLayout
import Idealize.ShloMosaic.Lib.Pipeline.Value
import Idealize.ShloMosaic.Lib.ValueIdx
import Idealize.ShloMosaic.Lib.ValueLayout
import Idealize.ShloMosaic.PureOps.Ideal.Laws

/-! # Region 2 of @main on the extended reals: the array the output projection leaves

On the extended reals the body's value at entry (p, q) of a block is the sum over the contraction index of the products
of row p of the activation block with row q of the weight matrix, plus the bias row at q; the activation blocks are
restrictions of the whole array, the weight matrix and the bias row are whole, the output's blocks tile its array, so
the array the region leaves is one function of the three arrays it reads, entry by entry. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's payload at an index -/

theorem dot2_lhs0 (j : S512x1024.Idx) (k : dot_S512x1024_S1024x1024_S512x1024_1_1_0_0_n_n.contr.Idx) :
    (dot_S512x1024_S1024x1024_S512x1024_1_1_0_0_n_n.lhsIdx j k 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem dot2_rhs0 (j : S512x1024.Idx) (k : dot_S512x1024_S1024x1024_S512x1024_1_1_0_0_n_n.contr.Idx) :
    (dot_S512x1024_S1024x1024_S512x1024_1_1_0_0_n_n.rhsIdx j k 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- Entry (p, q) of the body's value: row p of the activation block against row q of the weight block, plus the bias
    row at q. (The format change is the identity on the extended reals; the product is accumulated into zero.) -/
theorem pay2_apply (x0 : Vec Ideal S512x1024 .bf16) (x1 : Vec Ideal S1024x1024 .f32) (x2 : Vec Ideal S1x1024 .f32) (p : Fin 512) (q : Fin 1024) :
    k2_pay1 x0 x1 x2 (ix2 p q) = (∑ d : Fin 1024, x0 (ix2 p d) * x1 (ix2 q d)) + x2 (ix2 (0 : Fin 1) q) := by
  have e1 := Cert.LibLayout.matmul_rows_rows_apply (M := 512) (K := 1024) (N := 1024) (φ₁ := .bf16) (φ₂ := .bf16) dot_S512x1024_S1024x1024_S512x1024_1_1_0_0_n_n rfl rfl rfl rfl dot2_lhs0 dot2_rhs0 none
    (shapeCast S512x1024 x0 shapeCasts_S512x1024_S512x1024) (truncf .bf16 x1 bitsLt_bf16_f32) p q
  have e2 : broadcastTo S512x1024 (shapeCast S1x1024 x2 shapeCasts_S1x1024_S1x1024) broadcasts_S1x1024_S512x1024 (ix2 p q) = x2 (ix2 (0 : Fin 1) q) := by
    rw [shapeCast_self]; exact broadcastTo_1b_ab_apply _ _ p q
  refine (congrArg₂ (· + ·) e1 e2).trans ?_
  simp only [truncf_apply, shapeCast_self]

/-! ## What the output array ends holding -/

/-- The linear layer as ONE function of the three arrays the region reads: entry (r, e) is row r of the activations
    against row e of the weights, plus the bias at e. -/
def G2 (a0 : S8192x1024.Idx → EReal) (a1 : S1024x1024.Idx → EReal) (a2 : S1x1024.Idx → EReal) : S8192x1024.Idx → EReal :=
  fun i => (∑ d : Fin 1024, a0 (ix2 (i 0) d) * a1 (ix2 (i 1) d)) + a2 (ix2 (0 : Fin 1) (i 1))

theorem hz2 : (![0, 0] : Fin 2 → Nat) = fun _ => 0 := funext fun a => by fin_cases a <;> rfl

/-- The printed index maps, decided over the 16 grid points: the activation block moves with the output's row block,
    the weight block and the bias block with the output's column block, and the output's column block index is 0. -/
theorem idx_facts2 : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 15 ∧ win2_3.index t (1 : Fin 2) ≤ 0 :=
  (by decide +kernel : ∀ t : Fin grid2.N, _)

/-- Every block of the output array is some point's. -/
theorem idx_onto2 : ∀ (q0 : Fin 16) (q1 : Fin 1), ∃ t : Fin cfg2.N, win2_3.index t = ![q0.val, q1.val] :=
  (by decide +kernel : ∀ (q0 : Fin 16) (q1 : Fin 1), ∃ t : Fin grid2.N, win2_3.index t = ![q0.val, q1.val])

/-- Block t of G2, entry (p, q), from the blocks of the three arrays at t: the blocks are restrictions of the arrays,
    the activation block on the output's rows, the weight and bias blocks on the output's columns. -/
theorem G2_blk (A0 : S8192x1024.Idx → EReal) (A1 : S1024x1024.Idx → EReal) (A2 : S1x1024.Idx → EReal) (t : Fin cfg2.N) (p : Fin 512) (q : Fin 1024) :
    (∑ d : Fin 1024, A0 (((cfg2.win 0).blk t).view.emb (ix2 p d)) * A1 (((cfg2.win 1).blk t).view.emb (ix2 q d)))
      + A2 (((cfg2.win 2).blk t).view.emb (ix2 (0 : Fin 1) q))
    = G2 A0 A1 A2 (((cfg2.win 3).blk t).view.emb (ix2 p q)) := by
  obtain ⟨e0, e1, e2, e3, e4, e5, e6, e7⟩ := idx_facts2 t
  have hp : p.val < 512 := p.isLt
  have hq : q.val < 1024 := q.isLt
  have h0 : ∀ d : Fin 1024, ((cfg2.win 0).blk t).view.emb (ix2 p d) = ix2 ((((cfg2.win 3).blk t).view.emb (ix2 p q)) 0) d := fun d => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * d.val = d.val; omega
  have h1 : ∀ d : Fin 1024, ((cfg2.win 1).blk t).view.emb (ix2 q d) = ix2 ((((cfg2.win 3).blk t).view.emb (ix2 p q)) 1) d := fun d => by
    funext a; apply Fin.ext
    match a with
    | ⟨0, _⟩ => show win2_1.index t (0 : Fin 2) * 1024 + 1 * q.val = win2_3.index t (1 : Fin 2) * 1024 + 1 * q.val; omega
    | ⟨1, _⟩ => show win2_1.index t (1 : Fin 2) * 1024 + 1 * d.val = d.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  unfold G2
  refine congrArg₂ (· + ·) (Finset.sum_congr rfl fun d _ => ?_) (congrArg A2 h2)
  rw [h0 d, h1 d]
  rfl

/-- G2 at entry (r, e). -/
theorem G2_apply (A0 : S8192x1024.Idx → EReal) (A1 : S1024x1024.Idx → EReal) (A2 : S1x1024.Idx → EReal) (r : Fin 8192) (e : Fin 1024) :
    G2 A0 A1 A2 (ix2 r e) = (∑ d : Fin 1024, A0 (ix2 r d) * A1 (ix2 e d)) + A2 (ix2 (0 : Fin 1) e) := rfl

variable (V : (c : Dev nD) → (b : Ref sig .tc) → Buf (Elt Ideal) ((c : Thread nD τ).loc b))

/-- What point t writes back is block t of G2 of the arrays as the region finds them. -/
theorem flushed2_3_eq (c : Dev nD) (t : Fin cfg2.N) :
    (dat2 (F := Ideal) V c).flushed 3 t = ((cfg2.win 3).blk t).view.read (Elt Ideal) (G2 (V c main_v18) (V c main_arg3) (V c main_v19)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  funext j
  obtain ⟨p, q, rfl⟩ : ∃ (p : Fin 512) (q : Fin 1024), j = ix2 p q := ⟨j 0, j 1, eq_ix2 j⟩
  refine (pay2_apply (iblk2 V c 0 t) (iblk2 V c 1 t) (iblk2 V c 2 t) p q).trans ?_
  exact G2_blk (V c main_v18) (V c main_arg3) (V c main_v19) t p q

/-- An index of the array is in point t's block iff each coordinate is in the block's range on its axis. -/
theorem mem_blk2_3 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v20).slice (win2_3.rect t)).set ↔ _
  rw [View.set_slice_whole, Rect.mem_set_unit]
  exact Iff.rfl

/-- The output's blocks tile its array: entry (i0, i1) is in the block of the point with row block i0 / 512 and
    column block i1 / 1024. -/
theorem cover2_3_arr (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk2_3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array after the region: the linear layer of the arrays as the region finds them. -/
theorem final2_3 (c : Dev nD) : (dat2 (F := Ideal) V c).arrAt 3 cfg2.N = G2 (V c main_v18) (V c main_arg3) (V c main_v19) :=
  (dat2 V c).arrAt_eq_of_cover 3 (G2 (V c main_v18) (V c main_arg3) (V c main_v19)) (fun t _ => flushed2_3_eq V c t) cover2_3_arr

/-- The same, entry by entry (`G2_apply` spells the entry out). -/
theorem arr2_3 (c : Dev nD) (r : Fin 8192) (e : Fin 1024) :
    (dat2 (F := Ideal) V c).arrAt 3 cfg2.N (ix2 r e) = G2 (V c main_v18) (V c main_arg3) (V c main_v19) (ix2 r e) := by
  rw [final2_3]

/-- The arrays the region only reads come back as entered. -/
theorem arr2_in0 (c : Dev nD) : (dat2 (F := Ideal) V c).arrAt 0 cfg2.N = V c (Pipeline.arrRef spec2 0) :=
  ((dat2 V c).arrAt_in 0 rfl _).trans (A_eq2 V c 0)
theorem arr2_in1 (c : Dev nD) : (dat2 (F := Ideal) V c).arrAt 1 cfg2.N = V c (Pipeline.arrRef spec2 1) :=
  ((dat2 V c).arrAt_in 1 rfl _).trans (A_eq2 V c 1)
theorem arr2_in2 (c : Dev nD) : (dat2 (F := Ideal) V c).arrAt 2 cfg2.N = V c (Pipeline.arrRef spec2 2) :=
  ((dat2 V c).arrAt_in 2 rfl _).trans (A_eq2 V c 2)

end Cert.KernelIdeal.Hand

end
-- ==== Proof.Assemble.lean ====
/-
  The arrays between the three parts of the computation, put together: a row-major projection of the
  flattened input is the specification's input projection; the head split of its columns gives the
  queries, keys and values by head; the heads' outputs laid side by side, projected again and regrouped
  are the specification's result. Everything here is index arithmetic: row `r = 2048 n + s` of a
  flattened array is position `s` of batch `n`, head row `bh = 16 n + h` is head `h` of batch `n`, and
  column `c = 64 h + j` of the merged heads is feature `j` of head `h`.
-/
import proofs.«125597_j3710851744401_2_alg».proof.Proof.Spec

noncomputable section

namespace Cert.Assemble

open Idealize.ShloMosaic Idealize.ShloMosaic.ValueIdx

/-- A matrix of extended reals. -/
abbrev Arr2 (a b : ℕ) : Type := (⟨2, ![a, b]⟩ : Shape).Idx → EReal
/-- A rank-3 array of extended reals. -/
abbrev Arr3 (a b c : ℕ) : Type := (⟨3, ![a, b, c]⟩ : Shape).Idx → EReal

/-- Two matrix indices with equal coordinates are equal. -/
theorem ix2_congr {n0 n1 : ℕ} {a a' : Fin n0} {b b' : Fin n1} (ha : a.val = a'.val) (hb : b.val = b'.val) :
    ix2 a b = ix2 a' b' := by rw [Fin.ext ha, Fin.ext hb]

/-- Two rank-3 indices with equal coordinates are equal. -/
theorem ix3_congr {n0 n1 n2 : ℕ} {a a' : Fin n0} {b b' : Fin n1} {c c' : Fin n2} (ha : a.val = a'.val)
    (hb : b.val = b'.val) (hc : c.val = c'.val) : ix3 a b c = ix3 a' b' c' := by
  rw [Fin.ext ha, Fin.ext hb, Fin.ext hc]

variable (x : Spec.X) (w : Spec.WIn) (b : Spec.BIn)

/-! ## The input projection -/

/-- The projection of the flattened input, row `2048 n + s`, is the specification's at `(n, s)`. -/
theorem qkv_stage (v0 : Arr2 8192 1024)
    (h0 : ∀ (r : Fin 8192) (d : Fin 1024),
      v0 (ix2 r d) = x (ix3 (⟨r.val / 2048, by have := r.isLt; omega⟩ : Fin 4) (⟨r.val % 2048, by omega⟩ : Fin 2048) d))
    (v1 : Arr2 1 3072) (h1 : ∀ e : Fin 3072, v1 (ix2 (0 : Fin 1) e) = b (ix1 e))
    (v2 : Arr2 8192 3072)
    (h2 : ∀ (r : Fin 8192) (e : Fin 3072),
      v2 (ix2 r e) = (∑ d : Fin 1024, v0 (ix2 r d) * w (ix2 e d)) + v1 (ix2 (0 : Fin 1) e))
    (n : Fin 4) (s : Fin 2048) (e : Fin 3072) :
    v2 (ix2 (⟨2048 * n.val + s.val, by omega⟩ : Fin 8192) e) = Spec.qkv x w b n s e := by
  have hn := n.isLt; have hs := s.isLt
  rw [h2, h1]
  unfold Spec.qkv
  congr 1
  refine Finset.sum_congr rfl fun d _ => ?_
  rw [h0]
  congr 1
  exact congrArg x (ix3_congr (by show (2048 * n.val + s.val) / 2048 = n.val; omega)
    (by show (2048 * n.val + s.val) % 2048 = s.val; omega) rfl)

/-! ## The split into heads -/

section Heads

variable (v2 : Arr2 8192 3072)
  (hqkv : ∀ (n : Fin 4) (s : Fin 2048) (e : Fin 3072),
    v2 (ix2 (⟨2048 * n.val + s.val, by omega⟩ : Fin 8192) e) = Spec.qkv x w b n s e)

include hqkv

/-- Head row `16 n + h` of the queries. -/
theorem q_of_split (Q : Arr3 64 2048 64)
    (hQ : ∀ (bh : Fin 64) (s : Fin 2048) (j : Fin 64),
      Q (ix3 bh s j) = v2 (ix2 (⟨2048 * (bh.val / 16) + s.val, by omega⟩ : Fin 8192)
        (⟨64 * (bh.val % 16) + j.val, by omega⟩ : Fin 3072)))
    (n : Fin 4) (h : Fin 16) (s : Fin 2048) (j : Fin 64) :
    Q (ix3 (⟨16 * n.val + h.val, by omega⟩ : Fin 64) s j) = Spec.q x w b n h s j := by
  have hn := n.isLt; have hh := h.isLt; have hs := s.isLt; have hj := j.isLt
  rw [hQ]
  unfold Spec.q
  refine (congrArg v2 (ix2_congr ?_ ?_)).trans (hqkv n s (Spec.colQ h j))
  · show 2048 * ((16 * n.val + h.val) / 16) + s.val = 2048 * n.val + s.val; omega
  · show 64 * ((16 * n.val + h.val) % 16) + j.val = 64 * h.val + j.val; omega

/-- Head row `16 n + h` of the keys. -/
theorem k_of_split (K : Arr3 64 2048 64)
    (hK : ∀ (bh : Fin 64) (s : Fin 2048) (j : Fin 64),
      K (ix3 bh s j) = v2 (ix2 (⟨2048 * (bh.val / 16) + s.val, by omega⟩ : Fin 8192)
        (⟨1024 + (64 * (bh.val % 16) + j.val), by omega⟩ : Fin 3072)))
    (n : Fin 4) (h : Fin 16) (s : Fin 2048) (j : Fin 64) :
    K (ix3 (⟨16 * n.val + h.val, by omega⟩ : Fin 64) s j) = Spec.k x w b n h s j := by
  have hn := n.isLt; have hh := h.isLt; have hs := s.isLt; have hj := j.isLt
  rw [hK]
  unfold Spec.k
  refine (congrArg v2 (ix2_congr ?_ ?_)).trans (hqkv n s (Spec.colK h j))
  · show 2048 * ((16 * n.val + h.val) / 16) + s.val = 2048 * n.val + s.val; omega
  · show 1024 + (64 * ((16 * n.val + h.val) % 16) + j.val) = 1024 + (64 * h.val + j.val); omega

/-- Head row `16 n + h` of the values. -/
theorem v_of_split (V : Arr3 64 2048 64)
    (hV : ∀ (bh : Fin 64) (s : Fin 2048) (j : Fin 64),
      V (ix3 bh s j) = v2 (ix2 (⟨2048 * (bh.val / 16) + s.val, by omega⟩ : Fin 8192)
        (⟨2048 + (64 * (bh.val % 16) + j.val), by omega⟩ : Fin 3072)))
    (n : Fin 4) (h : Fin 16) (s : Fin 2048) (j : Fin 64) :
    V (ix3 (⟨16 * n.val + h.val, by omega⟩ : Fin 64) s j) = Spec.v x w b n h s j := by
  have hn := n.isLt; have hh := h.isLt; have hs := s.isLt; have hj := j.isLt
  rw [hV]
  unfold Spec.v
  refine (congrArg v2 (ix2_congr ?_ ?_)).trans (hqkv n s (Spec.colV h j))
  · show 2048 * ((16 * n.val + h.val) / 16) + s.val = 2048 * n.val + s.val; omega
  · show 2048 + (64 * ((16 * n.val + h.val) % 16) + j.val) = 2048 + (64 * h.val + j.val); omega

end Heads

section FromInputs

variable (v0 : Arr2 8192 1024)
  (h0 : ∀ (r : Fin 8192) (d : Fin 1024),
    v0 (ix2 r d) = x (ix3 (⟨r.val / 2048, by have := r.isLt; omega⟩ : Fin 4) (⟨r.val % 2048, by omega⟩ : Fin 2048) d))
  (v1 : Arr2 1 3072) (h1 : ∀ e : Fin 3072, v1 (ix2 (0 : Fin 1) e) = b (ix1 e))
  (v2 : Arr2 8192 3072)
  (h2 : ∀ (r : Fin 8192) (e : Fin 3072),
    v2 (ix2 r e) = (∑ d : Fin 1024, v0 (ix2 r d) * w (ix2 e d)) + v1 (ix2 (0 : Fin 1) e))

include h0 h1 h2

/-- The queries by head from the flattened input, the bias row and the first projection. -/
theorem q_stage (Q : Arr3 64 2048 64)
    (hQ : ∀ (bh : Fin 64) (s : Fin 2048) (j : Fin 64),
      Q (ix3 bh s j) = v2 (ix2 (⟨2048 * (bh.val / 16) + s.val, by omega⟩ : Fin 8192)
        (⟨64 * (bh.val % 16) + j.val, by omega⟩ : Fin 3072)))
    (n : Fin 4) (h : Fin 16) (s : Fin 2048) (j : Fin 64) :
    Q (ix3 (⟨16 * n.val + h.val, by omega⟩ : Fin 64) s j) = Spec.q x w b n h s j :=
  q_of_split x w b v2 (qkv_stage x w b v0 h0 v1 h1 v2 h2) Q hQ n h s j

/-- The keys by head from the flattened input, the bias row and the first projection. -/
theorem k_stage (K : Arr3 64 2048 64)
    (hK : ∀ (bh : Fin 64) (s : Fin 2048) (j : Fin 64),
      K (ix3 bh s j) = v2 (ix2 (⟨2048 * (bh.val / 16) + s.val, by omega⟩ : Fin 8192)
        (⟨1024 + (64 * (bh.val % 16) + j.val), by omega⟩ : Fin 3072)))
    (n : Fin 4) (h : Fin 16) (s : Fin 2048) (j : Fin 64) :
    K (ix3 (⟨16 * n.val + h.val, by omega⟩ : Fin 64) s j) = Spec.k x w b n h s j :=
  k_of_split x w b v2 (qkv_stage x w b v0 h0 v1 h1 v2 h2) K hK n h s j

/-- The values by head from the flattened input, the bias row and the first projection. -/
theorem v_stage (V : Arr3 64 2048 64)
    (hV : ∀ (bh : Fin 64) (s : Fin 2048) (j : Fin 64),
      V (ix3 bh s j) = v2 (ix2 (⟨2048 * (bh.val / 16) + s.val, by omega⟩ : Fin 8192)
        (⟨2048 + (64 * (bh.val % 16) + j.val), by omega⟩ : Fin 3072)))
    (n : Fin 4) (h : Fin 16) (s : Fin 2048) (j : Fin 64) :
    V (ix3 (⟨16 * n.val + h.val, by omega⟩ : Fin 64) s j) = Spec.v x w b n h s j :=
  v_of_split x w b v2 (qkv_stage x w b v0 h0 v1 h1 v2 h2) V hV n h s j

end FromInputs

/-! ## The merge of the heads and the output projection -/

/-- The heads' outputs laid side by side, row `2048 n + s`, column `c`. -/
theorem merged_stage (o : Arr3 64 2048 64)
    (ho : ∀ (n : Fin 4) (h : Fin 16) (i : Fin 2048) (d : Fin 64),
      o (ix3 (⟨16 * n.val + h.val, by omega⟩ : Fin 64) i d) = Spec.heads x w b n h i d)
    (v18 : Arr2 8192 1024)
    (h18 : ∀ (r : Fin 8192) (c : Fin 1024),
      v18 (ix2 r c) = o (ix3 (⟨16 * (r.val / 2048) + c.val / 64, by have := r.isLt; omega⟩ : Fin 64)
        (⟨r.val % 2048, by omega⟩ : Fin 2048) (⟨c.val % 64, by omega⟩ : Fin 64)))
    (n : Fin 4) (s : Fin 2048) (c : Fin 1024) :
    v18 (ix2 (⟨2048 * n.val + s.val, by omega⟩ : Fin 8192) c) = Spec.merged x w b n s c := by
  have hn := n.isLt; have hs := s.isLt; have hc := c.isLt
  rw [h18]
  unfold Spec.merged
  refine (congrArg o (ix3_congr ?_ ?_ rfl)).trans
    (ho n (⟨c.val / 64, by omega⟩ : Fin 16) s (⟨c.val % 64, by omega⟩ : Fin 64))
  · show 16 * ((2048 * n.val + s.val) / 2048) + c.val / 64 = 16 * n.val + c.val / 64; omega
  · show (2048 * n.val + s.val) % 2048 = s.val; omega

variable (wo : Spec.WOut) (bo : Spec.BOut)

/-- The output projection of the merged heads, row `2048 n + s`. -/
theorem out_stage (v18 : Arr2 8192 1024)
    (hm : ∀ (n : Fin 4) (s : Fin 2048) (c : Fin 1024),
      v18 (ix2 (⟨2048 * n.val + s.val, by omega⟩ : Fin 8192) c) = Spec.merged x w b n s c)
    (v19 : Arr2 1 1024) (h19 : ∀ e : Fin 1024, v19 (ix2 (0 : Fin 1) e) = bo (ix1 e))
    (v20 : Arr2 8192 1024)
    (h20 : ∀ (r : Fin 8192) (e : Fin 1024),
      v20 (ix2 r e) = (∑ c : Fin 1024, v18 (ix2 r c) * wo (ix2 e c)) + v19 (ix2 (0 : Fin 1) e))
    (n : Fin 4) (s : Fin 2048) (e : Fin 1024) :
    v20 (ix2 (⟨2048 * n.val + s.val, by omega⟩ : Fin 8192) e) = Spec.out x w b wo bo n s e := by
  rw [h20, h19]
  unfold Spec.out
  congr 1
  exact Finset.sum_congr rfl fun c _ => by rw [hm]

/-! ## The whole -/

/-- Once the middle part's output is the specification's heads, the head merge, the output projection and
    the regrouping end with the specification. -/
theorem kernel_is_G
    (o : Arr3 64 2048 64)
    (ho : ∀ (n : Fin 4) (h : Fin 16) (i : Fin 2048) (d : Fin 64),
      o (ix3 (⟨16 * n.val + h.val, by omega⟩ : Fin 64) i d) = Spec.heads x w b n h i d)
    (v18 : Arr2 8192 1024)
    (h18 : ∀ (r : Fin 8192) (c : Fin 1024),
      v18 (ix2 r c) = o (ix3 (⟨16 * (r.val / 2048) + c.val / 64, by have := r.isLt; omega⟩ : Fin 64)
        (⟨r.val % 2048, by omega⟩ : Fin 2048) (⟨c.val % 64, by omega⟩ : Fin 64)))
    (v19 : Arr2 1 1024) (h19 : ∀ e : Fin 1024, v19 (ix2 (0 : Fin 1) e) = bo (ix1 e))
    (v20 : Arr2 8192 1024)
    (h20 : ∀ (r : Fin 8192) (e : Fin 1024),
      v20 (ix2 r e) = (∑ c : Fin 1024, v18 (ix2 r c) * wo (ix2 e c)) + v19 (ix2 (0 : Fin 1) e))
    (v21 : Arr3 4 2048 1024)
    (h21 : ∀ (n : Fin 4) (s : Fin 2048) (e : Fin 1024),
      v21 (ix3 n s e) = v20 (ix2 (⟨2048 * n.val + s.val, by omega⟩ : Fin 8192) e)) :
    v21 = Spec.G x w b wo bo := by
  funext i
  obtain ⟨n, s, e, rfl⟩ : ∃ (n : Fin 4) (s : Fin 2048) (e : Fin 1024), i = ix3 n s e := ⟨i 0, i 1, i 2, eq_ix3 i⟩
  rw [h21, out_stage x w b wo bo v18 (merged_stage x w b o ho v18 h18) v19 h19 v20 h20]
  rfl

end Cert.Assemble

end
-- ==== Proof.Finite.lean ====
/-
  From the precondition to real numbers: the precondition tests every entry of the five argument arrays
  for `|x| < +∞` and takes the conjunction of all the tests; where it holds, every entry is a real number.
-/
import proofs.«125597_j3710851744401_2_alg».proof.Defs
import proofs.«125597_j3710851744401_2_alg».proof.Proof.LibReal
import Idealize.ShloMosaic.Lib.ReduceAll
import Idealize.ShloMosaic.Lib.Affine

noncomputable section

namespace Cert.Finite

open Idealize.ShloMosaic Cert.LibReal Cert.Pre_finite_inputs

instance : Subsingleton S_.Idx := ⟨fun a b => funext fun d => d.elim0⟩

theorem real_of_finite_inputs [Facts] (a0 : FVec Ideal S4x2048x1024 .f32) (a1 : FVec Ideal S3072x1024 .f32)
    (a2 : FVec Ideal S3072 .f32) (a3 : FVec Ideal S1024x1024 .f32) (a4 : FVec Ideal S1024 .f32)
    (h : fn (F := Ideal) a0 a1 a2 a3 a4 = fun _ => 1#1) :
    RealVec a0 ∧ RealVec a1 ∧ RealVec a2 ∧ RealVec a3 ∧ RealVec a4 := by
  have h0 := congrFun h ValueIdx.ix0
  dsimp only [fn, fn_part1] at h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  refine ⟨realVec_of_finite_test a0 fun i => Host.reduce_andi_all _ _ _ _ _ e0 i,
    realVec_of_finite_test a1 fun i => Host.reduce_andi_all _ _ _ _ _ e1 i,
    realVec_of_finite_test a2 fun i => Host.reduce_andi_all _ _ _ _ _ e2 i,
    realVec_of_finite_test a3 fun i => Host.reduce_andi_all _ _ _ _ _ e3 i,
    realVec_of_finite_test a4 fun i => Host.reduce_andi_all _ _ _ _ _ e4 i⟩

open Idealize.SL.Sem in
/-- Under the kernel's precondition the five argument buffers of every device hold real numbers. -/
theorem real_args [Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    RealVec (s := S4x2048x1024) (φ := .f32) (m ((c.tc : Thread Cert.KernelIdeal.nD Cert.KernelIdeal.τ).loc Cert.KernelIdeal.main_arg0))
    ∧ RealVec (s := S3072x1024) (φ := .f32) (m ((c.tc : Thread Cert.KernelIdeal.nD Cert.KernelIdeal.τ).loc Cert.KernelIdeal.main_arg1))
    ∧ RealVec (s := S3072) (φ := .f32) (m ((c.tc : Thread Cert.KernelIdeal.nD Cert.KernelIdeal.τ).loc Cert.KernelIdeal.main_arg2))
    ∧ RealVec (s := S1024x1024) (φ := .f32) (m ((c.tc : Thread Cert.KernelIdeal.nD Cert.KernelIdeal.τ).loc Cert.KernelIdeal.main_arg3))
    ∧ RealVec (s := S1024) (φ := .f32) (m ((c.tc : Thread Cert.KernelIdeal.nD Cert.KernelIdeal.τ).loc Cert.KernelIdeal.main_arg4)) :=
  real_of_finite_inputs _ _ _ _ _ (hpre c)

end Cert.Finite

end
-- ==== Proof.KIValue.lean ====
/-
  The value the whole program leaves in its result: the three parts' arrays, read at an index through the
  re-layouts between them, are the stages of the specification, so the result is the specification of
  the five argument arrays. The first and last parts are linear layers read off their output arrays; the
  middle part's output is the specification's heads because its three inputs are the queries, keys and values
  by head; the argument arrays are real under the precondition.
-/
import proofs.«125597_j3710851744401_2_alg».proof.Proof.KIRun
import proofs.«125597_j3710851744401_2_alg».proof.Proof.KIHost
import proofs.«125597_j3710851744401_2_alg».proof.Proof.KIValue0
import proofs.«125597_j3710851744401_2_alg».proof.Proof.KIValue1
import proofs.«125597_j3710851744401_2_alg».proof.Proof.KIValue2
import proofs.«125597_j3710851744401_2_alg».proof.Proof.Assemble
import proofs.«125597_j3710851744401_2_alg».proof.Proof.Finite

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.LibReal

variable (m : (ℓ : Loc nD τ sig) → Buf (Elt Ideal) ℓ) (ρ : Dev nD → PrngReg)

/-! ## The argument arrays, wherever a part reads them, are the launch's -/

theorem W1_arg1 (c : Dev nD) : W1 (F := Ideal) m ρ c (Proc.devRef .tc main_arg1) = m ((c.tc : Thread nD τ).loc main_arg1) :=
  (W1_keep m ρ c main_arg1 (by decide)).trans rfl

theorem W4_arg4 (c : Dev nD) : W4 (F := Ideal) m ρ c (Proc.devRef .tc main_arg4) = m ((c.tc : Thread nD τ).loc main_arg4) :=
  (W4_of_ne m ρ c main_arg4 (by decide)).trans <| (W3_keep m ρ c main_arg4 (by decide)).trans <|
    (W2_of_ne m ρ c main_arg4 (by decide)).trans <| (W1_keep m ρ c main_arg4 (by decide)).trans rfl

theorem W5_arg3 (c : Dev nD) : W5 (F := Ideal) m ρ c (Proc.devRef .tc main_arg3) = m ((c.tc : Thread nD τ).loc main_arg3) :=
  (W5_keep m ρ c main_arg3 (by decide)).trans <| (W4_of_ne m ρ c main_arg3 (by decide)).trans <|
    (W3_keep m ρ c main_arg3 (by decide)).trans <| (W2_of_ne m ρ c main_arg3 (by decide)).trans <|
    (W1_keep m ρ c main_arg3 (by decide)).trans rfl

/-! ## The arrays between the parts, at an index -/

/-- A buffer of extended reals as a plain function of its index. -/
abbrev arr {S : Shape} (f : S.Idx → EReal) : S.Idx → EReal := f

/-- The flattened input. -/
theorem v0_at (c : Dev nD) (r : Fin 8192) (d : Fin 1024) :
    (W1 (F := Ideal) m ρ c (Proc.devRef .tc main_v0) : S8192x1024.Idx → EReal) (ix2 r d)
      = (m ((c.tc : Thread nD τ).loc main_arg0) : S4x2048x1024.Idx → EReal)
          (ix3 (⟨r.val / 2048, by have := r.isLt; omega⟩ : Fin 4) (⟨r.val % 2048, by omega⟩ : Fin 2048) d) :=
  host0_v0 (W0 m ρ c) r d

/-- The first bias as a row. -/
theorem v1_at (c : Dev nD) (e : Fin 3072) :
    (W1 (F := Ideal) m ρ c (Proc.devRef .tc main_v1) : S1x3072.Idx → EReal) (ix2 (0 : Fin 1) e)
      = (m ((c.tc : Thread nD τ).loc main_arg2) : S3072.Idx → EReal) (ix1 e) :=
  host0_v1 (W0 m ρ c) e

/-- The first linear layer's output. -/
theorem v2_at (c : Dev nD) (r : Fin 8192) (e : Fin 3072) :
    (W2 (F := Ideal) m ρ c (Proc.devRef .tc main_v2) : S8192x3072.Idx → EReal) (ix2 r e)
      = (∑ d : Fin 1024, arr (S := S8192x1024) (W1 (F := Ideal) m ρ c (Proc.devRef .tc main_v0)) (ix2 r d)
            * arr (S := S3072x1024) (m ((c.tc : Thread nD τ).loc main_arg1)) (ix2 e d))
        + arr (S := S1x3072) (W1 (F := Ideal) m ρ c (Proc.devRef .tc main_v1)) (ix2 (0 : Fin 1) e) := by
  have e1 : (W2 (F := Ideal) m ρ c (Proc.devRef .tc main_v2) : S8192x3072.Idx → EReal)
      = G0 (V1 m ρ c main_v0) (V1 m ρ c main_arg1) (V1 m ρ c main_v1) :=
    (W2_arr m ρ c 3).trans (final0_3 (V1 m ρ) c)
  have e2 : (V1 (F := Ideal) m ρ c main_arg1 : S3072x1024.Idx → EReal) = m ((c.tc : Thread nD τ).loc main_arg1) :=
    W1_arg1 m ρ c
  exact (congrFun e1 (ix2 r e)).trans
    (congrFun (congrArg (fun A1 : S3072x1024.Idx → EReal => G0 (V1 m ρ c main_v0) A1 (V1 m ρ c main_v1)) e2) (ix2 r e))

/-- The queries by head, as the middle part finds them. -/
theorem v8_at (c : Dev nD) (bh : Fin 64) (s : Fin 2048) (j : Fin 64) :
    (W3 (F := Ideal) m ρ c (Proc.devRef .tc main_v8) : S64x2048x64.Idx → EReal) (ix3 bh s j)
      = (W2 (F := Ideal) m ρ c (Proc.devRef .tc main_v2) : S8192x3072.Idx → EReal)
          (ix2 (⟨2048 * (bh.val / 16) + s.val, by omega⟩ : Fin 8192) (⟨64 * (bh.val % 16) + j.val, by omega⟩ : Fin 3072)) :=
  host1_v8 (W2 m ρ c) bh s j

/-- The keys by head. -/
theorem v11_at (c : Dev nD) (bh : Fin 64) (s : Fin 2048) (j : Fin 64) :
    (W3 (F := Ideal) m ρ c (Proc.devRef .tc main_v11) : S64x2048x64.Idx → EReal) (ix3 bh s j)
      = (W2 (F := Ideal) m ρ c (Proc.devRef .tc main_v2) : S8192x3072.Idx → EReal)
          (ix2 (⟨2048 * (bh.val / 16) + s.val, by omega⟩ : Fin 8192) (⟨1024 + (64 * (bh.val % 16) + j.val), by omega⟩ : Fin 3072)) :=
  host1_v11 (W2 m ρ c) bh s j

/-- The values by head. -/
theorem v14_at (c : Dev nD) (bh : Fin 64) (s : Fin 2048) (j : Fin 64) :
    (W3 (F := Ideal) m ρ c (Proc.devRef .tc main_v14) : S64x2048x64.Idx → EReal) (ix3 bh s j)
      = (W2 (F := Ideal) m ρ c (Proc.devRef .tc main_v2) : S8192x3072.Idx → EReal)
          (ix2 (⟨2048 * (bh.val / 16) + s.val, by omega⟩ : Fin 8192) (⟨2048 + (64 * (bh.val % 16) + j.val), by omega⟩ : Fin 3072)) :=
  host1_v14 (W2 m ρ c) bh s j

/-- The heads' outputs merged side by side. -/
theorem v18_at (c : Dev nD) (r : Fin 8192) (k : Fin 1024) :
    (W5 (F := Ideal) m ρ c (Proc.devRef .tc main_v18) : S8192x1024.Idx → EReal) (ix2 r k)
      = (W4 (F := Ideal) m ρ c (Proc.devRef .tc main_v15) : S64x2048x64.Idx → EReal)
          (ix3 (⟨16 * (r.val / 2048) + k.val / 64, by have := r.isLt; omega⟩ : Fin 64) (⟨r.val % 2048, by omega⟩ : Fin 2048)
            (⟨k.val % 64, by omega⟩ : Fin 64)) :=
  host2_v18 (W4 m ρ c) r k

/-- The second bias as a row. -/
theorem v19_at (c : Dev nD) (e : Fin 1024) :
    (W5 (F := Ideal) m ρ c (Proc.devRef .tc main_v19) : S1x1024.Idx → EReal) (ix2 (0 : Fin 1) e)
      = (m ((c.tc : Thread nD τ).loc main_arg4) : S1024.Idx → EReal) (ix1 e) :=
  (host2_v19 (W4 m ρ c) e).trans (congrFun (W4_arg4 m ρ c) (ix1 e))

/-- The second linear layer's output. -/
theorem v20_at (c : Dev nD) (r : Fin 8192) (e : Fin 1024) :
    (W6 (F := Ideal) m ρ c (Proc.devRef .tc main_v20) : S8192x1024.Idx → EReal) (ix2 r e)
      = (∑ k : Fin 1024, arr (S := S8192x1024) (W5 (F := Ideal) m ρ c (Proc.devRef .tc main_v18)) (ix2 r k)
            * arr (S := S1024x1024) (m ((c.tc : Thread nD τ).loc main_arg3)) (ix2 e k))
        + arr (S := S1x1024) (W5 (F := Ideal) m ρ c (Proc.devRef .tc main_v19)) (ix2 (0 : Fin 1) e) := by
  have e1 : (W6 (F := Ideal) m ρ c (Proc.devRef .tc main_v20) : S8192x1024.Idx → EReal)
      = G2 (V5 m ρ c main_v18) (V5 m ρ c main_arg3) (V5 m ρ c main_v19) :=
    (W6_arr m ρ c 3).trans (final2_3 (V5 m ρ) c)
  have e2 : (V5 (F := Ideal) m ρ c main_arg3 : S1024x1024.Idx → EReal) = m ((c.tc : Thread nD τ).loc main_arg3) :=
    W5_arg3 m ρ c
  exact (congrFun e1 (ix2 r e)).trans
    (congrFun (congrArg (fun A1 : S1024x1024.Idx → EReal => G2 (V5 m ρ c main_v18) A1 (V5 m ρ c main_v19)) e2) (ix2 r e))

/-- The result regrouped into batches. -/
theorem v21_at (c : Dev nD) (n : Fin 4) (s : Fin 2048) (e : Fin 1024) :
    (W7 (F := Ideal) m ρ c (Proc.devRef .tc main_v21) : S4x2048x1024.Idx → EReal) (ix3 n s e)
      = (W6 (F := Ideal) m ρ c (Proc.devRef .tc main_v20) : S8192x1024.Idx → EReal)
          (ix2 (⟨2048 * n.val + s.val, by omega⟩ : Fin 8192) e) :=
  host3_v21 (W6 m ρ c) n s e

/-! ## The result -/

/-- Under the precondition the program's result buffer ends at the specification of the five argument arrays. -/
theorem kernel_value [Cert.Pre_finite_inputs.Facts] (hpre : Cert.Pre_KernelIdeal m) (c : Dev nD) :
    (W7 (F := Ideal) m ρ c (Proc.devRef .tc main_v21) : S4x2048x1024.Idx → EReal)
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  obtain ⟨hx, hw, hb, -, -⟩ := Cert.Finite.real_args m hpre c
  have hQ := Cert.Assemble.q_stage (m ((c.tc : Thread nD τ).loc main_arg0)) (m ((c.tc : Thread nD τ).loc main_arg1))
    (m ((c.tc : Thread nD τ).loc main_arg2)) _ (v0_at m ρ c) _ (v1_at m ρ c) _ (v2_at m ρ c) _ (v8_at m ρ c)
  have hK := Cert.Assemble.k_stage (m ((c.tc : Thread nD τ).loc main_arg0)) (m ((c.tc : Thread nD τ).loc main_arg1))
    (m ((c.tc : Thread nD τ).loc main_arg2)) _ (v0_at m ρ c) _ (v1_at m ρ c) _ (v2_at m ρ c) _ (v11_at m ρ c)
  have hV := Cert.Assemble.v_stage (m ((c.tc : Thread nD τ).loc main_arg0)) (m ((c.tc : Thread nD τ).loc main_arg1))
    (m ((c.tc : Thread nD τ).loc main_arg2)) _ (v0_at m ρ c) _ (v1_at m ρ c) _ (v2_at m ρ c) _ (v14_at m ρ c)
  have ho : ∀ (n : Fin 4) (h : Fin 16) (i : Fin 2048) (d : Fin 64),
      (W4 (F := Ideal) m ρ c (Proc.devRef .tc main_v15) : S64x2048x64.Idx → EReal) (ix3 (⟨16 * n.val + h.val, by omega⟩ : Fin 64) i d)
        = Spec.heads (m ((c.tc : Thread nD τ).loc main_arg0)) (m ((c.tc : Thread nD τ).loc main_arg1))
            (m ((c.tc : Thread nD τ).loc main_arg2)) n h i d := fun n h i d =>
    (congrFun (W4_arr m ρ c 3) _).trans (arr1_heads (V3 m ρ) _ _ _ hx hw hb c hQ hK hV n h i d)
  exact Cert.Assemble.kernel_is_G _ _ _ _ _ _ ho _ (v18_at m ρ c) _ (v19_at m ρ c) _ (v20_at m ρ c) _ (v21_at m ρ c)

end Cert.KernelIdeal.Hand

end
-- ==== Proof.LibLayout2.lean ====
/-
  One more slice read at coordinates: a rank-3 array cut along its first axis.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- A rank-3 array cut along its first axis from `o` reads, at `(j, a, e)`, the source at `(o + j, a, e)`. -/
theorem slice3_axis0_eq {n0 n1 n2 m : Nat} (o : Nat) (X : (⟨3, ![n0, n1, n2]⟩ : Shape).Idx → α)
    (h : (⟨3, ![n0, n1, n2]⟩ : Shape).Slices ![o, 0, 0] ⟨3, ![m, n1, n2]⟩) (j : Fin m) (a : Fin n1) (e : Fin n2) :
    extractStridedSlice ⟨3, ![m, n1, n2]⟩ ![o, 0, 0] X h (ix3 j a e)
      = X (ix3 ⟨o + j.val, Nat.lt_of_lt_of_le (Nat.add_lt_add_left j.isLt o) (h.2 0)⟩ a e) :=
  extractStridedSlice_apply _ _ _ _ _ (fun ax => by
    match ax with
    | ⟨0, _⟩ => rfl
    | ⟨1, _⟩ => exact (Nat.zero_add _).symm
    | ⟨2, _⟩ => exact (Nat.zero_add _).symm)

/-- The host's reduction by `max` over the last axis of a rank-4 array of extended reals, read at `(i, j, k)`: the fold
    of `max` over that axis from the initial value. -/
theorem hostReduce_max_last {a b c d : ℕ} {u : Shape} (x : FVec Ideal ⟨4, ![a, b, c, d]⟩ .f32) (init : u.Idx → EReal)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (i : Fin a) (j : Fin b) (k : Fin c) :
    Host.reduce FloatOps.maximumf x init h' hu (ix3 i j k)
      = (Finset.univ : Finset (Fin d)).fold max (init (Shape.Idx.first hu)) (fun l => x (ix4 i j k l)) := by
  rw [Host.reduce_eq_fold_single FloatOps.maximumf x init h' h hu]
  refine congrArg (Finset.fold max (init (Shape.Idx.first hu)) · Finset.univ) (funext fun l => ?_)
  exact congrArg x (funext fun ax => Fin.ext (by match ax with | ⟨0, _⟩ => rfl | ⟨1, _⟩ => rfl | ⟨2, _⟩ => rfl | ⟨3, _⟩ => rfl))

end Cert.LibLayout
-- ==== Proof.RefValue.lean ====
/-
  The reference computes the specification: each stage of its host program, read at an index, is the
  named stage of the specification at that index.
-/
import proofs.«125597_j3710851744401_2_alg».proof.Proof.Gen.ReferenceIdeal.Read
import proofs.«125597_j3710851744401_2_alg».proof.Proof.Spec
import proofs.«125597_j3710851744401_2_alg».proof.Proof.LibLayout2
import Idealize.ShloMosaic.Lib.WordArith

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal))

/-- The input projection. -/
theorem qkv_eq (n : Fin 4) (s : Fin 2048) (e : Fin 3072) :
    val_main_v3 (F := Ideal) x0 x1 x2 (ix3 n s e) = Spec.qkv x0 x1 x2 n s e := by
  rw [val_main_v3_apply, val_main_v0_apply, val_main_v2_apply, val_main_v1_apply]
  unfold Spec.qkv
  have e1 : ∀ d : Fin 1024, lidx_main_v0 (ix3 n s e) d = ix3 n s d := fun d =>
    funext fun a => by match a with | ⟨0, _⟩ => rfl | ⟨1, _⟩ => rfl | ⟨2, _⟩ => rfl
  have e2 : ∀ d : Fin 1024, ridx_main_v0 (ix3 n s e) d = ix2 e d := fun d =>
    funext fun a => by match a with | ⟨0, _⟩ => rfl | ⟨1, _⟩ => rfl
  have e3 : idx_main_v1 (idx_main_v2 (ix3 n s e)) = ix1 e :=
    funext fun a => by match a with | ⟨0, _⟩ => rfl
  simp only [e1, e2, e3]
  rfl

/-- The queries by head. -/
theorem q_eq (n : Fin 4) (h : Fin 16) (s : Fin 2048) (j : Fin 64) :
    val_main_v8 (F := Ideal) x0 x1 x2 (ix4 n h s j) = Spec.q x0 x1 x2 n h s j := by
  rw [val_main_v8_apply, val_main_v7_apply, val_main_v4_apply]
  have hn := n.isLt; have hh := h.isLt; have hs := s.isLt; have hj := j.isLt
  have e1 : idx_main_v4 (idx_main_v7 (idx_main_v8 (ix4 n h s j))) = ix3 n s (Spec.colQ h j) :=
    funext fun a => Fin.ext (by
      match a with
      | ⟨0, _⟩ => show (((n.val * 2048 + s.val) * 16 + h.val) * 64 + j.val) / 2097152 = n.val; omega
      | ⟨1, _⟩ => show (((n.val * 2048 + s.val) * 16 + h.val) * 64 + j.val) / 1024 % 2048 = s.val; omega
      | ⟨2, _⟩ => show (((n.val * 2048 + s.val) * 16 + h.val) * 64 + j.val) % 1024 = 64 * h.val + j.val; omega)
  rw [e1, qkv_eq]; rfl

/-- The keys by head. -/
theorem k_eq (n : Fin 4) (h : Fin 16) (s : Fin 2048) (j : Fin 64) :
    val_main_v10 (F := Ideal) x0 x1 x2 (ix4 n h s j) = Spec.k x0 x1 x2 n h s j := by
  rw [val_main_v10_apply, val_main_v9_apply, val_main_v5_apply]
  have hn := n.isLt; have hh := h.isLt; have hs := s.isLt; have hj := j.isLt
  have e1 : idx_main_v5 (idx_main_v9 (idx_main_v10 (ix4 n h s j))) = ix3 n s (Spec.colK h j) :=
    funext fun a => Fin.ext (by
      match a with
      | ⟨0, _⟩ => show (((n.val * 2048 + s.val) * 16 + h.val) * 64 + j.val) / 2097152 = n.val; omega
      | ⟨1, _⟩ => show (((n.val * 2048 + s.val) * 16 + h.val) * 64 + j.val) / 1024 % 2048 = s.val; omega
      | ⟨2, _⟩ => show 1024 + (((n.val * 2048 + s.val) * 16 + h.val) * 64 + j.val) % 1024 = 1024 + (64 * h.val + j.val); omega)
  rw [e1, qkv_eq]; rfl

/-- The values by head. -/
theorem v_eq (n : Fin 4) (h : Fin 16) (s : Fin 2048) (j : Fin 64) :
    val_main_v12 (F := Ideal) x0 x1 x2 (ix4 n h s j) = Spec.v x0 x1 x2 n h s j := by
  rw [val_main_v12_apply, val_main_v11_apply, val_main_v6_apply]
  have hn := n.isLt; have hh := h.isLt; have hs := s.isLt; have hj := j.isLt
  have e1 : idx_main_v6 (idx_main_v11 (idx_main_v12 (ix4 n h s j))) = ix3 n s (Spec.colV h j) :=
    funext fun a => Fin.ext (by
      match a with
      | ⟨0, _⟩ => show (((n.val * 2048 + s.val) * 16 + h.val) * 64 + j.val) / 2097152 = n.val; omega
      | ⟨1, _⟩ => show (((n.val * 2048 + s.val) * 16 + h.val) * 64 + j.val) / 1024 % 2048 = s.val; omega
      | ⟨2, _⟩ => show 2048 + (((n.val * 2048 + s.val) * 16 + h.val) * 64 + j.val) % 1024 = 2048 + (64 * h.val + j.val); omega)
  rw [e1, qkv_eq]; rfl

/-- The inner products of queries with keys. -/
theorem dots_eq (n : Fin 4) (h : Fin 16) (i j : Fin 2048) :
    val_main_v13 (F := Ideal) x0 x1 x2 (ix4 n h i j) = Spec.dots x0 x1 x2 n h i j := by
  rw [val_main_v13_apply]
  unfold Spec.dots
  refine Finset.sum_congr rfl fun d _ => ?_
  have e1 : lidx_main_v13 (ix4 n h i j) d = ix4 n h i d :=
    funext fun a => by match a with | ⟨0, _⟩ => rfl | ⟨1, _⟩ => rfl | ⟨2, _⟩ => rfl | ⟨3, _⟩ => rfl
  have e2 : ridx_main_v13 (ix4 n h i j) d = ix4 n h j d :=
    funext fun a => by match a with | ⟨0, _⟩ => rfl | ⟨1, _⟩ => rfl | ⟨2, _⟩ => rfl | ⟨3, _⟩ => rfl
  rw [e1, e2, q_eq, k_eq]

/-- Row at or below column, as the signed comparison of the two 32-bit counters says it. -/
theorem sge_counters (a b : ℕ) (ha : a < 2 ^ 31) (hb : b < 2 ^ 31) :
    IntOp.cmpi .sge (IntOp.addi (BitVec.ofNat 32 a) 0#32) (BitVec.ofNat 32 b) = if b ≤ a then 1#1 else 0#1 := by
  have e : IntOp.addi (BitVec.ofNat 32 a) 0#32 = BitVec.ofNat 32 a := BitVec.add_zero _
  rw [e]
  show BitVec.ofBool ((BitVec.ofNat 32 b).sle (BitVec.ofNat 32 a)) = _
  have hd : (BitVec.ofNat 32 b).sle (BitVec.ofNat 32 a) = decide (b ≤ a) := by
    rw [Bool.eq_iff_iff, BitVec.sle_iff_toInt_le, WordArith.toInt_ofNat_small b hb, WordArith.toInt_ofNat_small a ha,
      decide_eq_true_iff]
    exact Int.ofNat_le
  rw [hd]
  by_cases h : b ≤ a
  · rw [if_pos h, decide_eq_true h]; rfl
  · rw [if_neg h, decide_eq_false h]; rfl

/-- The mask: set strictly above the diagonal (key after query). -/
theorem mask_eq (n : Fin 4) (h : Fin 16) (i j : Fin 2048) :
    val_main_call1_v1 (F := Ideal) (ix4 n h i j) = if j.val ≤ i.val then 0#1 else 1#1 := by
  rw [val_main_call1_v1_apply, val_main_v15_apply, val_main_call0_v4_apply, val_main_call0_v2_apply, val_main_call0_v0_apply,
    val_main_call0_v1_apply, val_main_call0_c_apply, val_main_call0_v3_apply, val_main_call0_v5_apply, val_main_call0_c_0_apply,
    val_main_v14_apply, val_main_c_apply]
  show Scalar.select (IntOp.cmpi .sge (IntOp.addi (BitVec.ofNat 32 i.val) 0#32) (BitVec.ofNat 32 j.val)) 0#1 1#1 = _
  have hi := i.isLt; have hj := j.isLt
  rw [sge_counters i.val j.val (by omega) (by omega)]
  by_cases hij : j.val ≤ i.val
  · rw [if_pos hij, if_pos hij, select_one]
  · rw [if_neg hij, if_neg hij, select_zero]

/-- The masked inner products. -/
theorem masked_eq (n : Fin 4) (h : Fin 16) (i j : Fin 2048) :
    val_main_v16 (F := Ideal) x0 x1 x2 (ix4 n h i j)
      = if j.val ≤ i.val then Spec.dots x0 x1 x2 n h i j else Spec.negInf := by
  rw [val_main_v16_apply, mask_eq, dots_eq, val_main_call1_v2_apply, val_main_call1_v0_apply, val_main_cst_apply]
  by_cases hij : j.val ≤ i.val
  · rw [if_pos hij, if_pos hij, select_zero]
  · rw [if_neg hij, if_neg hij, select_one]; rfl

/-- The masked, scaled scores. -/
theorem score_eq (n : Fin 4) (h : Fin 16) (i j : Fin 2048) :
    val_main_v18 (F := Ideal) x0 x1 x2 (ix4 n h i j) = Spec.score x0 x1 x2 n h i j := by
  rw [val_main_v18_apply, masked_eq, val_main_v17_apply, val_main_cst_0_apply]; rfl

/-- The maximum of a row of scores. -/
theorem rowMax_eq (n : Fin 4) (h : Fin 16) (i : Fin 2048) :
    val_main_v21 (F := Ideal) x0 x1 x2 (ix3 n h i) = Spec.rowMax x0 x1 x2 n h i := by
  rw [val_main_v21_apply, val_main_v20_apply, val_main_cst_2_apply]
  unfold val_main_v19 Spec.rowMax
  rw [Cert.LibLayout.hostReduce_max_last (val_main_v18 (F := Ideal) x0 x1 x2) (val_main_cst_1 (F := Ideal))
    reducesTo_S4x16x2048x2048_S4x16x2048_d3 (by decide) h_S_ n h i, val_main_cst_1_apply]
  simp only [score_eq]
  rfl

/-- The unnormalised weights. -/
theorem expo_eq (n : Fin 4) (h : Fin 16) (i j : Fin 2048) :
    val_main_v25 (F := Ideal) x0 x1 x2 (ix4 n h i j) = Spec.expo x0 x1 x2 n h i j := by
  rw [val_main_v25_apply, val_main_v24_apply, score_eq, val_main_v23_apply, val_main_v22_apply]
  have e1 : idx_main_v22 (idx_main_v23 (ix4 n h i j)) = ix3 n h i :=
    funext fun a => by match a with | ⟨0, _⟩ => rfl | ⟨1, _⟩ => rfl | ⟨2, _⟩ => rfl
  rw [e1, rowMax_eq]; rfl

/-- The softmax's denominators. -/
theorem rowSum_eq (n : Fin 4) (h : Fin 16) (i : Fin 2048) :
    val_main_v26 (F := Ideal) x0 x1 x2 (ix3 n h i) = Spec.rowSum x0 x1 x2 n h i := by
  rw [val_main_v26_apply, val_main_cst_3_apply]
  unfold Spec.rowSum
  have e1 : ∀ k : Fin 2048, idx_main_v26 (ix3 n h i) k = ix4 n h i k := fun k =>
    funext fun a => by match a with | ⟨0, _⟩ => rfl | ⟨1, _⟩ => rfl | ⟨2, _⟩ => rfl | ⟨3, _⟩ => rfl
  simp only [e1, expo_eq]
  rfl

/-- The attention weights. -/
theorem attn_eq (n : Fin 4) (h : Fin 16) (i j : Fin 2048) :
    val_main_v29 (F := Ideal) x0 x1 x2 (ix4 n h i j) = Spec.attn x0 x1 x2 n h i j := by
  rw [val_main_v29_apply, expo_eq, val_main_v28_apply, val_main_v27_apply]
  have e1 : idx_main_v27 (idx_main_v28 (ix4 n h i j)) = ix3 n h i :=
    funext fun a => by match a with | ⟨0, _⟩ => rfl | ⟨1, _⟩ => rfl | ⟨2, _⟩ => rfl
  rw [e1, rowSum_eq]; rfl

/-- Each head's output. -/
theorem heads_eq (n : Fin 4) (h : Fin 16) (i : Fin 2048) (d : Fin 64) :
    val_main_v30 (F := Ideal) x0 x1 x2 (ix4 n h i d) = Spec.heads x0 x1 x2 n h i d := by
  rw [val_main_v30_apply]
  unfold Spec.heads
  refine Finset.sum_congr rfl fun j _ => ?_
  have e1 : lidx_main_v30 (ix4 n h i d) j = ix4 n h i j :=
    funext fun a => by match a with | ⟨0, _⟩ => rfl | ⟨1, _⟩ => rfl | ⟨2, _⟩ => rfl | ⟨3, _⟩ => rfl
  have e2 : ridx_main_v30 (ix4 n h i d) j = ix4 n h j d :=
    funext fun a => by match a with | ⟨0, _⟩ => rfl | ⟨1, _⟩ => rfl | ⟨2, _⟩ => rfl | ⟨3, _⟩ => rfl
  rw [e1, e2, attn_eq, v_eq]

/-- The heads side by side. -/
theorem merged_eq (n : Fin 4) (s : Fin 2048) (c : Fin 1024) :
    val_main_v32 (F := Ideal) x0 x1 x2 (ix3 n s c) = Spec.merged x0 x1 x2 n s c := by
  rw [val_main_v32_apply, val_main_v31_apply]
  have hn := n.isLt; have hs := s.isLt; have hc := c.isLt
  have e1 : idx_main_v31 (idx_main_v32 (ix3 n s c))
      = ix4 n (⟨c.val / 64, by omega⟩ : Fin 16) s (⟨c.val % 64, by omega⟩ : Fin 64) :=
    funext fun a => Fin.ext (by
      match a with
      | ⟨0, _⟩ => show ((n.val * 2048 + s.val) * 1024 + c.val) / 2097152 = n.val; omega
      | ⟨1, _⟩ => show ((n.val * 2048 + s.val) * 1024 + c.val) / 64 % 16 = c.val / 64; omega
      | ⟨2, _⟩ => show ((n.val * 2048 + s.val) * 1024 + c.val) / 1024 % 2048 = s.val; omega
      | ⟨3, _⟩ => show ((n.val * 2048 + s.val) * 1024 + c.val) % 64 = c.val % 64; omega)
  rw [e1, heads_eq]; rfl

variable (x3 : (⟨S1024x1024, .f32⟩ : BufTy).Contents (Elt Ideal)) (x4 : (⟨S1024, .f32⟩ : BufTy).Contents (Elt Ideal))

/-- The output projection. -/
theorem out_eq (n : Fin 4) (s : Fin 2048) (e : Fin 1024) :
    val_main_v36 (F := Ideal) x0 x1 x2 x3 x4 (ix3 n s e) = Spec.out x0 x1 x2 x3 x4 n s e := by
  rw [val_main_v36_apply, val_main_v33_apply, val_main_v35_apply, val_main_v34_apply]
  unfold Spec.out
  have e1 : ∀ c : Fin 1024, lidx_main_v33 (ix3 n s e) c = ix3 n s c := fun c =>
    funext fun a => by match a with | ⟨0, _⟩ => rfl | ⟨1, _⟩ => rfl | ⟨2, _⟩ => rfl
  have e2 : ∀ c : Fin 1024, ridx_main_v33 (ix3 n s e) c = ix2 e c := fun c =>
    funext fun a => by match a with | ⟨0, _⟩ => rfl | ⟨1, _⟩ => rfl
  have e3 : idx_main_v34 (idx_main_v35 (ix3 n s e)) = ix1 e :=
    funext fun a => by match a with | ⟨0, _⟩ => rfl
  simp only [e1, e2, e3, merged_eq]
  rfl

/-- The reference's whole result is the specification. -/
theorem val_is_G : val_main_v36 (F := Ideal) x0 x1 x2 x3 x4 = Spec.G x0 x1 x2 x3 x4 := by
  funext i
  obtain ⟨n, s, e, rfl⟩ : ∃ (n : Fin 4) (s : Fin 2048) (e : Fin 1024), i = ix3 n s e := ⟨i 0, i 1, i 2, eq_ix3 i⟩
  rw [out_eq]
  rfl

/-- The reference's run ends with the specification of the five argument buffers. -/
theorem ref_is_G (m : (ℓ : Loc nD τ sig) → Buf (Elt Ideal) ℓ) (c : Dev nD) :
    Cert.ReferenceIdeal.Value.res_main_v36 m c
      = Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v36_eq, val_is_G]

end Cert.ReferenceIdeal.RefValue

end
-- ==== Proof.lean ====
/-
  Causal self-attention, a fused kernel against plain jnp.

  Both programs compute, for x : [4, 2048, 1024] and the two weight/bias pairs,
      qkv = x · w_inᵀ + b_in,   cut into 16 heads of queries, keys and values of width 64,
      score(i, j) = q_i · k_j / 8 for j ≤ i and -∞ for j > i,   attn = softmax over j,   o_i = ∑_j attn(i, j) · v_j,
      out = o (heads side by side) · w_outᵀ + b_out.
  The reference does exactly this with host operations.  The kernel program does it in three pallas_calls with host
  re-layouts between them: a linear layer tiled 512 × 1024 over a 16 × 3 grid; flash attention over 64 heads × 4 query
  tiles × 4 key tiles of 512 rows, which keeps per query row a running maximum m, a running denominator l and a
  running weighted sum acc in three scratch buffers, skips the key tiles above the diagonal, scales the scores by
  0.125 before masking, and writes acc / l after the last key tile; and the linear layer again over 16 grid points.

  Why the two agree on the extended reals (`Spec.lean` states the common function `G` stage by stage):
  * a change of float format is the identity and a matrix product into a zero accumulator is a plain sum, so each
    linear layer is its formula (`KIValue0`, `KIValue2`), and the host re-layouts only rename coordinates (`KIHost`);
  * 0.125 is exactly 1/8, and -∞ times or divided by a positive number is -∞, so scaling before the mask is dividing
    after it; the kernel's -1e30 is the named constant whose value is -∞, used only as the mask's fill and as the
    first running maximum;
  * one step of the online softmax rescales l and acc by exp(m − m') and adds the new tile's terms; for real scores and
    values — finite inputs give real q, k, v — the state after the tiles 0 … qi is the maximum, the sum of exp(s − max)
    and the weighted sum over all their columns, every processed tile having an unmasked column in each row, and the
    skipped tiles and the masked columns weigh exp(-∞) = 0: the final quotient is the softmax-weighted sum over the
    whole row (`OnlineAttn`, met by the scratch contents point by point in `KIValue1`, by the output array in `KIArr1`);
  * the reference's composed term is `G` operation by operation (`RefValue`).
  The frames: each pallas_call's body is run once per control case of its `scf.if`s (`KIRegion0/1/2`, `KRegion0/1/2`),
  and the seven items of @main are chained from the launch memory to the return (`KIRun`, `KRun`); no item writes an
  argument array.
-/
import proofs.«125597_j3710851744401_2_alg».proof.Defs
import proofs.«125597_j3710851744401_2_alg».proof.Proof.Gen.Kernel
import proofs.«125597_j3710851744401_2_alg».proof.Proof.Gen.KernelIdeal
import proofs.«125597_j3710851744401_2_alg».proof.Proof.Gen.ReferenceIdeal
import proofs.«125597_j3710851744401_2_alg».proof.Proof.Gen.ReferenceIdeal.Run
import proofs.«125597_j3710851744401_2_alg».proof.Proof.Gen.ReferenceIdeal.Read
import proofs.«125597_j3710851744401_2_alg».proof.Proof.Gen.Pre_finite_inputs
import proofs.«125597_j3710851744401_2_alg».proof.Proof.KRun
import proofs.«125597_j3710851744401_2_alg».proof.Proof.KIRun
import proofs.«125597_j3710851744401_2_alg».proof.Proof.KIValue
import proofs.«125597_j3710851744401_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end, faults nowhere and leaves its five argument arrays as launched. -/
theorem frame_k : Cert.frame_Kernel := fun m ρ _ => Cert.Kernel.Hand.frame (F := Bits) m ρ

/-- So does the idealized program, on the extended reals. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two places where the kernel writes -1e30 — the running maximum's first value and the fill of the masked
    scores — are the named constant whose value on the extended reals is -∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- On the extended reals both programs end with the same array: causal softmax attention of the projected
    queries, keys and values, projected once more.  The kernel's result is read off the last stage of its run;
    the reference's off its operations' composed term; both are the one function `Spec.G` of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Hand.run_all (F := Ideal) m ρ)
    · exact (h c _ (Cert.KernelIdeal.Hand.mem_uc Cert.KernelIdeal.main_v21 (by decide))).trans
        (Cert.KernelIdeal.Hand.kernel_value m ρ hpre c)
    · exact (h c _ (Cert.KernelIdeal.Hand.mem_uc Cert.KernelIdeal.main_arg0 (by decide))).trans (Cert.KernelIdeal.Hand.W7_main_arg0 m ρ c)
    · exact (h c _ (Cert.KernelIdeal.Hand.mem_uc Cert.KernelIdeal.main_arg1 (by decide))).trans (Cert.KernelIdeal.Hand.W7_main_arg1 m ρ c)
    · exact (h c _ (Cert.KernelIdeal.Hand.mem_uc Cert.KernelIdeal.main_arg2 (by decide))).trans (Cert.KernelIdeal.Hand.W7_main_arg2 m ρ c)
    · exact (h c _ (Cert.KernelIdeal.Hand.mem_uc Cert.KernelIdeal.main_arg3 (by decide))).trans (Cert.KernelIdeal.Hand.W7_main_arg3 m ρ c)
    · exact (h c _ (Cert.KernelIdeal.Hand.mem_uc Cert.KernelIdeal.main_arg4 (by decide))).trans (Cert.KernelIdeal.Hand.W7_main_arg4 m ρ c)
  · refine (θ_run Cert.ReferenceIdeal.defs _ _).mono (fun _ h c => ⟨?_, (h c).2⟩) (Cert.ReferenceIdeal.Value.run (F := Ideal) m' ρ')
    rw [(h c).1, Cert.ReferenceIdeal.RefValue.ref_is_G, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
